-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S32 .f32) (main_arg10 : FVec F S32x32 .f32) (main_arg11 : FVec F S32x32 .f32) (main_arg12 : FVec F S32x32 .f32) (main_arg13 : FVec F S32 .f32) (main_arg14 : FVec F S32x1 .f32) (main_arg15 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_v48 main_v49 main_v50

def fn_part1 {F : FTy → Type} [FloatOps F] (main_arg6 : FVec F S6x32 .f32) (main_arg7 : FVec F S6x32 .f32) (main_arg8 : FVec F S32x32 .f32) (main_arg9 : FVec F S32 .f32) (main_arg10 : FVec F S32x32 .f32) (main_arg11 : FVec F S32x32 .f32) (main_arg12 : FVec F S32x32 .f32) (main_arg13 : FVec F S32 .f32) (main_arg14 : FVec F S32x1 .f32) (main_arg15 : FVec F S1 .f32) (main_v13 : IVec S_ 1) (main_v16 : IVec S6x32 1) : IVec S_ 1 :=
  let main_c_5 : IVec S_ 1 := constantI S_ 1 1#1
  let main_v17 : IVec S_ 1 := (fun x v => Host.reduce IntOp.andi x v reducesTo_S6x32_S_d0_1 h_S_) main_v16 main_c_5
  let main_v18 : IVec S_ 1 := andi main_v13 main_v17
  let main_v19 : FVec F S6x32 .f32 := Host.absf main_arg6
  let main_cst_6 : FVec F S_ .f32 := constant S_ .f32 0x7F800000#32
  let main_v20 : FVec F S6x32 .f32 := broadcastInDim S6x32 ![] bcast_S_S6x32 main_cst_6
  let main_v21 : IVec S6x32 1 := cmpf .olt main_v19 main_v20
  let main_c_7 : IVec S_ 1 := constantI S_ 1 1#1
  let main_v22 : IVec S_ 1 := (fun x v => Host.reduce IntOp.andi x v reducesTo_S6x32_S_d0_1 h_S_) main_v21 main_c_7
  let main_v23 : IVec S_ 1 := andi main_v18 main_v22
  let main_v24 : FVec F S6x32 .f32 := Host.absf main_arg7
  let main_cst_8 : FVec F S_ .f32 := constant S_ .f32 0x7F800000#32
  let main_v25 : FVec F S6x32 .f32 := broadcastInDim S6x32 ![] bcast_S_S6x32 main_cst_8
  let main_v26 : IVec S6x32 1 := cmpf .olt main_v24 main_v25
  let main_c_9 : IVec S_ 1 := constantI S_ 1 1#1
  let main_v27 : IVec S_ 1 := (fun x v => Host.reduce IntOp.andi x v reducesTo_S6x32_S_d0_1 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x6 .f32) (main_arg1 : IVec S2x1600000 32) (main_arg2 : IVec S2x1600000 32) (main_arg3 : FVec F S6x32 .f32) (main_arg4 : FVec F S32 .f32) (main_arg5 : FVec F S6x32 .f32) (main_arg6 : FVec F S6x32 .f32) (main_arg7 : FVec F S6x32 .f32) (main_arg8 : FVec F S32x32 .f32) (main_arg9 : FVec F S32 .f32) (main_arg10 : FVec F S32x32 .f32) (main_arg11 : FVec F S32x32 .f32) (main_arg12 : FVec F S32x32 .f32) (main_arg13 : FVec F S32 .f32) (main_arg14 : FVec F S32x1 .f32) (main_arg15 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg3
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S6x32 .f32 := Host.absf main_arg5
  let main_cst_4 : FVec F S_ .f32 := constant S_ .f32 0x7F800000#32
  let main_v15 : FVec F S6x32 .f32 := broadcastInDim S6x32 ![] bcast_S_S6x32 main_cst_4
  let main_v16 : IVec S6x32 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S6x128 : Shape := ⟨2, ![6, 128]⟩
abbrev S100000x128 : Shape := ⟨2, ![100000, 128]⟩
abbrev S10000x6 : Shape := ⟨2, ![10000, 6]⟩
abbrev S10000x128 : Shape := ⟨2, ![10000, 128]⟩
abbrev S100000x32 : Shape := ⟨2, ![100000, 32]⟩
abbrev S1600000x32 : Shape := ⟨2, ![1600000, 32]⟩
abbrev S100000x65 : Shape := ⟨2, ![100000, 65]⟩
abbrev S32x96 : Shape := ⟨2, ![32, 96]⟩
abbrev S1x32 : Shape := ⟨2, ![1, 32]⟩
abbrev S10000x65 : Shape := ⟨2, ![10000, 65]⟩
abbrev S10000x32 : Shape := ⟨2, ![10000, 32]⟩
abbrev S10000x1 : Shape := ⟨2, ![10000, 1]⟩
abbrev S10000x96 : Shape := ⟨2, ![10000, 96]⟩
abbrev S1x1 : Shape := ⟨2, ![1, 1]⟩

abbrev nBuf : Space → Nat
  | .hbm => 98
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S2x1600000, .i32⟩
  | .hbm, ⟨3, _⟩ => ⟨S6x32, .f32⟩
  | .hbm, ⟨4, _⟩ => ⟨S32, .f32⟩
  | .hbm, ⟨5, _⟩ => ⟨S6x32, .f32⟩
  | .hbm, ⟨6, _⟩ => ⟨S6x32, .f32⟩
  | .hbm, ⟨7, _⟩ => ⟨S6x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S6x128, .f32⟩
  | .hbm, ⟨32, _⟩ => ⟨S100000x128, .f32⟩
  | .hbm, ⟨33, _⟩ => ⟨S100000x32, .f32⟩
  | .hbm, ⟨34, _⟩ => ⟨S100000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S_, .f32⟩
  | .hbm, ⟨45, _⟩ => ⟨S100000x32, .f32⟩
  | .hbm, ⟨46, _⟩ => ⟨S1600000x1, .i32⟩
  | .hbm, ⟨47, _⟩ => ⟨S100000x32, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S100000x65, .f32⟩
  | .hbm, ⟨62, _⟩ => ⟨S32x96, .f32⟩
  | .hbm, ⟨63, _⟩ => ⟨S1x32, .f32⟩
  | .hbm, ⟨64, _⟩ => ⟨S100000x128, .f32⟩
  | .hbm, ⟨65, _⟩ => ⟨S100000x32, .f32⟩
  | .hbm, ⟨66, _⟩ => ⟨S100000x32, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x32, .f32⟩
  | .hbm, ⟨76, _⟩ => ⟨S_, .f32⟩
  | .hbm, ⟨77, _⟩ => ⟨S100000x32, .f32⟩
  | .hbm, ⟨78, _⟩ => ⟨S1600000x1, .i32⟩
  | .hbm, ⟨79, _⟩ => ⟨S100000x32, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x32, .f32⟩
  | .hbm, ⟨89, _⟩ => ⟨S_, .f32⟩
  | .hbm, ⟨90, _⟩ => ⟨S100000x32, .f32⟩
  | .hbm, ⟨91, _⟩ => ⟨S1600000x1, .i32⟩
  | .hbm, ⟨92, _⟩ => ⟨S100000x32, .f32⟩
  | .hbm, ⟨93, _⟩ => ⟨S100000x65, .f32⟩
  | .hbm, ⟨94, _⟩ => ⟨S1x32, .f32⟩
  | .hbm, ⟨95, _⟩ => ⟨S1x32, .f32⟩
  | .hbm, ⟨96, _⟩ => ⟨S1x1, .f32⟩
  | .hbm, ⟨97, _⟩ => ⟨S100000x1, .f32⟩
  | .local _ .vmem, ⟨0, _⟩ => ⟨S10000x6, .f32⟩
  | .local _ .vmem, ⟨1, _⟩ => ⟨S10000x6, .f32⟩
  | .local _ .vmem, ⟨2, _⟩ => ⟨S6x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x32, .f32⟩
  | .local _ .vmem, ⟨8, _⟩ => ⟨S10000x65, .f32⟩
  | .local _ .vmem, ⟨9, _⟩ => ⟨S10000x65, .f32⟩
  | .local _ .vmem, ⟨10, _⟩ => ⟨S32x96, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S1x32, .f32⟩
  | .local _ .vmem, ⟨16, _⟩ => ⟨S10000x65, .f32⟩
  | .local _ .vmem, ⟨17, _⟩ => ⟨S10000x65, .f32⟩
  | .local _ .vmem, ⟨18, _⟩ => ⟨S32x32, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S10000x1, .f32⟩
  | .local _ .vmem, ⟨23, _⟩ => ⟨S10000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x65 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x65 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S6x32_S6x32_S6x32_S6x32_S6x128_d1 : Shape.Concatenates [S6x32, S6x32, S6x32, S6x32] S6x128 1
  inb_S10000x6_S10000x6_0_0 : ∀ a, (![0, 0] : Fin 2 → Nat) a + S10000x6.size a ≤ S10000x6.size a
  h_S10000x6 : 0 < S10000x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S10000x128_S10000x128_0_0 : ∀ a, (![0, 0] : Fin 2 → Nat) a + S10000x128.size a ≤ S10000x128.size a
  h_S10000x128 : 0 < S10000x128.numel
  slices_S100000x128_S100000x32_0_32 : S100000x128.Slices ![0, 32] S100000x32
  slices_S100000x128_S100000x32_0_64 : S100000x128.Slices ![0, 64] S100000x32
  bcast_S_S100000x32 : S_.BroadcastsInDim S100000x32 (![] : Fin 0 → Fin S100000x32.rank)
  concatenates_S100000x32_S100000x32_S100000x1_S100000x65_d1 : Shape.Concatenates [S100000x32, S100000x32, S100000x1] S100000x65 1
  concatenates_S32x32_S32x32_S32x32_S32x96_d1 : Shape.Concatenates [S32x32, S32x32, S32x32] S32x96 1
  shapeCasts_S32_S1x32 : S32.ShapeCasts S1x32
  shapeCasts_S10000x128_S10000x128 : S10000x128.ShapeCasts S10000x128
  slices_S10000x128_o0_0_S10000x32 : S10000x128.Slices ![0, 0] S10000x32
  slices_S10000x128_o0_96_S10000x32 : S10000x128.Slices ![0, 96] S10000x32
  inb_S10000x65_S10000x65_0_0 : ∀ a, (![0, 0] : Fin 2 → Nat) a + S10000x65.size a ≤ S10000x65.size a
  h_S10000x65 : 0 < S10000x65.numel
  shapeCasts_S10000x65_S10000x65 : S10000x65.ShapeCasts S10000x65
  slices_S10000x65_o0_0_S10000x32 : S10000x65.Slices ![0, 0] S10000x32
  slices_S10000x65_o0_32_S10000x32 : S10000x65.Slices ![0, 32] S10000x32
  slices_S10000x65_o0_64_S10000x1 : S10000x65.Slices ![0, 64] S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  concatenates_S10000x96_S10000x32_S10000x128_d1 : Shape.Concatenates [S10000x96, S10000x32] S10000x128 1
  shapeCasts_S1_S1x1 : S1.ShapeCasts S1x1
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1600000x1_S1600000_n_0_0_1_wf : ScatterDims.WF S100000 S1600000x1 S1600000 [] [0] [0] 1
  dot_S10000x6_S6x128_S10000x128_1_0_0_1_n_n_wf : DotDims.WF S10000x6 S6x128 S10000x128 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x96_S10000x96_1_0_0_1_n_n_wf : DotDims.WF S10000x32 S32x96 S10000x96 [1] [0] [0] [1] [] []
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x65.size a ≤ S100000x65.size a
  hwx1_2 : ∀ i : grid1.Coords, EltTy.bits .f32 = 32 ∨ (Rect.block (s := S100000x65) S10000x65.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x96.size a ≤ S32x96.size a
  hwx1_3 : ∀ i : grid1.Coords, EltTy.bits .f32 = 32 ∨ (Rect.block (s := S32x96) S32x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x65.size a ≤ S100000x65.size a
  hwx2_2 : ∀ i : grid2.Coords, EltTy.bits .f32 = 32 ∨ (Rect.block (s := S100000x65) S10000x65.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S100000x1.size a
  hwx2_7 : ∀ i : grid2.Coords, EltTy.bits .f32 = 32 ∨ (Rect.block (s := S100000x1) S10000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x6_S6x128_S10000x128_1_0_0_1_n_n : DotDims S10000x6 S6x128 S10000x128 where
  lhsContracting := [1]
  rhsContracting := [0]
  lhsNonContracting := [0]
  rhsNonContracting := [1]
  lhsBatch := []
  rhsBatch := []
  wf := dot_S10000x6_S6x128_S10000x128_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x96_S10000x96_1_0_0_1_n_n : DotDims S10000x32 S32x96 S10000x96 where
  lhsContracting := [1]
  rhsContracting := [0]
  lhsNonContracting := [0]
  rhsNonContracting := [1]
  lhsBatch := []
  rhsBatch := []
  wf := dot_S10000x32_S32x96_S10000x96_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S10000x65.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S32x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x65.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x32 : Shape := ⟨2, ![6, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1600000x32 : Shape := ⟨2, ![1600000, 32]⟩
abbrev S100000x32 : Shape := ⟨2, ![100000, 32]⟩
abbrev S100000 : Shape := ⟨1, ![100000]⟩
abbrev S100000x1 : Shape := ⟨2, ![100000, 1]⟩
abbrev S1x32 : Shape := ⟨2, ![1, 32]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000x6, .f32⟩
  | 1 => ⟨S2x1600000, .i32⟩
  | 2 => ⟨S2x1600000, .i32⟩
  | 3 => ⟨S6x32, .f32⟩
  | 4 => ⟨S32, .f32⟩
  | 5 => ⟨S6x32, .f32⟩
  | 6 => ⟨S6x32, .f32⟩
  | 7 => ⟨S6x32, .f32⟩
  | 8 => ⟨S32x32, .f32⟩
  | 9 => ⟨S32, .f32⟩
  | 10 => ⟨S32x32, .f32⟩
  | 11 => ⟨S32x32, .f32⟩
  | 12 => ⟨S32x32, .f32⟩
  | 13 => ⟨S32, .f32⟩
  | 14 => ⟨S32x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x6, .f32⟩
  | 29 => ⟨S1600000x32, .f32⟩
  | 30 => ⟨S_, .f32⟩
  | 31 => ⟨S100000x32, .f32⟩
  | 32 => ⟨S1600000x1, .i32⟩
  | 33 => ⟨S100000x32, .f32⟩
  | 34 => ⟨S1x1600000, .i32⟩
  | 35 => ⟨S1600000, .i32⟩
  | 36 => ⟨S1x1600000, .i32⟩
  | 37 => ⟨S1600000, .i32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x6, .f32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x32, .f32⟩
  | 63 => ⟨S100000x32, .f32⟩
  | 64 => ⟨S100000x32, .f32⟩
  | 65 => ⟨S100000x32, .f32⟩
  | 66 => ⟨S1x32, .f32⟩
  | 67 => ⟨S100000x32, .f32⟩
  | 68 => ⟨S100000x32, .f32⟩
  | 69 => ⟨S100000x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S1x1600000, .i32⟩
  | 76 => ⟨S1600000, .i32⟩
  | 77 => ⟨S1x1600000, .i32⟩
  | 78 => ⟨S1600000, .i32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x32, .f32⟩
  | 88 => ⟨S1600000x32, .f32⟩
  | 89 => ⟨S_, .f32⟩
  | 90 => ⟨S100000x32, .f32⟩
  | 91 => ⟨S1600000x1, .i32⟩
  | 92 => ⟨S100000x32, .f32⟩
  | 93 => ⟨S1x1600000, .i32⟩
  | 94 => ⟨S1600000, .i32⟩
  | 95 => ⟨S1x1600000, .i32⟩
  | 96 => ⟨S1600000, .i32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S1600000x32, .f32⟩
  | 107 => ⟨S_, .f32⟩
  | 108 => ⟨S100000x32, .f32⟩
  | 109 => ⟨S1600000x1, .i32⟩
  | 110 => ⟨S100000x32, .f32⟩
  | 111 => ⟨S_, .f32⟩
  | 112 => ⟨S1600000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S100000x32, .f32⟩
  | _ => ⟨S100000x6, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x32, .f32⟩
  | 6 => ⟨S1x32, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S100000x1, .f32⟩
  | 13 => ⟨S1x1, .f32⟩
  | 14 => ⟨S100000x1, .f32⟩
  | 15 => ⟨S100000x1, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S_, .f32⟩
  | 22 => ⟨S100000x1, .f32⟩
  | 23 => ⟨S100000x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call0_cst : Ref sig .tc := ⟨.hbm, 72, rfl⟩
abbrev main_call0_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_7 : Ref sig .tc := ⟨.hbm, 79, rfl⟩
abbrev main_v52 : Ref sig .tc := ⟨.hbm, 80, rfl⟩
abbrev main_v53 : Ref sig .tc := ⟨.hbm, 81, rfl⟩
abbrev main_c_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call1_cst : Ref sig .tc := ⟨.hbm, 130, rfl⟩
abbrev main_call1_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call2_cst : Ref sig .tc := ⟨.hbm, 137, rfl⟩
abbrev main_call2_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_16 : Ref sig .tc := ⟨.hbm, 146, rfl⟩
abbrev main_v106 : Ref sig .tc := ⟨.hbm, 147, rfl⟩
abbrev main_v107 : Ref sig .tc := ⟨.hbm, 148, rfl⟩
abbrev main_cst_17 : Ref sig .tc := ⟨.hbm, 149, rfl⟩
abbrev main_v108 : Ref sig .tc := ⟨.hbm, 150, rfl⟩
abbrev main_v109 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x6_S1600000x1_S1600000x6_1_0_n_n_0_1_16_wf : GatherDims.WF S100000x6 S1600000x1 S1600000x6 [1] [0] [] [0] [] 1 ![1, 6]
  dot_S1600000x6_S6x32_S1600000x32_1_0_0_1_n_n_wf : DotDims.WF S1600000x6 S6x32 S1600000x32 [1] [0] [0] [1] [] []
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x6_S6x32_S100000x32_1_0_0_1_n_n_wf : DotDims.WF S100000x6 S6x32 S100000x32 [1] [0] [0] [1] [] []
  gather_S100000x32_S1600000x1_S1600000x32_1_0_n_n_0_1_132_wf : GatherDims.WF S100000x32 S1600000x1 S1600000x32 [1] [0] [] [0] [] 1 ![1, 32]
  dot_S1600000x32_S32x32_S1600000x32_1_0_0_1_n_n_wf : DotDims.WF S1600000x32 S32x32 S1600000x32 [1] [0] [0] [1] [] []
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S1600000x6_S6x32_S1600000x32_1_0_0_1_n_n : DotDims S1600000x6 S6x32 S1600000x32 where
  lhsContracting := [1]
  rhsContracting := [0]
  lhsNonContracting := [0]
  rhsNonContracting := [1]
  lhsBatch := []
  rhsBatch := []
  wf := dot_S1600000x6_S6x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.BitsProject.lean ====
/-
  The first stage: every block of ten thousand rows of the node features times the four first-layer weight matrices laid
  side by side, one matrix product per grid point. This module runs the stage's body on one block and states what each
  staging buffer holds afterwards.
-/
import proofs.«152504_j884763263722_2_alg».proof.Proof.Gen.Kernel.Launch
import proofs.«152504_j884763263722_2_alg».proof.Proof.Gen.Kernel.Skeleton
import proofs.«152504_j884763263722_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether it was fetched there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether it was fetched there or the
    block index did not move since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads each block whole and writes the output block whole. -/
abbrev r0_0 : Rect S10000x6 := Rect.unit (s := S10000x6) ![0, 0] S10000x6.size inb_S10000x6_S10000x6_0_0
abbrev r0_1 : Rect S6x128 := Rect.unit (s := S6x128) ![0, 0] S6x128.size inb_S6x128_S6x128_0_0
abbrev r0_2 : Rect S10000x128 := Rect.unit (s := S10000x128) ![0, 0] S10000x128.size inb_S10000x128_S10000x128_0_0

/-- The output block after the body: the product of the feature block with the four weight matrices side by side. -/
def out0_2 (x0 : Vec F S10000x6 .f32) (x1 : Vec F S6x128 .f32) : Vec F S10000x128 .f32 :=
  View.canon [⟨r0_2, k0_pay1 (View.ld x0 r0_0) (View.ld x1 r0_1)⟩]

/-- The one store covers the whole output block. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 4000000 in
/-- The body, run on whole staging buffers holding the input blocks, ends with the inputs as they were and the output
    buffer at `out0_2` of them, whatever the output buffer held before. -/
theorem sound_kernel0 (c : Dev nD) (E : Set ℕ) (i : grid0.Coords)
    (arg1 : Memref sig .tc .vmem S10000x6 .f32) (harg1 : arg1.IsWhole) (arg2 : Memref sig .tc .vmem S6x128 .f32) (harg2 : arg2.IsWhole) (arg3 : Memref sig .tc .vmem S10000x128 .f32) (harg3 : arg3.IsWhole)
    (x0 : Vec F S10000x6 .f32) (x1 : Vec F S6x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data on core `c`: the arrays as the stage finds them; after the body at point `t` each input's
    buffer still at its block and the output's at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: its input buffers hold their blocks, so the triple above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the stage, at every grid point. -/
theorem body_obligation0 (c : Dev nD) : BodyObligation (dat0 (F := F) V c) (defs₀ (F := F)) Variants.none () Set.univ := fun t => by
  rw [bigSep_W0, bigSep_W0]
  exact sound_body0 V c t

end Cert.Kernel.Stages

end
-- ==== Proof.BitsCombine.lean ====
/-
  The second stage, on one block of ten thousand nodes: the first layer's combine (self term plus bias plus the summed
  messages plus the mean of the other messages plus the residual, then the rectifier) followed by its product with the
  three second-layer weight matrices laid side by side; the block written is that product with the combined features
  appended as the last thirty-two columns. This module runs the body on one block and states what each staging buffer
  holds afterwards.
-/
import proofs.«152504_j884763263722_2_alg».proof.Proof.Gen.Kernel.Launch
import proofs.«152504_j884763263722_2_alg».proof.Proof.Gen.Kernel.Skeleton
import proofs.«152504_j884763263722_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether it was fetched there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether it was fetched there or the
    block index did not move since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, whether it was fetched there or the
    block index did not move since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every grid point, whether it was fetched there or the
    block index did not move since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The body reads each block whole and writes the output block whole. -/
abbrev r1_0 : Rect S10000x128 := Rect.unit (s := S10000x128) ![0, 0] S10000x128.size inb_S10000x128_S10000x128_0_0
abbrev r1_1 : Rect S1x32 := Rect.unit (s := S1x32) ![0, 0] S1x32.size inb_S1x32_S1x32_0_0
abbrev r1_2 : Rect S10000x65 := Rect.unit (s := S10000x65) ![0, 0] S10000x65.size inb_S10000x65_S10000x65_0_0
abbrev r1_3 : Rect S32x96 := Rect.unit (s := S32x96) ![0, 0] S32x96.size inb_S32x96_S32x96_0_0
abbrev r1_4 : Rect S10000x128 := Rect.unit (s := S10000x128) ![0, 0] S10000x128.size inb_S10000x128_S10000x128_0_0

/-- The output block after the body: the combined first-layer features times the second-layer weights, and the features themselves, side by side. -/
def out1_4 (x0 : Vec F S10000x128 .f32) (x1 : Vec F S1x32 .f32) (x2 : Vec F S10000x65 .f32) (x3 : Vec F S32x96 .f32) : Vec F S10000x128 .f32 :=
  View.canon [⟨r1_4, k1_pay1 (View.ld x0 r1_0) (View.ld x2 r1_2) (View.ld x1 r1_1) (View.ld x3 r1_3)⟩]

/-- The one store covers the whole output block. -/
theorem cover1_4 (p0 : Vec F S10000x128 .f32) (y : S10000x128.Idx) :
    ∃ pc ∈ ([⟨r1_4, p0⟩] : List (View.Piece (Elt F) S10000x128 .f32)), y ∈ pc.1.set :=
  View.cover_of_tiled [⟨r1_4, p0⟩] S10000x128.size (by rfl) y

set_option maxHeartbeats 4000000 in
/-- The body, run on whole staging buffers holding the input blocks, ends with the inputs as they were and the output
    buffer at `out1_4` of them, whatever the output buffer held before. -/
theorem sound_kernel1 (c : Dev nD) (E : Set ℕ) (i : grid1.Coords)
    (arg1 : Memref sig .tc .vmem S10000x128 .f32) (harg1 : arg1.IsWhole) (arg2 : Memref sig .tc .vmem S1x32 .f32) (harg2 : arg2.IsWhole) (arg3 : Memref sig .tc .vmem S10000x65 .f32) (harg3 : arg3.IsWhole) (arg4 : Memref sig .tc .vmem S32x96 .f32) (harg4 : arg4.IsWhole) (arg5 : Memref sig .tc .vmem S10000x128 .f32) (harg5 : arg5.IsWhole)
    (x0 : Vec F S10000x128 .f32) (x1 : Vec F S1x32 .f32) (x2 : Vec F S10000x65 .f32) (x3 : Vec F S32x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The stage's proof data on core `c`: the arrays as the stage finds them; after the body at point `t` each input's
    buffer still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: its input buffers hold their blocks, so the triple above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the stage, at every grid point. -/
theorem body_obligation1 (c : Dev nD) : BodyObligation (dat1 (F := F) V c) (defs₀ (F := F)) Variants.none () Set.univ := fun t => by
  rw [bigSep_W1, bigSep_W1]
  exact sound_body1 V c t

end Cert.Kernel.Stages

end
-- ==== Proof.BitsDecode.lean ====
/-
  The third stage, on one block of ten thousand nodes: the second layer's combine (with the first layer's features as
  the residual), then the decoder: a dense layer with rectifier, a dense layer to one column, and the logistic function.
  This module runs the body on one block and states what each staging buffer holds afterwards.
-/
import proofs.«152504_j884763263722_2_alg».proof.Proof.Gen.Kernel.Launch
import proofs.«152504_j884763263722_2_alg».proof.Proof.Gen.Kernel.Skeleton
import proofs.«152504_j884763263722_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether it was fetched there or the
    block index did not move since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether it was fetched there or the
    block index did not move since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, whether it was fetched there or the
    block index did not move since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every grid point, whether it was fetched there or the
    block index did not move since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every grid point, whether it was fetched there or the
    block index did not move since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every grid point, whether it was fetched there or the
    block index did not move since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every grid point, whether it was fetched there or the
    block index did not move since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! The body reads each block whole and writes the output block whole. -/
abbrev r2_0 : Rect S10000x128 := Rect.unit (s := S10000x128) ![0, 0] S10000x128.size inb_S10000x128_S10000x128_0_0
abbrev r2_1 : Rect S1x32 := Rect.unit (s := S1x32) ![0, 0] S1x32.size inb_S1x32_S1x32_0_0
abbrev r2_2 : Rect S10000x65 := Rect.unit (s := S10000x65) ![0, 0] S10000x65.size inb_S10000x65_S10000x65_0_0
abbrev r2_3 : Rect S32x32 := Rect.unit (s := S32x32) ![0, 0] S32x32.size inb_S32x32_S32x32_0_0
abbrev r2_4 : Rect S1x32 := Rect.unit (s := S1x32) ![0, 0] S1x32.size inb_S1x32_S1x32_0_0
abbrev r2_5 : Rect S32x1 := Rect.unit (s := S32x1) ![0, 0] S32x1.size inb_S32x1_S32x1_0_0
abbrev r2_6 : Rect S1x1 := Rect.unit (s := S1x1) ![0, 0] S1x1.size inb_S1x1_S1x1_0_0
abbrev r2_7 : Rect S10000x1 := Rect.unit (s := S10000x1) ![0, 0] S10000x1.size inb_S10000x1_S10000x1_0_0

/-- The output block after the body: the decoder's one column of probabilities for the block's nodes. -/
def out2_7 (x0 : Vec F S10000x128 .f32) (x1 : Vec F S1x32 .f32) (x2 : Vec F S10000x65 .f32) (x3 : Vec F S32x32 .f32) (x4 : Vec F S1x32 .f32) (x5 : Vec F S32x1 .f32) (x6 : Vec F S1x1 .f32) : Vec F S10000x1 .f32 :=
  View.canon [⟨r2_7, k2_pay1 (View.ld x0 r2_0) (View.ld x2 r2_2) (View.ld x1 r2_1) (View.ld x3 r2_3) (View.ld x4 r2_4) (View.ld x5 r2_5) (View.ld x6 r2_6)⟩]

/-- The one store covers the whole output block. -/
theorem cover2_7 (p0 : Vec F S10000x1 .f32) (y : S10000x1.Idx) :
    ∃ pc ∈ ([⟨r2_7, p0⟩] : List (View.Piece (Elt F) S10000x1 .f32)), y ∈ pc.1.set :=
  View.cover_of_tiled [⟨r2_7, p0⟩] S10000x1.size (by rfl) y

set_option maxHeartbeats 4000000 in
/-- The body, run on whole staging buffers holding the input blocks, ends with the inputs as they were and the output
    buffer at `out2_7` of them, whatever the output buffer held before. -/
theorem sound_kernel2 (c : Dev nD) (E : Set ℕ) (i : grid2.Coords)
    (arg1 : Memref sig .tc .vmem S10000x128 .f32) (harg1 : arg1.IsWhole) (arg2 : Memref sig .tc .vmem S1x32 .f32) (harg2 : arg2.IsWhole) (arg3 : Memref sig .tc .vmem S10000x65 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x1 .f32) (harg6 : arg6.IsWhole) (arg7 : Memref sig .tc .vmem S1x1 .f32) (harg7 : arg7.IsWhole) (arg8 : Memref sig .tc .vmem S10000x1 .f32) (harg8 : arg8.IsWhole)
    (x0 : Vec F S10000x128 .f32) (x1 : Vec F S1x32 .f32) (x2 : Vec F S10000x65 .f32) (x3 : Vec F S32x32 .f32) (x4 : Vec F S1x32 .f32) (x5 : Vec F S32x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The stage's proof data on core `c`: the arrays as the stage finds them; after the body at point `t` each input's
    buffer still at its block and the output's at `out2_7` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any grid point: its input buffers hold their blocks, so the triple above applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the stage, at every grid point. -/
theorem body_obligation2 (c : Dev nD) : BodyObligation (dat2 (F := F) V c) (defs₀ (F := F)) Variants.none () Set.univ := fun t => by
  rw [bigSep_W2, bigSep_W2]
  exact sound_body2 V c t

end Cert.Kernel.Stages

end
-- ==== Proof.BitsRun.lean ====
/-
  The whole run of the program at any float instance. Its main function is six pieces in a row: host operations, the
  first stage, host operations, the second stage, host operations, the third stage. The contents of every buffer are
  followed through the six pieces from the launch memory: a stretch of host operations leaves what its operations
  compute, a stage leaves its output array at what its grid points wrote back and every other buffer alone. Every weakly
  fair execution ends, faults nowhere, and ends with every buffer at the last of these contents. No piece writes an
  argument array, so each ends as launched.
-/
import proofs.«152504_j884763263722_2_alg».proof.Proof.BitsProject
import proofs.«152504_j884763263722_2_alg».proof.Proof.BitsCombine
import proofs.«152504_j884763263722_2_alg».proof.Proof.BitsDecode
import proofs.«152504_j884763263722_2_alg».proof.Proof.Gen.Kernel.Regions

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Core `c`'s buffers at launch. -/
abbrev B0 : Dev nD → Valuation τ sig (Elt F) := fun c b => (s₀ m ρ).mem ((c : Dev nD), b)
/-- After the first stretch of host operations: what the first stage finds. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first stage: its arrays at what the grid points leave, every other buffer as found. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations: what the second stage finds. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second stage: its arrays at what the grid points leave, every other buffer as found. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third stretch of host operations: what the third stage finds. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the third stage: its arrays at what the grid points leave, every other buffer as found. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-! ## No piece writes an argument array -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (r := main_arg0) (by decide)
    _ = m ((c : Thread nD τ).loc main_arg0) := rfl
theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl
theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl
theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl
theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl
theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := B6_of_ne m ρ c main_arg5 (by decide)
    _ = B4 m ρ c (Proc.devRef .tc main_arg5) := StableHlo.after_of_writes_sub hostOps2 _ hostOps2_writes (r := main_arg5) (by decide)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl
theorem B6_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := B6_of_ne m ρ c main_arg6 (by decide)
    _ = B4 m ρ c (Proc.devRef .tc main_arg6) := StableHlo.after_of_writes_sub hostOps2 _ hostOps2_writes (r := main_arg6) (by decide)
    _ = B3 m ρ c (Proc.devRef .tc main_arg6) := B4_of_ne m ρ c main_arg6 (by decide)
    _ = B2 m ρ c (Proc.devRef .tc main_arg6) := StableHlo.after_of_writes_sub hostOps1 _ hostOps1_writes (r := main_arg6) (by decide)
    _ = B1 m ρ c (Proc.devRef .tc main_arg6) := B2_of_ne m ρ c main_arg6 (by decide)
    _ = B0 m ρ c (Proc.devRef .tc main_arg6) := StableHlo.after_of_writes_sub hostOps0 _ hostOps0_writes (r := main_arg6) (by decide)
    _ = m ((c : Thread nD τ).loc main_arg6) := rfl
theorem B6_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := B6_of_ne m ρ c main_arg7 (by decide)
    _ = B4 m ρ c (Proc.devRef .tc main_arg7) := StableHlo.after_of_writes_sub hostOps2 _ hostOps2_writes (r := main_arg7) (by decide)
    _ = B3 m ρ c (Proc.devRef .tc main_arg7) := B4_of_ne m ρ c main_arg7 (by decide)
    _ = B2 m ρ c (Proc.devRef .tc main_arg7) := StableHlo.after_of_writes_sub hostOps1 _ hostOps1_writes (r := main_arg7) (by decide)
    _ = B1 m ρ c (Proc.devRef .tc main_arg7) := B2_of_ne m ρ c main_arg7 (by decide)
    _ = B0 m ρ c (Proc.devRef .tc main_arg7) := StableHlo.after_of_writes_sub hostOps0 _ hostOps0_writes (r := main_arg7) (by decide)
    _ = m ((c : Thread nD τ).loc main_arg7) := rfl
theorem B6_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := B6_of_ne m ρ c main_arg8 (by decide)
    _ = B4 m ρ c (Proc.devRef .tc main_arg8) := StableHlo.after_of_writes_sub hostOps2 _ hostOps2_writes (r := main_arg8) (by decide)
    _ = B3 m ρ c (Proc.devRef .tc main_arg8) := B4_of_ne m ρ c main_arg8 (by decide)
    _ = B2 m ρ c (Proc.devRef .tc main_arg8) := StableHlo.after_of_writes_sub hostOps1 _ hostOps1_writes (r := main_arg8) (by decide)
    _ = B1 m ρ c (Proc.devRef .tc main_arg8) := B2_of_ne m ρ c main_arg8 (by decide)
    _ = B0 m ρ c (Proc.devRef .tc main_arg8) := StableHlo.after_of_writes_sub hostOps0 _ hostOps0_writes (r := main_arg8) (by decide)
    _ = m ((c : Thread nD τ).loc main_arg8) := rfl
theorem B6_main_arg9 (c : Dev nD) : B6 m ρ c (Proc.devRef .tc main_arg9) = m ((c : Thread nD τ).loc main_arg9) :=
  calc B6 m ρ c (Proc.devRef .tc main_arg9)
    _ = B5 m ρ c (Proc.devRef .tc main_arg9) := B6_of_ne m ρ c main_arg9 (by decide)
    _ = B4 m ρ c (Proc.devRef .tc main_arg9) := StableHlo.after_of_writes_sub hostOps2 _ hostOps2_writes (r := main_arg9) (by decide)
    _ = B3 m ρ c (Proc.devRef .tc main_arg9) := B4_of_ne m ρ c main_arg9 (by decide)
    _ = B2 m ρ c (Proc.devRef .tc main_arg9) := StableHlo.after_of_writes_sub hostOps1 _ hostOps1_writes (r := main_arg9) (by decide)
    _ = B1 m ρ c (Proc.devRef .tc main_arg9) := B2_of_ne m ρ c main_arg9 (by decide)
    _ = B0 m ρ c (Proc.devRef .tc main_arg9) := StableHlo.after_of_writes_sub hostOps0 _ hostOps0_writes (r := main_arg9) (by decide)
    _ = m ((c : Thread nD τ).loc main_arg9) := rfl
theorem B6_main_arg10 (c : Dev nD) : B6 m ρ c (Proc.devRef .tc main_arg10) = m ((c : Thread nD τ).loc main_arg10) :=
  calc B6 m ρ c (Proc.devRef .tc main_arg10)
    _ = B5 m ρ c (Proc.devRef .tc main_arg10) := B6_of_ne m ρ c main_arg10 (by decide)
    _ = B4 m ρ c (Proc.devRef .tc main_arg10) := StableHlo.after_of_writes_sub hostOps2 _ hostOps2_writes (r := main_arg10) (by decide)
    _ = B3 m ρ c (Proc.devRef .tc main_arg10) := B4_of_ne m ρ c main_arg10 (by decide)
    _ = B2 m ρ c (Proc.devRef .tc main_arg10) := StableHlo.after_of_writes_sub hostOps1 _ hostOps1_writes (r := main_arg10) (by decide)
    _ = B1 m ρ c (Proc.devRef .tc main_arg10) := B2_of_ne m ρ c main_arg10 (by decide)
    _ = B0 m ρ c (Proc.devRef .tc main_arg10) := StableHlo.after_of_writes_sub hostOps0 _ hostOps0_writes (r := main_arg10) (by decide)
    _ = m ((c : Thread nD τ).loc main_arg10) := rfl
theorem B6_main_arg11 (c : Dev nD) : B6 m ρ c (Proc.devRef .tc main_arg11) = m ((c : Thread nD τ).loc main_arg11) :=
  calc B6 m ρ c (Proc.devRef .tc main_arg11)
    _ = B5 m ρ c (Proc.devRef .tc main_arg11) := B6_of_ne m ρ c main_arg11 (by decide)
    _ = B4 m ρ c (Proc.devRef .tc main_arg11) := StableHlo.after_of_writes_sub hostOps2 _ hostOps2_writes (r := main_arg11) (by decide)
    _ = B3 m ρ c (Proc.devRef .tc main_arg11) := B4_of_ne m ρ c main_arg11 (by decide)
    _ = B2 m ρ c (Proc.devRef .tc main_arg11) := StableHlo.after_of_writes_sub hostOps1 _ hostOps1_writes (r := main_arg11) (by decide)
    _ = B1 m ρ c (Proc.devRef .tc main_arg11) := B2_of_ne m ρ c main_arg11 (by decide)
    _ = B0 m ρ c (Proc.devRef .tc main_arg11) := StableHlo.after_of_writes_sub hostOps0 _ hostOps0_writes (r := main_arg11) (by decide)
    _ = m ((c : Thread nD τ).loc main_arg11) := rfl
theorem B6_main_arg12 (c : Dev nD) : B6 m ρ c (Proc.devRef .tc main_arg12) = m ((c : Thread nD τ).loc main_arg12) :=
  calc B6 m ρ c (Proc.devRef .tc main_arg12)
    _ = B5 m ρ c (Proc.devRef .tc main_arg12) := (B6_arr m ρ c 3).trans (((dat2 (E5 m ρ) c).arrAt_in 3 rfl _).trans (A_eq2 (E5 m ρ) c 3))
    _ = B4 m ρ c (Proc.devRef .tc main_arg12) := StableHlo.after_of_writes_sub hostOps2 _ hostOps2_writes (r := main_arg12) (by decide)
    _ = B3 m ρ c (Proc.devRef .tc main_arg12) := B4_of_ne m ρ c main_arg12 (by decide)
    _ = B2 m ρ c (Proc.devRef .tc main_arg12) := StableHlo.after_of_writes_sub hostOps1 _ hostOps1_writes (r := main_arg12) (by decide)
    _ = B1 m ρ c (Proc.devRef .tc main_arg12) := B2_of_ne m ρ c main_arg12 (by decide)
    _ = B0 m ρ c (Proc.devRef .tc main_arg12) := StableHlo.after_of_writes_sub hostOps0 _ hostOps0_writes (r := main_arg12) (by decide)
    _ = m ((c : Thread nD τ).loc main_arg12) := rfl
theorem B6_main_arg13 (c : Dev nD) : B6 m ρ c (Proc.devRef .tc main_arg13) = m ((c : Thread nD τ).loc main_arg13) :=
  calc B6 m ρ c (Proc.devRef .tc main_arg13)
    _ = B5 m ρ c (Proc.devRef .tc main_arg13) := B6_of_ne m ρ c main_arg13 (by decide)
    _ = B4 m ρ c (Proc.devRef .tc main_arg13) := StableHlo.after_of_writes_sub hostOps2 _ hostOps2_writes (r := main_arg13) (by decide)
    _ = B3 m ρ c (Proc.devRef .tc main_arg13) := B4_of_ne m ρ c main_arg13 (by decide)
    _ = B2 m ρ c (Proc.devRef .tc main_arg13) := StableHlo.after_of_writes_sub hostOps1 _ hostOps1_writes (r := main_arg13) (by decide)
    _ = B1 m ρ c (Proc.devRef .tc main_arg13) := B2_of_ne m ρ c main_arg13 (by decide)
    _ = B0 m ρ c (Proc.devRef .tc main_arg13) := StableHlo.after_of_writes_sub hostOps0 _ hostOps0_writes (r := main_arg13) (by decide)
    _ = m ((c : Thread nD τ).loc main_arg13) := rfl
theorem B6_main_arg14 (c : Dev nD) : B6 m ρ c (Proc.devRef .tc main_arg14) = m ((c : Thread nD τ).loc main_arg14) :=
  calc B6 m ρ c (Proc.devRef .tc main_arg14)
    _ = B5 m ρ c (Proc.devRef .tc main_arg14) := (B6_arr m ρ c 5).trans (((dat2 (E5 m ρ) c).arrAt_in 5 rfl _).trans (A_eq2 (E5 m ρ) c 5))
    _ = B4 m ρ c (Proc.devRef .tc main_arg14) := StableHlo.after_of_writes_sub hostOps2 _ hostOps2_writes (r := main_arg14) (by decide)
    _ = B3 m ρ c (Proc.devRef .tc main_arg14) := B4_of_ne m ρ c main_arg14 (by decide)
    _ = B2 m ρ c (Proc.devRef .tc main_arg14) := StableHlo.after_of_writes_sub hostOps1 _ hostOps1_writes (r := main_arg14) (by decide)
    _ = B1 m ρ c (Proc.devRef .tc main_arg14) := B2_of_ne m ρ c main_arg14 (by decide)
    _ = B0 m ρ c (Proc.devRef .tc main_arg14) := StableHlo.after_of_writes_sub hostOps0 _ hostOps0_writes (r := main_arg14) (by decide)
    _ = m ((c : Thread nD τ).loc main_arg14) := rfl
theorem B6_main_arg15 (c : Dev nD) : B6 m ρ c (Proc.devRef .tc main_arg15) = m ((c : Thread nD τ).loc main_arg15) :=
  calc B6 m ρ c (Proc.devRef .tc main_arg15)
    _ = B5 m ρ c (Proc.devRef .tc main_arg15) := B6_of_ne m ρ c main_arg15 (by decide)
    _ = B4 m ρ c (Proc.devRef .tc main_arg15) := StableHlo.after_of_writes_sub hostOps2 _ hostOps2_writes (r := main_arg15) (by decide)
    _ = B3 m ρ c (Proc.devRef .tc main_arg15) := B4_of_ne m ρ c main_arg15 (by decide)
    _ = B2 m ρ c (Proc.devRef .tc main_arg15) := StableHlo.after_of_writes_sub hostOps1 _ hostOps1_writes (r := main_arg15) (by decide)
    _ = B1 m ρ c (Proc.devRef .tc main_arg15) := B2_of_ne m ρ c main_arg15 (by decide)
    _ = B0 m ρ c (Proc.devRef .tc main_arg15) := StableHlo.after_of_writes_sub hostOps0 _ hostOps0_writes (r := main_arg15) (by decide)
    _ = m ((c : Thread nD τ).loc main_arg15) := rfl

/-! ## The stages' proof data, and what rides beside the buffers -/

/-- Every stage's proof data, each at the contents its stage finds. -/
def stageData : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev noVariants : Variants := Variants.none
abbrev noLevels : GSem nD τ sig → Finset Unit := fun _ => ∅
abbrev levelZero : GSem nD τ sig → Unit → ℕ := fun _ _ => 0
/-- Beside the buffers every piece carries the core's generator register at some state and the core owing nothing. -/
abbrev beside (c : Dev nD) : sProp 𝕄 := iprop((∃ r, prngReg c r) ∗ ∃ W, owes (c : Thread nD τ) (0 : CellTallies nD τ sig Unit) W)
/-- A stretch of host operations as a piece of the run, from the contents `W`. -/
abbrev hostPiece (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, less the core's debts: every unscoped buffer at the last contents, the generator register somewhere. -/
abbrev lastState (c : Dev nD) : sProp 𝕄 := iprop(StableHlo.held (c : Thread nD τ) (Pipeline.ucRefs τ sig) (B6 m ρ c) ∗ ∃ r, prngReg c r)

/-! ## The stages as pieces of the run -/

set_option backward.isDefEq.respectTransparency.types false in
/-- The first stage as a piece: entered with every unscoped buffer at `B1`, left with them at `B2`. Its arrays are
    split out of the buffers on entry and put back, at what the grid points left, on exit. -/
def stage0 : Pipeline.RegionSeg (pcfgs (F := F)) adm (stageData m ρ) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (stageData m ρ) launch0.win launch0.arr_whole c
      ((stageData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (stageData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (stageData m ρ) ((stageData m ρ 0 c).share_full fun _ => rfl)
      (E1 m ρ c) (E2 m ρ c) ((stageData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second stage as a piece: entered with every unscoped buffer at `B3`, left with them at `B4`. Its arrays are
    split out of the buffers on entry and put back, at what the grid points left, on exit. -/
def stage1 : Pipeline.RegionSeg (pcfgs (F := F)) adm (stageData m ρ) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (stageData m ρ) launch1.win launch1.arr_whole c
      ((stageData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (stageData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stageData m ρ) ((stageData m ρ 1 c).share_full fun _ => rfl)
      (E3 m ρ c) (E4 m ρ c) ((stageData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third stage as a piece: entered with every unscoped buffer at `B5`, left with them at `B6`. Its arrays are
    split out of the buffers on entry and put back, at what the grid points left, on exit. -/
def stage2 : Pipeline.RegionSeg (pcfgs (F := F)) adm (stageData m ρ) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (stageData m ρ) launch2.win launch2.arr_whole c
      ((stageData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (stageData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (stageData m ρ) ((stageData m ρ 2 c).share_full fun _ => rfl)
      (E5 m ρ c) (E6 m ρ c) ((stageData m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The six pieces in order. -/
abbrev pieces : List (Pipeline.Seg (pcfgs (F := F)) adm (stageData m ρ) () defs₀ noVariants noLevels levelZero) :=
  [ .host (hostPiece hostOps0 hostOps0_sub hostOps0_fresh (B0 m ρ)),
    .region (stage0 m ρ),
    .host (hostPiece hostOps1 hostOps1_sub hostOps1_fresh (B2 m ρ)),
    .region (stage1 m ρ),
    .host (hostPiece hostOps2 hostOps2_sub hostOps2_fresh (B4 m ρ)),
    .region (stage2 m ρ) ]
/-- The main function is the six pieces run in order. -/
theorem main_pieces (c : Dev nD) : main (F := F) c = Pipeline.Seg.run (pieces m ρ) := (main_chain c).trans (by chain_rfl)

set_option backward.isDefEq.respectTransparency.types false in
/-- Every weakly fair execution from memory `m` ends, without a fault, with every unscoped buffer of every core at the
    last contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (stageData m ρ) () cellOf_inj emb₁ defs₀ noVariants noLevels levelZero m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := lastState m ρ)
    (hch := ⟨fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (B6_main_arg0 m ρ c),
    (h c _ (mem_uc main_arg1 (by decide))).trans (B6_main_arg1 m ρ c),
    (h c _ (mem_uc main_arg2 (by decide))).trans (B6_main_arg2 m ρ c),
    (h c _ (mem_uc main_arg3 (by decide))).trans (B6_main_arg3 m ρ c),
    (h c _ (mem_uc main_arg4 (by decide))).trans (B6_main_arg4 m ρ c),
    (h c _ (mem_uc main_arg5 (by decide))).trans (B6_main_arg5 m ρ c),
    (h c _ (mem_uc main_arg6 (by decide))).trans (B6_main_arg6 m ρ c),
    (h c _ (mem_uc main_arg7 (by decide))).trans (B6_main_arg7 m ρ c),
    (h c _ (mem_uc main_arg8 (by decide))).trans (B6_main_arg8 m ρ c),
    (h c _ (mem_uc main_arg9 (by decide))).trans (B6_main_arg9 m ρ c),
    (h c _ (mem_uc main_arg10 (by decide))).trans (B6_main_arg10 m ρ c),
    (h c _ (mem_uc main_arg11 (by decide))).trans (B6_main_arg11 m ρ c),
    (h c _ (mem_uc main_arg12 (by decide))).trans (B6_main_arg12 m ρ c),
    (h c _ (mem_uc main_arg13 (by decide))).trans (B6_main_arg13 m ρ c),
    (h c _ (mem_uc main_arg14 (by decide))).trans (B6_main_arg14 m ρ c),
    (h c _ (mem_uc main_arg15 (by decide))).trans (B6_main_arg15 m ρ c)⟩) (run_all m ρ)

end Cert.Kernel.Stages

end
-- ==== Proof.IdealProject.lean ====
/-
  The first stage: every block of ten thousand rows of the node features times the four first-layer weight matrices laid
  side by side, one matrix product per grid point. This module runs the stage's body on one block and states what each
  staging buffer holds afterwards.
-/
import proofs.«152504_j884763263722_2_alg».proof.Proof.Gen.KernelIdeal.Launch
import proofs.«152504_j884763263722_2_alg».proof.Proof.Gen.KernelIdeal.Skeleton
import proofs.«152504_j884763263722_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether it was fetched there or the
    block index did not move since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether it was fetched there or the
    block index did not move since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads each block whole and writes the output block whole. -/
abbrev r0_0 : Rect S10000x6 := Rect.unit (s := S10000x6) ![0, 0] S10000x6.size inb_S10000x6_S10000x6_0_0
abbrev r0_1 : Rect S6x128 := Rect.unit (s := S6x128) ![0, 0] S6x128.size inb_S6x128_S6x128_0_0
abbrev r0_2 : Rect S10000x128 := Rect.unit (s := S10000x128) ![0, 0] S10000x128.size inb_S10000x128_S10000x128_0_0

/-- The output block after the body: the product of the feature block with the four weight matrices side by side. -/
def out0_2 (x0 : Vec F S10000x6 .f32) (x1 : Vec F S6x128 .f32) : Vec F S10000x128 .f32 :=
  View.canon [⟨r0_2, k0_pay1 (View.ld x0 r0_0) (View.ld x1 r0_1)⟩]

/-- The one store covers the whole output block. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 4000000 in
/-- The body, run on whole staging buffers holding the input blocks, ends with the inputs as they were and the output
    buffer at `out0_2` of them, whatever the output buffer held before. -/
theorem sound_kernel0 (c : Dev nD) (E : Set ℕ) (i : grid0.Coords)
    (arg1 : Memref sig .tc .vmem S10000x6 .f32) (harg1 : arg1.IsWhole) (arg2 : Memref sig .tc .vmem S6x128 .f32) (harg2 : arg2.IsWhole) (arg3 : Memref sig .tc .vmem S10000x128 .f32) (harg3 : arg3.IsWhole)
    (x0 : Vec F S10000x6 .f32) (x1 : Vec F S6x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data on core `c`: the arrays as the stage finds them; after the body at point `t` each input's
    buffer still at its block and the output's at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: its input buffers hold their blocks, so the triple above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the stage, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Stages

end
-- ==== Proof.IdealCombine.lean ====
/-
  The second stage, on one block of ten thousand nodes: the first layer's combine (self term plus bias plus the summed
  messages plus the mean of the other messages plus the residual, then the rectifier) followed by its product with the
  three second-layer weight matrices laid side by side; the block written is that product with the combined features
  appended as the last thirty-two columns. This module runs the body on one block and states what each staging buffer
  holds afterwards.
-/
import proofs.«152504_j884763263722_2_alg».proof.Proof.Gen.KernelIdeal.Launch
import proofs.«152504_j884763263722_2_alg».proof.Proof.Gen.KernelIdeal.Skeleton
import proofs.«152504_j884763263722_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether it was fetched there or the
    block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether it was fetched there or the
    block index did not move since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, whether it was fetched there or the
    block index did not move since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every grid point, whether it was fetched there or the
    block index did not move since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The body reads each block whole and writes the output block whole. -/
abbrev r1_0 : Rect S10000x128 := Rect.unit (s := S10000x128) ![0, 0] S10000x128.size inb_S10000x128_S10000x128_0_0
abbrev r1_1 : Rect S1x32 := Rect.unit (s := S1x32) ![0, 0] S1x32.size inb_S1x32_S1x32_0_0
abbrev r1_2 : Rect S10000x65 := Rect.unit (s := S10000x65) ![0, 0] S10000x65.size inb_S10000x65_S10000x65_0_0
abbrev r1_3 : Rect S32x96 := Rect.unit (s := S32x96) ![0, 0] S32x96.size inb_S32x96_S32x96_0_0
abbrev r1_4 : Rect S10000x128 := Rect.unit (s := S10000x128) ![0, 0] S10000x128.size inb_S10000x128_S10000x128_0_0

/-- The output block after the body: the combined first-layer features times the second-layer weights, and the features themselves, side by side. -/
def out1_4 (x0 : Vec F S10000x128 .f32) (x1 : Vec F S1x32 .f32) (x2 : Vec F S10000x65 .f32) (x3 : Vec F S32x96 .f32) : Vec F S10000x128 .f32 :=
  View.canon [⟨r1_4, k1_pay1 (View.ld x0 r1_0) (View.ld x2 r1_2) (View.ld x1 r1_1) (View.ld x3 r1_3)⟩]

/-- The one store covers the whole output block. -/
theorem cover1_4 (p0 : Vec F S10000x128 .f32) (y : S10000x128.Idx) :
    ∃ pc ∈ ([⟨r1_4, p0⟩] : List (View.Piece (Elt F) S10000x128 .f32)), y ∈ pc.1.set :=
  View.cover_of_tiled [⟨r1_4, p0⟩] S10000x128.size (by rfl) y

set_option maxHeartbeats 4000000 in
/-- The body, run on whole staging buffers holding the input blocks, ends with the inputs as they were and the output
    buffer at `out1_4` of them, whatever the output buffer held before. -/
theorem sound_kernel1 (c : Dev nD) (E : Set ℕ) (i : grid1.Coords)
    (arg1 : Memref sig .tc .vmem S10000x128 .f32) (harg1 : arg1.IsWhole) (arg2 : Memref sig .tc .vmem S1x32 .f32) (harg2 : arg2.IsWhole) (arg3 : Memref sig .tc .vmem S10000x65 .f32) (harg3 : arg3.IsWhole) (arg4 : Memref sig .tc .vmem S32x96 .f32) (harg4 : arg4.IsWhole) (arg5 : Memref sig .tc .vmem S10000x128 .f32) (harg5 : arg5.IsWhole)
    (x0 : Vec F S10000x128 .f32) (x1 : Vec F S1x32 .f32) (x2 : Vec F S10000x65 .f32) (x3 : Vec F S32x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The stage's proof data on core `c`: the arrays as the stage finds them; after the body at point `t` each input's
    buffer still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: its input buffers hold their blocks, so the triple above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the stage, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Stages

end
-- ==== Proof.IdealDecode.lean ====
/-
  The third stage, on one block of ten thousand nodes: the second layer's combine (with the first layer's features as
  the residual), then the decoder: a dense layer with rectifier, a dense layer to one column, and the logistic function.
  This module runs the body on one block and states what each staging buffer holds afterwards.
-/
import proofs.«152504_j884763263722_2_alg».proof.Proof.Gen.KernelIdeal.Launch
import proofs.«152504_j884763263722_2_alg».proof.Proof.Gen.KernelIdeal.Skeleton
import proofs.«152504_j884763263722_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the stage is entered
variable (V : (c : Dev nD) → (b : Ref sig .tc) → Buf (Elt F) ((c : Thread nD τ).loc b))
/-- Window `w`'s block at grid point `t`, read off the array the stage finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether it was fetched there or the
    block index did not move since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether it was fetched there or the
    block index did not move since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, whether it was fetched there or the
    block index did not move since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every grid point, whether it was fetched there or the
    block index did not move since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every grid point, whether it was fetched there or the
    block index did not move since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every grid point, whether it was fetched there or the
    block index did not move since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every grid point, whether it was fetched there or the
    block index did not move since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! The body reads each block whole and writes the output block whole. -/
abbrev r2_0 : Rect S10000x128 := Rect.unit (s := S10000x128) ![0, 0] S10000x128.size inb_S10000x128_S10000x128_0_0
abbrev r2_1 : Rect S1x32 := Rect.unit (s := S1x32) ![0, 0] S1x32.size inb_S1x32_S1x32_0_0
abbrev r2_2 : Rect S10000x65 := Rect.unit (s := S10000x65) ![0, 0] S10000x65.size inb_S10000x65_S10000x65_0_0
abbrev r2_3 : Rect S32x32 := Rect.unit (s := S32x32) ![0, 0] S32x32.size inb_S32x32_S32x32_0_0
abbrev r2_4 : Rect S1x32 := Rect.unit (s := S1x32) ![0, 0] S1x32.size inb_S1x32_S1x32_0_0
abbrev r2_5 : Rect S32x1 := Rect.unit (s := S32x1) ![0, 0] S32x1.size inb_S32x1_S32x1_0_0
abbrev r2_6 : Rect S1x1 := Rect.unit (s := S1x1) ![0, 0] S1x1.size inb_S1x1_S1x1_0_0
abbrev r2_7 : Rect S10000x1 := Rect.unit (s := S10000x1) ![0, 0] S10000x1.size inb_S10000x1_S10000x1_0_0

/-- The output block after the body: the decoder's one column of probabilities for the block's nodes. -/
def out2_7 (x0 : Vec F S10000x128 .f32) (x1 : Vec F S1x32 .f32) (x2 : Vec F S10000x65 .f32) (x3 : Vec F S32x32 .f32) (x4 : Vec F S1x32 .f32) (x5 : Vec F S32x1 .f32) (x6 : Vec F S1x1 .f32) : Vec F S10000x1 .f32 :=
  View.canon [⟨r2_7, k2_pay1 (View.ld x0 r2_0) (View.ld x2 r2_2) (View.ld x1 r2_1) (View.ld x3 r2_3) (View.ld x4 r2_4) (View.ld x5 r2_5) (View.ld x6 r2_6)⟩]

/-- The one store covers the whole output block. -/
theorem cover2_7 (p0 : Vec F S10000x1 .f32) (y : S10000x1.Idx) :
    ∃ pc ∈ ([⟨r2_7, p0⟩] : List (View.Piece (Elt F) S10000x1 .f32)), y ∈ pc.1.set :=
  View.cover_of_tiled [⟨r2_7, p0⟩] S10000x1.size (by rfl) y

set_option maxHeartbeats 4000000 in
/-- The body, run on whole staging buffers holding the input blocks, ends with the inputs as they were and the output
    buffer at `out2_7` of them, whatever the output buffer held before. -/
theorem sound_kernel2 (c : Dev nD) (E : Set ℕ) (i : grid2.Coords)
    (arg1 : Memref sig .tc .vmem S10000x128 .f32) (harg1 : arg1.IsWhole) (arg2 : Memref sig .tc .vmem S1x32 .f32) (harg2 : arg2.IsWhole) (arg3 : Memref sig .tc .vmem S10000x65 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x1 .f32) (harg6 : arg6.IsWhole) (arg7 : Memref sig .tc .vmem S1x1 .f32) (harg7 : arg7.IsWhole) (arg8 : Memref sig .tc .vmem S10000x1 .f32) (harg8 : arg8.IsWhole)
    (x0 : Vec F S10000x128 .f32) (x1 : Vec F S1x32 .f32) (x2 : Vec F S10000x65 .f32) (x3 : Vec F S32x32 .f32) (x4 : Vec F S1x32 .f32) (x5 : Vec F S32x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The stage's proof data on core `c`: the arrays as the stage finds them; after the body at point `t` each input's
    buffer still at its block and the output's at `out2_7` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any grid point: its input buffers hold their blocks, so the triple above applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the stage, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Stages

end
-- ==== Proof.IdealRun.lean ====
/-
  The whole run of the program at any float instance. Its main function is six pieces in a row: host operations, the
  first stage, host operations, the second stage, host operations, the third stage. The contents of every buffer are
  followed through the six pieces from the launch memory: a stretch of host operations leaves what its operations
  compute, a stage leaves its output array at what its grid points wrote back and every other buffer alone. Every weakly
  fair execution ends, faults nowhere, and ends with every buffer at the last of these contents. No piece writes an
  argument array, so each ends as launched.
-/
import proofs.«152504_j884763263722_2_alg».proof.Proof.IdealProject
import proofs.«152504_j884763263722_2_alg».proof.Proof.IdealCombine
import proofs.«152504_j884763263722_2_alg».proof.Proof.IdealDecode
import proofs.«152504_j884763263722_2_alg».proof.Proof.Gen.KernelIdeal.Regions

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Core `c`'s buffers at launch. -/
abbrev B0 : Dev nD → Valuation τ sig (Elt F) := fun c b => (s₀ m ρ).mem ((c : Dev nD), b)
/-- After the first stretch of host operations: what the first stage finds. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first stage: its arrays at what the grid points leave, every other buffer as found. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations: what the second stage finds. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second stage: its arrays at what the grid points leave, every other buffer as found. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third stretch of host operations: what the third stage finds. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the third stage: its arrays at what the grid points leave, every other buffer as found. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-! ## No piece writes an argument array -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (r := main_arg0) (by decide)
    _ = m ((c : Thread nD τ).loc main_arg0) := rfl
theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl
theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl
theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl
theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := B6_of_ne m ρ c main_arg4 (by decide)
    _ = B4 m ρ c (Proc.devRef .tc main_arg4) := StableHlo.after_of_writes_sub hostOps2 _ hostOps2_writes (r := main_arg4) (by decide)
    _ = B3 m ρ c (Proc.devRef .tc main_arg4) := B4_of_ne m ρ c main_arg4 (by decide)
    _ = B2 m ρ c (Proc.devRef .tc main_arg4) := StableHlo.after_of_writes_sub hostOps1 _ hostOps1_writes (r := main_arg4) (by decide)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
    _ = m ((c : Thread nD τ).loc main_arg4) := rfl
theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := B6_of_ne m ρ c main_arg5 (by decide)
    _ = B4 m ρ c (Proc.devRef .tc main_arg5) := StableHlo.after_of_writes_sub hostOps2 _ hostOps2_writes (r := main_arg5) (by decide)
    _ = B3 m ρ c (Proc.devRef .tc main_arg5) := B4_of_ne m ρ c main_arg5 (by decide)
    _ = B2 m ρ c (Proc.devRef .tc main_arg5) := StableHlo.after_of_writes_sub hostOps1 _ hostOps1_writes (r := main_arg5) (by decide)
    _ = B1 m ρ c (Proc.devRef .tc main_arg5) := B2_of_ne m ρ c main_arg5 (by decide)
    _ = B0 m ρ c (Proc.devRef .tc main_arg5) := StableHlo.after_of_writes_sub hostOps0 _ hostOps0_writes (r := main_arg5) (by decide)
    _ = m ((c : Thread nD τ).loc main_arg5) := rfl
theorem B6_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := B6_of_ne m ρ c main_arg6 (by decide)
    _ = B4 m ρ c (Proc.devRef .tc main_arg6) := StableHlo.after_of_writes_sub hostOps2 _ hostOps2_writes (r := main_arg6) (by decide)
    _ = B3 m ρ c (Proc.devRef .tc main_arg6) := B4_of_ne m ρ c main_arg6 (by decide)
    _ = B2 m ρ c (Proc.devRef .tc main_arg6) := StableHlo.after_of_writes_sub hostOps1 _ hostOps1_writes (r := main_arg6) (by decide)
    _ = B1 m ρ c (Proc.devRef .tc main_arg6) := B2_of_ne m ρ c main_arg6 (by decide)
    _ = B0 m ρ c (Proc.devRef .tc main_arg6) := StableHlo.after_of_writes_sub hostOps0 _ hostOps0_writes (r := main_arg6) (by decide)
    _ = m ((c : Thread nD τ).loc main_arg6) := rfl
theorem B6_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := B6_of_ne m ρ c main_arg7 (by decide)
    _ = B4 m ρ c (Proc.devRef .tc main_arg7) := StableHlo.after_of_writes_sub hostOps2 _ hostOps2_writes (r := main_arg7) (by decide)
    _ = B3 m ρ c (Proc.devRef .tc main_arg7) := B4_of_ne m ρ c main_arg7 (by decide)
    _ = B2 m ρ c (Proc.devRef .tc main_arg7) := StableHlo.after_of_writes_sub hostOps1 _ hostOps1_writes (r := main_arg7) (by decide)
    _ = B1 m ρ c (Proc.devRef .tc main_arg7) := B2_of_ne m ρ c main_arg7 (by decide)
    _ = B0 m ρ c (Proc.devRef .tc main_arg7) := StableHlo.after_of_writes_sub hostOps0 _ hostOps0_writes (r := main_arg7) (by decide)
    _ = m ((c : Thread nD τ).loc main_arg7) := rfl
theorem B6_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := B6_of_ne m ρ c main_arg8 (by decide)
    _ = B4 m ρ c (Proc.devRef .tc main_arg8) := StableHlo.after_of_writes_sub hostOps2 _ hostOps2_writes (r := main_arg8) (by decide)
    _ = B3 m ρ c (Proc.devRef .tc main_arg8) := B4_of_ne m ρ c main_arg8 (by decide)
    _ = B2 m ρ c (Proc.devRef .tc main_arg8) := StableHlo.after_of_writes_sub hostOps1 _ hostOps1_writes (r := main_arg8) (by decide)
    _ = B1 m ρ c (Proc.devRef .tc main_arg8) := B2_of_ne m ρ c main_arg8 (by decide)
    _ = B0 m ρ c (Proc.devRef .tc main_arg8) := StableHlo.after_of_writes_sub hostOps0 _ hostOps0_writes (r := main_arg8) (by decide)
    _ = m ((c : Thread nD τ).loc main_arg8) := rfl
theorem B6_main_arg9 (c : Dev nD) : B6 m ρ c (Proc.devRef .tc main_arg9) = m ((c : Thread nD τ).loc main_arg9) :=
  calc B6 m ρ c (Proc.devRef .tc main_arg9)
    _ = B5 m ρ c (Proc.devRef .tc main_arg9) := B6_of_ne m ρ c main_arg9 (by decide)
    _ = B4 m ρ c (Proc.devRef .tc main_arg9) := StableHlo.after_of_writes_sub hostOps2 _ hostOps2_writes (r := main_arg9) (by decide)
    _ = B3 m ρ c (Proc.devRef .tc main_arg9) := B4_of_ne m ρ c main_arg9 (by decide)
    _ = B2 m ρ c (Proc.devRef .tc main_arg9) := StableHlo.after_of_writes_sub hostOps1 _ hostOps1_writes (r := main_arg9) (by decide)
    _ = B1 m ρ c (Proc.devRef .tc main_arg9) := B2_of_ne m ρ c main_arg9 (by decide)
    _ = B0 m ρ c (Proc.devRef .tc main_arg9) := StableHlo.after_of_writes_sub hostOps0 _ hostOps0_writes (r := main_arg9) (by decide)
    _ = m ((c : Thread nD τ).loc main_arg9) := rfl
theorem B6_main_arg10 (c : Dev nD) : B6 m ρ c (Proc.devRef .tc main_arg10) = m ((c : Thread nD τ).loc main_arg10) :=
  calc B6 m ρ c (Proc.devRef .tc main_arg10)
    _ = B5 m ρ c (Proc.devRef .tc main_arg10) := B6_of_ne m ρ c main_arg10 (by decide)
    _ = B4 m ρ c (Proc.devRef .tc main_arg10) := StableHlo.after_of_writes_sub hostOps2 _ hostOps2_writes (r := main_arg10) (by decide)
    _ = B3 m ρ c (Proc.devRef .tc main_arg10) := B4_of_ne m ρ c main_arg10 (by decide)
    _ = B2 m ρ c (Proc.devRef .tc main_arg10) := StableHlo.after_of_writes_sub hostOps1 _ hostOps1_writes (r := main_arg10) (by decide)
    _ = B1 m ρ c (Proc.devRef .tc main_arg10) := B2_of_ne m ρ c main_arg10 (by decide)
    _ = B0 m ρ c (Proc.devRef .tc main_arg10) := StableHlo.after_of_writes_sub hostOps0 _ hostOps0_writes (r := main_arg10) (by decide)
    _ = m ((c : Thread nD τ).loc main_arg10) := rfl
theorem B6_main_arg11 (c : Dev nD) : B6 m ρ c (Proc.devRef .tc main_arg11) = m ((c : Thread nD τ).loc main_arg11) :=
  calc B6 m ρ c (Proc.devRef .tc main_arg11)
    _ = B5 m ρ c (Proc.devRef .tc main_arg11) := B6_of_ne m ρ c main_arg11 (by decide)
    _ = B4 m ρ c (Proc.devRef .tc main_arg11) := StableHlo.after_of_writes_sub hostOps2 _ hostOps2_writes (r := main_arg11) (by decide)
    _ = B3 m ρ c (Proc.devRef .tc main_arg11) := B4_of_ne m ρ c main_arg11 (by decide)
    _ = B2 m ρ c (Proc.devRef .tc main_arg11) := StableHlo.after_of_writes_sub hostOps1 _ hostOps1_writes (r := main_arg11) (by decide)
    _ = B1 m ρ c (Proc.devRef .tc main_arg11) := B2_of_ne m ρ c main_arg11 (by decide)
    _ = B0 m ρ c (Proc.devRef .tc main_arg11) := StableHlo.after_of_writes_sub hostOps0 _ hostOps0_writes (r := main_arg11) (by decide)
    _ = m ((c : Thread nD τ).loc main_arg11) := rfl
theorem B6_main_arg12 (c : Dev nD) : B6 m ρ c (Proc.devRef .tc main_arg12) = m ((c : Thread nD τ).loc main_arg12) :=
  calc B6 m ρ c (Proc.devRef .tc main_arg12)
    _ = B5 m ρ c (Proc.devRef .tc main_arg12) := (B6_arr m ρ c 3).trans (((dat2 (E5 m ρ) c).arrAt_in 3 rfl _).trans (A_eq2 (E5 m ρ) c 3))
    _ = B4 m ρ c (Proc.devRef .tc main_arg12) := StableHlo.after_of_writes_sub hostOps2 _ hostOps2_writes (r := main_arg12) (by decide)
    _ = B3 m ρ c (Proc.devRef .tc main_arg12) := B4_of_ne m ρ c main_arg12 (by decide)
    _ = B2 m ρ c (Proc.devRef .tc main_arg12) := StableHlo.after_of_writes_sub hostOps1 _ hostOps1_writes (r := main_arg12) (by decide)
    _ = B1 m ρ c (Proc.devRef .tc main_arg12) := B2_of_ne m ρ c main_arg12 (by decide)
    _ = B0 m ρ c (Proc.devRef .tc main_arg12) := StableHlo.after_of_writes_sub hostOps0 _ hostOps0_writes (r := main_arg12) (by decide)
    _ = m ((c : Thread nD τ).loc main_arg12) := rfl
theorem B6_main_arg13 (c : Dev nD) : B6 m ρ c (Proc.devRef .tc main_arg13) = m ((c : Thread nD τ).loc main_arg13) :=
  calc B6 m ρ c (Proc.devRef .tc main_arg13)
    _ = B5 m ρ c (Proc.devRef .tc main_arg13) := B6_of_ne m ρ c main_arg13 (by decide)
    _ = B4 m ρ c (Proc.devRef .tc main_arg13) := StableHlo.after_of_writes_sub hostOps2 _ hostOps2_writes (r := main_arg13) (by decide)
    _ = B3 m ρ c (Proc.devRef .tc main_arg13) := B4_of_ne m ρ c main_arg13 (by decide)
    _ = B2 m ρ c (Proc.devRef .tc main_arg13) := StableHlo.after_of_writes_sub hostOps1 _ hostOps1_writes (r := main_arg13) (by decide)
    _ = B1 m ρ c (Proc.devRef .tc main_arg13) := B2_of_ne m ρ c main_arg13 (by decide)
    _ = B0 m ρ c (Proc.devRef .tc main_arg13) := StableHlo.after_of_writes_sub hostOps0 _ hostOps0_writes (r := main_arg13) (by decide)
    _ = m ((c : Thread nD τ).loc main_arg13) := rfl
theorem B6_main_arg14 (c : Dev nD) : B6 m ρ c (Proc.devRef .tc main_arg14) = m ((c : Thread nD τ).loc main_arg14) :=
  calc B6 m ρ c (Proc.devRef .tc main_arg14)
    _ = B5 m ρ c (Proc.devRef .tc main_arg14) := (B6_arr m ρ c 5).trans (((dat2 (E5 m ρ) c).arrAt_in 5 rfl _).trans (A_eq2 (E5 m ρ) c 5))
    _ = B4 m ρ c (Proc.devRef .tc main_arg14) := StableHlo.after_of_writes_sub hostOps2 _ hostOps2_writes (r := main_arg14) (by decide)
    _ = B3 m ρ c (Proc.devRef .tc main_arg14) := B4_of_ne m ρ c main_arg14 (by decide)
    _ = B2 m ρ c (Proc.devRef .tc main_arg14) := StableHlo.after_of_writes_sub hostOps1 _ hostOps1_writes (r := main_arg14) (by decide)
    _ = B1 m ρ c (Proc.devRef .tc main_arg14) := B2_of_ne m ρ c main_arg14 (by decide)
    _ = B0 m ρ c (Proc.devRef .tc main_arg14) := StableHlo.after_of_writes_sub hostOps0 _ hostOps0_writes (r := main_arg14) (by decide)
    _ = m ((c : Thread nD τ).loc main_arg14) := rfl
theorem B6_main_arg15 (c : Dev nD) : B6 m ρ c (Proc.devRef .tc main_arg15) = m ((c : Thread nD τ).loc main_arg15) :=
  calc B6 m ρ c (Proc.devRef .tc main_arg15)
    _ = B5 m ρ c (Proc.devRef .tc main_arg15) := B6_of_ne m ρ c main_arg15 (by decide)
    _ = B4 m ρ c (Proc.devRef .tc main_arg15) := StableHlo.after_of_writes_sub hostOps2 _ hostOps2_writes (r := main_arg15) (by decide)
    _ = B3 m ρ c (Proc.devRef .tc main_arg15) := B4_of_ne m ρ c main_arg15 (by decide)
    _ = B2 m ρ c (Proc.devRef .tc main_arg15) := StableHlo.after_of_writes_sub hostOps1 _ hostOps1_writes (r := main_arg15) (by decide)
    _ = B1 m ρ c (Proc.devRef .tc main_arg15) := B2_of_ne m ρ c main_arg15 (by decide)
    _ = B0 m ρ c (Proc.devRef .tc main_arg15) := StableHlo.after_of_writes_sub hostOps0 _ hostOps0_writes (r := main_arg15) (by decide)
    _ = m ((c : Thread nD τ).loc main_arg15) := rfl

/-! ## The stages' proof data, and what rides beside the buffers -/

/-- Every stage's proof data, each at the contents its stage finds. -/
def stageData : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev noVariants : Variants := Variants.none
abbrev noLevels : GSem nD τ sig → Finset Unit := fun _ => ∅
abbrev levelZero : GSem nD τ sig → Unit → ℕ := fun _ _ => 0
/-- Beside the buffers every piece carries the core's generator register at some state and the core owing nothing. -/
abbrev beside (c : Dev nD) : sProp 𝕄 := iprop((∃ r, prngReg c r) ∗ ∃ W, owes (c : Thread nD τ) (0 : CellTallies nD τ sig Unit) W)
/-- A stretch of host operations as a piece of the run, from the contents `W`. -/
abbrev hostPiece (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, less the core's debts: every unscoped buffer at the last contents, the generator register somewhere. -/
abbrev lastState (c : Dev nD) : sProp 𝕄 := iprop(StableHlo.held (c : Thread nD τ) (Pipeline.ucRefs τ sig) (B6 m ρ c) ∗ ∃ r, prngReg c r)

/-! ## The stages as pieces of the run -/

set_option backward.isDefEq.respectTransparency.types false in
/-- The first stage as a piece: entered with every unscoped buffer at `B1`, left with them at `B2`. Its arrays are
    split out of the buffers on entry and put back, at what the grid points left, on exit. -/
def stage0 : Pipeline.RegionSeg (pcfgs (F := F)) adm (stageData m ρ) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (stageData m ρ) launch0.win launch0.arr_whole c
      ((stageData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (stageData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (stageData m ρ) ((stageData m ρ 0 c).share_full fun _ => rfl)
      (E1 m ρ c) (E2 m ρ c) ((stageData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second stage as a piece: entered with every unscoped buffer at `B3`, left with them at `B4`. Its arrays are
    split out of the buffers on entry and put back, at what the grid points left, on exit. -/
def stage1 : Pipeline.RegionSeg (pcfgs (F := F)) adm (stageData m ρ) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (stageData m ρ) launch1.win launch1.arr_whole c
      ((stageData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (stageData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stageData m ρ) ((stageData m ρ 1 c).share_full fun _ => rfl)
      (E3 m ρ c) (E4 m ρ c) ((stageData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third stage as a piece: entered with every unscoped buffer at `B5`, left with them at `B6`. Its arrays are
    split out of the buffers on entry and put back, at what the grid points left, on exit. -/
def stage2 : Pipeline.RegionSeg (pcfgs (F := F)) adm (stageData m ρ) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (stageData m ρ) launch2.win launch2.arr_whole c
      ((stageData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (stageData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (stageData m ρ) ((stageData m ρ 2 c).share_full fun _ => rfl)
      (E5 m ρ c) (E6 m ρ c) ((stageData m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The six pieces in order. -/
abbrev pieces : List (Pipeline.Seg (pcfgs (F := F)) adm (stageData m ρ) () defs₀ noVariants noLevels levelZero) :=
  [ .host (hostPiece hostOps0 hostOps0_sub hostOps0_fresh (B0 m ρ)),
    .region (stage0 m ρ),
    .host (hostPiece hostOps1 hostOps1_sub hostOps1_fresh (B2 m ρ)),
    .region (stage1 m ρ),
    .host (hostPiece hostOps2 hostOps2_sub hostOps2_fresh (B4 m ρ)),
    .region (stage2 m ρ) ]
/-- The main function is the six pieces run in order. -/
theorem main_pieces (c : Dev nD) : main (F := F) c = Pipeline.Seg.run (pieces m ρ) := (main_chain c).trans (by chain_rfl)

set_option backward.isDefEq.respectTransparency.types false in
/-- Every weakly fair execution from memory `m` ends, without a fault, with every unscoped buffer of every core at the
    last contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (stageData m ρ) () cellOf_inj emb₁ defs₀ noVariants noLevels levelZero m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := lastState m ρ)
    (hch := ⟨fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (B6_main_arg0 m ρ c),
    (h c _ (mem_uc main_arg1 (by decide))).trans (B6_main_arg1 m ρ c),
    (h c _ (mem_uc main_arg2 (by decide))).trans (B6_main_arg2 m ρ c),
    (h c _ (mem_uc main_arg3 (by decide))).trans (B6_main_arg3 m ρ c),
    (h c _ (mem_uc main_arg4 (by decide))).trans (B6_main_arg4 m ρ c),
    (h c _ (mem_uc main_arg5 (by decide))).trans (B6_main_arg5 m ρ c),
    (h c _ (mem_uc main_arg6 (by decide))).trans (B6_main_arg6 m ρ c),
    (h c _ (mem_uc main_arg7 (by decide))).trans (B6_main_arg7 m ρ c),
    (h c _ (mem_uc main_arg8 (by decide))).trans (B6_main_arg8 m ρ c),
    (h c _ (mem_uc main_arg9 (by decide))).trans (B6_main_arg9 m ρ c),
    (h c _ (mem_uc main_arg10 (by decide))).trans (B6_main_arg10 m ρ c),
    (h c _ (mem_uc main_arg11 (by decide))).trans (B6_main_arg11 m ρ c),
    (h c _ (mem_uc main_arg12 (by decide))).trans (B6_main_arg12 m ρ c),
    (h c _ (mem_uc main_arg13 (by decide))).trans (B6_main_arg13 m ρ c),
    (h c _ (mem_uc main_arg14 (by decide))).trans (B6_main_arg14 m ρ c),
    (h c _ (mem_uc main_arg15 (by decide))).trans (B6_main_arg15 m ρ c)⟩) (run_all m ρ)

end Cert.KernelIdeal.Stages

end
-- ==== Proof.ReferenceFrame.lean ====
/-
  The reference program is host operations only. Its run from any memory ends, faults nowhere, and leaves every
  argument array as launched: the run theorem of its list of host operations, with the result's value dropped.
-/
import proofs.«152504_j884763263722_2_alg».proof.Defs
import proofs.«152504_j884763263722_2_alg».proof.Proof.Gen.ReferenceIdeal
import proofs.«152504_j884763263722_2_alg».proof.Proof.Gen.Pre_finite_inputs
import proofs.«152504_j884763263722_2_alg».proof.Proof.Gen.ReferenceIdeal.Run

noncomputable section

open Idealize.ShloMosaic Idealize.ShloMosaic.TcCoe Idealize.SL.Sem

namespace Cert.Proof.ReferenceFrame

/-- Every weakly fair execution of the reference ends with the sixteen argument arrays unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.ReferenceFrame

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.NetProduct.lean ====
/-
  The matrix product of an [a, k] array by a [k, n] array over the extended reals, entry by entry, and the two ways the
  programs spell it: the matrix unit's product into a zero accumulator, and the host's product. Both contract the left
  operand's columns against the right operand's rows and batch nothing, and both are this product: entry (p, j) is the
  sum over q of L (p, q) · R (q, j). Sums and products on the extended reals are total, so no finiteness is needed.
-/
import proofs.«152504_j884763263722_2_alg».proof.Proof.LibAffine
import proofs.«152504_j884763263722_2_alg».proof.Proof.LibPlainDot

noncomputable section

open scoped BigOperators

namespace Cert.Net

open Idealize.ShloMosaic Idealize.ShloMosaic.ValueIdx

variable {a k n : ℕ}

/-- The matrix product, entry by entry. -/
def product (x : FVec Ideal ⟨2, ![a, k]⟩ .f32) (w : FVec Ideal ⟨2, ![k, n]⟩ .f32) : FVec Ideal ⟨2, ![a, n]⟩ .f32 :=
  fun i => ∑ q : Fin k, x (ix2 (i 0) q) * w (ix2 q (i 1))

theorem product_ix2 (x : FVec Ideal ⟨2, ![a, k]⟩ .f32) (w : FVec Ideal ⟨2, ![k, n]⟩ .f32) (p : Fin a) (j : Fin n) :
    product x w (ix2 p j) = ∑ q : Fin k, x (ix2 p q) * w (ix2 q j) := rfl

/-- The matrix unit's product into a zero accumulator is the matrix product. -/
theorem coreProduct (D : DotDims ⟨2, ![a, k]⟩ ⟨2, ![k, n]⟩ ⟨2, ![a, n]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = product L R := by
  funext i
  obtain ⟨p, j, rfl⟩ : ∃ (p : Fin a) (j : Fin n), i = ix2 p j := ⟨i 0, i 1, eq_ix2 i⟩
  exact Cert.LibAffine.coreDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) prec L R p j

/-- The host's product is the matrix product. -/
theorem hostProduct (D : DotDims ⟨2, ![a, k]⟩ ⟨2, ![k, n]⟩ ⟨2, ![a, n]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (L : FVec Ideal ⟨2, ![a, k]⟩ .f32) (R : FVec Ideal ⟨2, ![k, n]⟩ .f32) :
    Host.dotGeneral D prec L R = product L R := by
  funext i
  obtain ⟨p, j, rfl⟩ : ∃ (p : Fin a) (j : Fin n), i = ix2 p j := ⟨i 0, i 1, eq_ix2 i⟩
  exact Cert.LibAffine.hostDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) prec L R p j

end Cert.Net

end
-- ==== Proof.IdealProjectValue.lean ====
/-
  What the first stage leaves in its output array, on the extended reals: the product of the whole node-feature array
  with the four first-layer weight matrices laid side by side. Grid point t handles rows 10000·t … 10000·t + 9999: its
  block of the product reads only those rows of the features and the whole weight array, so the blocks written back are
  the blocks of the one whole product, and the ten blocks tile the array.
-/
import proofs.«152504_j884763263722_2_alg».proof.Proof.IdealProject
import proofs.«152504_j884763263722_2_alg».proof.Proof.NetProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The body's one stored value is the matrix product of the two blocks it loads. -/
theorem pay0_eq (x0 : Vec Ideal S10000x6 .f32) (x1 : Vec Ideal S6x128 .f32) : k0_pay1 x0 x1 = Net.product (a := 10000) (k := 6) (n := 128) x0 x1 := by
  unfold k0_pay1
  dsimp only
  rw [shapeCast_self]
  exact Net.coreProduct (a := 10000) (k := 6) (n := 128) dot_S10000x6_S6x128_S10000x128_1_0_0_1_n_n rfl rfl rfl rfl rfl rfl none x0 x1

/-- Where the three windows' blocks sit at grid point t: the feature block and the output block at row block t, the
    weight block always at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product. -/
theorem flushed0 (c : Dev nD) (t : Fin cfg0.N) :
    (dat0 V c).flushed 2 t = ((cfg0.win 2).blk t).view.read (Elt Ideal) (Net.product (a := 100000) (k := 6) (n := 128) (V c main_arg0) (V c main_v13)) := by
  show (cfg0.win 2).cut (grid0.coords t) ((dat0 V c).after 2 t) = _
  rw [after0_2]
  unfold out0_2
  rw [View.canon_unit_zero zeroOffsets]
  simp only [View.ld_unit_zero (S := S10000x6) zeroOffsets, View.ld_unit_zero (S := S6x128) zeroOffsets]
  rw [pay0_eq]
  obtain ⟨e0, e1, e2, e3, e4, e5⟩ := idx0 t
  funext j
  show Net.product (a := 10000) (k := 6) (n := 128) (iblk0 V c 0 t) (iblk0 V c 1 t) j = Net.product (a := 100000) (k := 6) (n := 128) (V c main_arg0) (V c main_v13) (((cfg0.win 2).blk t).view.emb j)
  unfold Net.product
  refine Finset.sum_congr rfl fun q _ => ?_
  have hx : iblk0 V c 0 t (ix2 (j 0) q) = V c main_arg0 (ix2 ((((cfg0.win 2).blk t).view.emb j) 0) q) := by
    show V c main_arg0 (((cfg0.win 0).blk t).view.emb (ix2 (j 0) q)) = _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 6 + 1 * q.val = q.val; omega
  have hw : iblk0 V c 1 t (ix2 q (j 1)) = V c main_v13 (ix2 q ((((cfg0.win 2).blk t).view.emb j) 1)) := by
    show V c main_v13 (((cfg0.win 1).blk t).view.emb (ix2 q (j 1))) = _
    refine congrArg (V c main_v13) ?_
    funext a; apply Fin.ext
    match a with
    | ⟨0, _⟩ => show win0_1.index t (0 : Fin 2) * 6 + 1 * q.val = q.val; omega
    | ⟨1, _⟩ => show win0_1.index t (1 : Fin 2) * 128 + 1 * (j 1).val = win0_2.index t (1 : Fin 2) * 128 + 1 * (j 1).val; omega
  rw [hx, hw]

/-- An index of the output array lies in grid point t's block when each coordinate lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v14).slice (win0_2.rect t)).set ↔ _
  rw [View.set_slice_whole, Rect.mem_set_unit]
  exact Iff.rfl

/-- Every index of the output array lies in the block of the grid point its row falls under. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by rw [show cfg0.N = 10 from N_0]; omega
  refine ⟨⟨(i 0).val / 10000, ht⟩, flush0_2 _, ?_⟩
  rw [mem_blk0]
  obtain ⟨-, -, -, -, e4, e5⟩ := idx0 ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- After the stage its output array is the whole product. -/
theorem final0 (c : Dev nD) : (dat0 V c).arrAt 2 cfg0.N = Net.product (a := 100000) (k := 6) (n := 128) (V c main_arg0) (V c main_v13) :=
  (dat0 V c).arrAt_eq_of_cover 2 _ (fun t _ => flushed0 V c t) cover0

end Cert.KernelIdeal.Stages

end
-- ==== Proof.NetLayers.lean ====
/-
  The network's layers over the extended reals, entry by entry, for any number a of rows (a block of nodes or all of
  them): every entry of a row depends on that row only.

  * `combine P b M`: one message-passing layer's output, from the packed projections P (columns 0 … 31 the self term,
    96 … 127 the residual), the bias row b and the packed messages M (columns 0 … 31 the summed messages, 32 … 63 the
    sums to be averaged, column 64 the number of neighbours): max (self + bias + sum + mean + residual) 0, the mean the
    quotient of the sum by max (count) 1.
  * `secondStage P b M W`: the combined features times the next layer's weights (96 columns), the features themselves
    appended as the last 32 columns.
  * `decode P b M W₁ b₁ W₂ b₂`: the combined features through a dense layer with rectifier, a dense layer to one column,
    and the logistic function.
  The literals 1 and 0 are kept as their float words.
-/
import proofs.«152504_j884763263722_2_alg».proof.Proof.NetProduct

noncomputable section

open scoped BigOperators

namespace Cert.Net

open Idealize.ShloMosaic Idealize.ShloMosaic.ValueIdx

variable {a : ℕ}

/-- The float word of 1, read on the extended reals. -/
abbrev one32 : EReal := Ideal.ofBits .f32 0x3F800000#32
/-- The float word of 0, read on the extended reals. -/
abbrev zero32 : EReal := Ideal.ofBits .f32 0x00000000#32

/-- One layer's output at row p and column c. -/
def combineAt (P : FVec Ideal ⟨2, ![a, 128]⟩ .f32) (b : FVec Ideal ⟨2, ![1, 32]⟩ .f32) (M : FVec Ideal ⟨2, ![a, 65]⟩ .f32)
    (p : Fin a) (c : Fin 32) : EReal :=
  max (P (ix2 p ⟨c.val, by omega⟩) + b (ix2 (0 : Fin 1) c) + M (ix2 p ⟨c.val, by omega⟩)
      + Ideal.div (M (ix2 p ⟨32 + c.val, by omega⟩)) (max (M (ix2 p ⟨64, by omega⟩)) one32)
      + P (ix2 p ⟨96 + c.val, by omega⟩)) zero32

/-- One layer's output as an [a, 32] array. -/
def combine (P : FVec Ideal ⟨2, ![a, 128]⟩ .f32) (b : FVec Ideal ⟨2, ![1, 32]⟩ .f32) (M : FVec Ideal ⟨2, ![a, 65]⟩ .f32) :
    FVec Ideal ⟨2, ![a, 32]⟩ .f32 := fun i => combineAt P b M (i 0) (i 1)

theorem combine_ix2 (P : FVec Ideal ⟨2, ![a, 128]⟩ .f32) (b : FVec Ideal ⟨2, ![1, 32]⟩ .f32) (M : FVec Ideal ⟨2, ![a, 65]⟩ .f32)
    (p : Fin a) (c : Fin 32) : combine P b M (ix2 p c) = combineAt P b M p c := rfl

/-- The second stage's output at row p and column j: the features times the weights for j < 96, the features after. -/
def secondStageAt (P : FVec Ideal ⟨2, ![a, 128]⟩ .f32) (b : FVec Ideal ⟨2, ![1, 32]⟩ .f32) (M : FVec Ideal ⟨2, ![a, 65]⟩ .f32)
    (W : FVec Ideal ⟨2, ![32, 96]⟩ .f32) (p : Fin a) (j : Fin 128) : EReal :=
  if h : j.val < 96 then ∑ q : Fin 32, combineAt P b M p q * W (ix2 q ⟨j.val, h⟩)
  else combineAt P b M p ⟨j.val - 96, by omega⟩

/-- The second stage's output as an [a, 128] array. -/
def secondStage (P : FVec Ideal ⟨2, ![a, 128]⟩ .f32) (b : FVec Ideal ⟨2, ![1, 32]⟩ .f32) (M : FVec Ideal ⟨2, ![a, 65]⟩ .f32)
    (W : FVec Ideal ⟨2, ![32, 96]⟩ .f32) : FVec Ideal ⟨2, ![a, 128]⟩ .f32 := fun i => secondStageAt P b M W (i 0) (i 1)

/-- The decoder's hidden unit k of row p: max (features · W₁ + b₁) 0. -/
def hiddenAt (P : FVec Ideal ⟨2, ![a, 128]⟩ .f32) (b : FVec Ideal ⟨2, ![1, 32]⟩ .f32) (M : FVec Ideal ⟨2, ![a, 65]⟩ .f32)
    (W₁ : FVec Ideal ⟨2, ![32, 32]⟩ .f32) (b₁ : FVec Ideal ⟨2, ![1, 32]⟩ .f32) (p : Fin a) (k : Fin 32) : EReal :=
  max ((∑ q : Fin 32, combineAt P b M p q * W₁ (ix2 q k)) + b₁ (ix2 (0 : Fin 1) k)) zero32

/-- The decoder's output for row p: the logistic function of hidden · W₂ + b₂. -/
def decodeAt (P : FVec Ideal ⟨2, ![a, 128]⟩ .f32) (b : FVec Ideal ⟨2, ![1, 32]⟩ .f32) (M : FVec Ideal ⟨2, ![a, 65]⟩ .f32)
    (W₁ : FVec Ideal ⟨2, ![32, 32]⟩ .f32) (b₁ : FVec Ideal ⟨2, ![1, 32]⟩ .f32) (W₂ : FVec Ideal ⟨2, ![32, 1]⟩ .f32)
    (b₂ : FVec Ideal ⟨2, ![1, 1]⟩ .f32) (p : Fin a) : EReal :=
  Ideal.logistic ((∑ k : Fin 32, hiddenAt P b M W₁ b₁ p k * W₂ (ix2 k (0 : Fin 1))) + b₂ (ix2 (0 : Fin 1) (0 : Fin 1)))

/-- The decoder's output as an [a, 1] array. -/
def decode (P : FVec Ideal ⟨2, ![a, 128]⟩ .f32) (b : FVec Ideal ⟨2, ![1, 32]⟩ .f32) (M : FVec Ideal ⟨2, ![a, 65]⟩ .f32)
    (W₁ : FVec Ideal ⟨2, ![32, 32]⟩ .f32) (b₁ : FVec Ideal ⟨2, ![1, 32]⟩ .f32) (W₂ : FVec Ideal ⟨2, ![32, 1]⟩ .f32)
    (b₂ : FVec Ideal ⟨2, ![1, 1]⟩ .f32) : FVec Ideal ⟨2, ![a, 1]⟩ .f32 := fun i => decodeAt P b M W₁ b₁ W₂ b₂ (i 0)

/-- Row p of a layer over rows taken from a larger array is the larger array's layer at the row taken. -/
theorem combineAt_rows {a' : ℕ} (r : Fin a → Fin a') (P : FVec Ideal ⟨2, ![a', 128]⟩ .f32) (b : FVec Ideal ⟨2, ![1, 32]⟩ .f32)
    (M : FVec Ideal ⟨2, ![a', 65]⟩ .f32) (p : Fin a) (c : Fin 32) :
    combineAt (fun i : (⟨2, ![a, 128]⟩ : Shape).Idx => P (ix2 (r (i 0)) (i 1))) b (fun i : (⟨2, ![a, 65]⟩ : Shape).Idx => M (ix2 (r (i 0)) (i 1))) p c = combineAt P b M (r p) c := rfl

theorem secondStageAt_rows {a' : ℕ} (r : Fin a → Fin a') (P : FVec Ideal ⟨2, ![a', 128]⟩ .f32) (b : FVec Ideal ⟨2, ![1, 32]⟩ .f32)
    (M : FVec Ideal ⟨2, ![a', 65]⟩ .f32) (W : FVec Ideal ⟨2, ![32, 96]⟩ .f32) (p : Fin a) (j : Fin 128) :
    secondStageAt (fun i : (⟨2, ![a, 128]⟩ : Shape).Idx => P (ix2 (r (i 0)) (i 1))) b (fun i : (⟨2, ![a, 65]⟩ : Shape).Idx => M (ix2 (r (i 0)) (i 1))) W p j = secondStageAt P b M W (r p) j := rfl

theorem decodeAt_rows {a' : ℕ} (r : Fin a → Fin a') (P : FVec Ideal ⟨2, ![a', 128]⟩ .f32) (b : FVec Ideal ⟨2, ![1, 32]⟩ .f32)
    (M : FVec Ideal ⟨2, ![a', 65]⟩ .f32) (W₁ : FVec Ideal ⟨2, ![32, 32]⟩ .f32) (b₁ : FVec Ideal ⟨2, ![1, 32]⟩ .f32)
    (W₂ : FVec Ideal ⟨2, ![32, 1]⟩ .f32) (b₂ : FVec Ideal ⟨2, ![1, 1]⟩ .f32) (p : Fin a) :
    decodeAt (fun i : (⟨2, ![a, 128]⟩ : Shape).Idx => P (ix2 (r (i 0)) (i 1))) b (fun i : (⟨2, ![a, 65]⟩ : Shape).Idx => M (ix2 (r (i 0)) (i 1))) W₁ b₁ W₂ b₂ p = decodeAt P b M W₁ b₁ W₂ b₂ (r p) := rfl

end Cert.Net

end
-- ==== Proof.IdealCombineValue.lean ====
/-
  What the second stage leaves in its output array, on the extended reals: for every node, the first layer's combined
  features times the second-layer weights, with the features themselves as the last thirty-two columns. Grid point t
  handles rows 10000·t … 10000·t + 9999, and every entry of a row depends on that row of the projections and of the
  messages only, so the blocks written back are the blocks of one whole-array function, and the ten blocks tile the array.
-/
import proofs.«152504_j884763263722_2_alg».proof.Proof.IdealCombine
import proofs.«152504_j884763263722_2_alg».proof.Proof.NetLayers
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets1 : (![0, 0] : Fin 2 → Nat) = fun _ => 0 := funext fun a => by fin_cases a <;> rfl

/-- Where the windows' blocks sit at grid point t: the row-blocked ones at row block t, the others at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The row of the whole array under row p of grid point t's block. -/
def rowOf1 (t : Fin cfg1.N) (p : Fin 10000) : Fin 100000 :=
  ⟨t.val * 10000 + p.val, by have ht : t.val < 10 := Nat.lt_of_lt_of_eq t.isLt N_1
                             have := p.isLt; omega⟩

/-- Window 0's block at grid point t: the rows 10000·t … 10000·t + 9999 of its array. -/
theorem blk1_0 (c : Dev nD) (t : Fin cfg1.N) : iblk1 V c 0 t = (fun i : S10000x128.Idx => V c main_v14 (ix2 (rowOf1 t (i 0)) (i 1))) := by
  obtain ⟨e0, e1, e2, e3, e4, e5, e6, e7, e8, e9⟩ := idx1 t
  funext i
  show V c main_v14 (((cfg1.win 0).blk t).view.emb i) = _
  refine congrArg (V c main_v14) ?_
  funext ax; apply Fin.ext
  match ax with
  | ⟨0, _⟩ => show win1_0.index t (0 : Fin 2) * 10000 + 1 * (i 0).val = t.val * 10000 + (i 0).val; omega
  | ⟨1, _⟩ => show win1_0.index t (1 : Fin 2) * 128 + 1 * (i 1).val = (i 1).val; omega

/-- Window 1's block at grid point t is its whole array. -/
theorem blk1_1 (c : Dev nD) (t : Fin cfg1.N) : iblk1 V c 1 t = (V c main_v39) := by
  obtain ⟨e0, e1, e2, e3, e4, e5, e6, e7, e8, e9⟩ := idx1 t
  funext i
  show V c main_v39 (((cfg1.win 1).blk t).view.emb i) = _
  refine congrArg (V c main_v39) ?_
  funext ax; apply Fin.ext
  match ax with
  | ⟨0, _⟩ => show win1_1.index t (0 : Fin 2) * 1 + 1 * (i 0).val = (i 0).val; omega
  | ⟨1, _⟩ => show win1_1.index t (1 : Fin 2) * 32 + 1 * (i 1).val = (i 1).val; omega

/-- Window 2's block at grid point t: the rows 10000·t … 10000·t + 9999 of its array. -/
theorem blk1_2 (c : Dev nD) (t : Fin cfg1.N) : iblk1 V c 2 t = (fun i : S10000x65.Idx => V c main_v37 (ix2 (rowOf1 t (i 0)) (i 1))) := by
  obtain ⟨e0, e1, e2, e3, e4, e5, e6, e7, e8, e9⟩ := idx1 t
  funext i
  show V c main_v37 (((cfg1.win 2).blk t).view.emb i) = _
  refine congrArg (V c main_v37) ?_
  funext ax; apply Fin.ext
  match ax with
  | ⟨0, _⟩ => show win1_2.index t (0 : Fin 2) * 10000 + 1 * (i 0).val = t.val * 10000 + (i 0).val; omega
  | ⟨1, _⟩ => show win1_2.index t (1 : Fin 2) * 65 + 1 * (i 1).val = (i 1).val; omega

/-- Window 3's block at grid point t is its whole array. -/
theorem blk1_3 (c : Dev nD) (t : Fin cfg1.N) : iblk1 V c 3 t = (V c main_v38) := by
  obtain ⟨e0, e1, e2, e3, e4, e5, e6, e7, e8, e9⟩ := idx1 t
  funext i
  show V c main_v38 (((cfg1.win 3).blk t).view.emb i) = _
  refine congrArg (V c main_v38) ?_
  funext ax; apply Fin.ext
  match ax with
  | ⟨0, _⟩ => show win1_3.index t (0 : Fin 2) * 32 + 1 * (i 0).val = (i 0).val; omega
  | ⟨1, _⟩ => show win1_3.index t (1 : Fin 2) * 96 + 1 * (i 1).val = (i 1).val; omega

/-- What grid point t writes back is block t of the one whole-array function. -/
theorem flushed1 (hpay : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (c : Dev nD) (t : Fin cfg1.N) :
    (dat1 V c).flushed 4 t = ((cfg1.win 4).blk t).view.read (Elt Ideal) (Net.secondStage (a := 100000) (V c main_v14) (V c main_v39) (V c main_v37) (V c main_v38)) := by
  show (cfg1.win 4).cut (grid1.coords t) ((dat1 V c).after 4 t) = _
  rw [after1_4]
  unfold out1_4
  rw [View.canon_unit_zero zeroOffsets1]
  simp only [View.ld_unit_zero (S := S10000x128) zeroOffsets1, View.ld_unit_zero (S := S1x32) zeroOffsets1, View.ld_unit_zero (S := S10000x65) zeroOffsets1, View.ld_unit_zero (S := S32x96) zeroOffsets1]
  rw [hpay, blk1_0, blk1_1, blk1_2, blk1_3]
  obtain ⟨e0, e1, e2, e3, e4, e5, e6, e7, e8, e9⟩ := idx1 t
  funext j
  show Net.secondStageAt (a := 10000) (fun i : S10000x128.Idx => V c main_v14 (ix2 (rowOf1 t (i 0)) (i 1))) (V c main_v39) (fun i : S10000x65.Idx => V c main_v37 (ix2 (rowOf1 t (i 0)) (i 1))) (V c main_v38) (j 0) (j 1)
    = Net.secondStageAt (a := 100000) (V c main_v14) (V c main_v39) (V c main_v37) (V c main_v38) ((((cfg1.win 4).blk t).view.emb j) 0) ((((cfg1.win 4).blk t).view.emb j) 1)
  have hr : rowOf1 t (j 0) = (((cfg1.win 4).blk t).view.emb j) 0 := by
    apply Fin.ext
    show t.val * 10000 + (j 0).val = win1_4.index t (0 : Fin 2) * 10000 + 1 * (j 0).val
    omega
  have hc : j 1 = (((cfg1.win 4).blk t).view.emb j) 1 := by
    apply Fin.ext
    show (j 1).val = win1_4.index t (1 : Fin 2) * 128 + 1 * (j 1).val
    omega
  exact (show _ = Net.secondStageAt (a := 100000) (V c main_v14) (V c main_v39) (V c main_v37) (V c main_v38) (rowOf1 t (j 0)) (j 1) from rfl).trans
    (congrArg₂ (Net.secondStageAt (a := 100000) (V c main_v14) (V c main_v39) (V c main_v37) (V c main_v38)) hr hc)

/-- An index of the output array lies in grid point t's block when each coordinate lies in the block's range. -/
theorem mem_blk1 (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v40).slice (win1_4.rect t)).set ↔ _
  rw [View.set_slice_whole, Rect.mem_set_unit]
  exact Iff.rfl

/-- Every index of the output array lies in the block of the grid point its row falls under. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 10000 < cfg1.N := by rw [show cfg1.N = 10 from N_1]; omega
  refine ⟨⟨(i 0).val / 10000, ht⟩, flush1_4 _, ?_⟩
  rw [mem_blk1]
  obtain ⟨e0, e1, e2, e3, e4, e5, e6, e7, e8, e9⟩ := idx1 ⟨(i 0).val / 10000, ht⟩
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, ht⟩ (1 : Fin 2) * 128 ≤ (i 1).val ∧ (i 1).val < win1_4.index ⟨(i 0).val / 10000, ht⟩ (1 : Fin 2) * 128 + 128
    rw [e9]; omega

/-- After the stage its output array is the one whole-array function of the arrays the stage found. -/
theorem final1 (hpay : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (c : Dev nD) : (dat1 V c).arrAt 4 cfg1.N = Net.secondStage (a := 100000) (V c main_v14) (V c main_v39) (V c main_v37) (V c main_v38) :=
  (dat1 V c).arrAt_eq_of_cover 4 _ (fun t _ => flushed1 V hpay c t) cover1

end Cert.KernelIdeal.Stages

end
-- ==== Proof.IdealDecodeValue.lean ====
/-
  What the third stage leaves in its output array, on the extended reals: for every node, the decoder's probability
  computed from the second layer's combined features. Grid point t handles rows 10000·t … 10000·t + 9999, and a row's
  entry depends on that row of the projections and of the messages only, so the blocks written back are the blocks of one
  whole-array function, and the ten blocks tile the array.
-/
import proofs.«152504_j884763263722_2_alg».proof.Proof.IdealDecode
import proofs.«152504_j884763263722_2_alg».proof.Proof.NetLayers
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets2 : (![0, 0] : Fin 2 → Nat) = fun _ => 0 := funext fun a => by fin_cases a <;> rfl

/-- Where the windows' blocks sit at grid point t: the row-blocked ones at row block t, the others at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The row of the whole array under row p of grid point t's block. -/
def rowOf2 (t : Fin cfg2.N) (p : Fin 10000) : Fin 100000 :=
  ⟨t.val * 10000 + p.val, by have ht : t.val < 10 := Nat.lt_of_lt_of_eq t.isLt N_2
                             have := p.isLt; omega⟩

/-- Window 0's block at grid point t: the rows 10000·t … 10000·t + 9999 of its array. -/
theorem blk2_0 (c : Dev nD) (t : Fin cfg2.N) : iblk2 V c 0 t = (fun i : S10000x128.Idx => V c main_v40 (ix2 (rowOf2 t (i 0)) (i 1))) := by
  obtain ⟨e0, e1, e2, e3, e4, e5, e6, e7, e8, e9, e10, e11, e12, e13, e14, e15⟩ := idx2 t
  funext i
  show V c main_v40 (((cfg2.win 0).blk t).view.emb i) = _
  refine congrArg (V c main_v40) ?_
  funext ax; apply Fin.ext
  match ax with
  | ⟨0, _⟩ => show win2_0.index t (0 : Fin 2) * 10000 + 1 * (i 0).val = t.val * 10000 + (i 0).val; omega
  | ⟨1, _⟩ => show win2_0.index t (1 : Fin 2) * 128 + 1 * (i 1).val = (i 1).val; omega

/-- Window 1's block at grid point t is its whole array. -/
theorem blk2_1 (c : Dev nD) (t : Fin cfg2.N) : iblk2 V c 1 t = (V c main_v64) := by
  obtain ⟨e0, e1, e2, e3, e4, e5, e6, e7, e8, e9, e10, e11, e12, e13, e14, e15⟩ := idx2 t
  funext i
  show V c main_v64 (((cfg2.win 1).blk t).view.emb i) = _
  refine congrArg (V c main_v64) ?_
  funext ax; apply Fin.ext
  match ax with
  | ⟨0, _⟩ => show win2_1.index t (0 : Fin 2) * 1 + 1 * (i 0).val = (i 0).val; omega
  | ⟨1, _⟩ => show win2_1.index t (1 : Fin 2) * 32 + 1 * (i 1).val = (i 1).val; omega

/-- Window 2's block at grid point t: the rows 10000·t … 10000·t + 9999 of its array. -/
theorem blk2_2 (c : Dev nD) (t : Fin cfg2.N) : iblk2 V c 2 t = (fun i : S10000x65.Idx => V c main_v63 (ix2 (rowOf2 t (i 0)) (i 1))) := by
  obtain ⟨e0, e1, e2, e3, e4, e5, e6, e7, e8, e9, e10, e11, e12, e13, e14, e15⟩ := idx2 t
  funext i
  show V c main_v63 (((cfg2.win 2).blk t).view.emb i) = _
  refine congrArg (V c main_v63) ?_
  funext ax; apply Fin.ext
  match ax with
  | ⟨0, _⟩ => show win2_2.index t (0 : Fin 2) * 10000 + 1 * (i 0).val = t.val * 10000 + (i 0).val; omega
  | ⟨1, _⟩ => show win2_2.index t (1 : Fin 2) * 65 + 1 * (i 1).val = (i 1).val; omega

/-- Window 3's block at grid point t is its whole array. -/
theorem blk2_3 (c : Dev nD) (t : Fin cfg2.N) : iblk2 V c 3 t = (V c main_arg12) := by
  obtain ⟨e0, e1, e2, e3, e4, e5, e6, e7, e8, e9, e10, e11, e12, e13, e14, e15⟩ := idx2 t
  funext i
  show V c main_arg12 (((cfg2.win 3).blk t).view.emb i) = _
  refine congrArg (V c main_arg12) ?_
  funext ax; apply Fin.ext
  match ax with
  | ⟨0, _⟩ => show win2_3.index t (0 : Fin 2) * 32 + 1 * (i 0).val = (i 0).val; omega
  | ⟨1, _⟩ => show win2_3.index t (1 : Fin 2) * 32 + 1 * (i 1).val = (i 1).val; omega

/-- Window 4's block at grid point t is its whole array. -/
theorem blk2_4 (c : Dev nD) (t : Fin cfg2.N) : iblk2 V c 4 t = (V c main_v65) := by
  obtain ⟨e0, e1, e2, e3, e4, e5, e6, e7, e8, e9, e10, e11, e12, e13, e14, e15⟩ := idx2 t
  funext i
  show V c main_v65 (((cfg2.win 4).blk t).view.emb i) = _
  refine congrArg (V c main_v65) ?_
  funext ax; apply Fin.ext
  match ax with
  | ⟨0, _⟩ => show win2_4.index t (0 : Fin 2) * 1 + 1 * (i 0).val = (i 0).val; omega
  | ⟨1, _⟩ => show win2_4.index t (1 : Fin 2) * 32 + 1 * (i 1).val = (i 1).val; omega

/-- Window 5's block at grid point t is its whole array. -/
theorem blk2_5 (c : Dev nD) (t : Fin cfg2.N) : iblk2 V c 5 t = (V c main_arg14) := by
  obtain ⟨e0, e1, e2, e3, e4, e5, e6, e7, e8, e9, e10, e11, e12, e13, e14, e15⟩ := idx2 t
  funext i
  show V c main_arg14 (((cfg2.win 5).blk t).view.emb i) = _
  refine congrArg (V c main_arg14) ?_
  funext ax; apply Fin.ext
  match ax with
  | ⟨0, _⟩ => show win2_5.index t (0 : Fin 2) * 32 + 1 * (i 0).val = (i 0).val; omega
  | ⟨1, _⟩ => show win2_5.index t (1 : Fin 2) * 1 + 1 * (i 1).val = (i 1).val; omega

/-- Window 6's block at grid point t is its whole array. -/
theorem blk2_6 (c : Dev nD) (t : Fin cfg2.N) : iblk2 V c 6 t = (V c main_v66) := by
  obtain ⟨e0, e1, e2, e3, e4, e5, e6, e7, e8, e9, e10, e11, e12, e13, e14, e15⟩ := idx2 t
  funext i
  show V c main_v66 (((cfg2.win 6).blk t).view.emb i) = _
  refine congrArg (V c main_v66) ?_
  funext ax; apply Fin.ext
  match ax with
  | ⟨0, _⟩ => show win2_6.index t (0 : Fin 2) * 1 + 1 * (i 0).val = (i 0).val; omega
  | ⟨1, _⟩ => show win2_6.index t (1 : Fin 2) * 1 + 1 * (i 1).val = (i 1).val; omega

set_option maxHeartbeats 4000000 in
/-- What grid point t writes back is block t of the one whole-array function. -/
theorem flushed2 (hpay : ∀ (v0 : Vec Ideal S10000x128 .f32) (v4 : Vec Ideal S10000x65 .f32) (v13 : Vec Ideal S1x32 .f32) (v22 : Vec Ideal S32x32 .f32) (v24 : Vec Ideal S1x32 .f32) (v30 : Vec Ideal S32x1 .f32) (v32 : Vec Ideal S1x1 .f32), k2_pay1 v0 v4 v13 v22 v24 v30 v32 = Net.decode (a := 10000) v0 v13 v4 v22 v24 v30 v32)
    (c : Dev nD) (t : Fin cfg2.N) :
    (dat2 V c).flushed 7 t = ((cfg2.win 7).blk t).view.read (Elt Ideal) (Net.decode (a := 100000) (V c main_v40) (V c main_v64) (V c main_v63) (V c main_arg12) (V c main_v65) (V c main_arg14) (V c main_v66)) := by
  show (cfg2.win 7).cut (grid2.coords t) ((dat2 V c).after 7 t) = _
  rw [after2_7]
  unfold out2_7
  rw [View.canon_unit_zero zeroOffsets2]
  simp only [View.ld_unit_zero (S := S10000x128) zeroOffsets2, View.ld_unit_zero (S := S1x32) zeroOffsets2, View.ld_unit_zero (S := S10000x65) zeroOffsets2, View.ld_unit_zero (S := S32x32) zeroOffsets2, View.ld_unit_zero (S := S32x1) zeroOffsets2, View.ld_unit_zero (S := S1x1) zeroOffsets2]
  rw [hpay, blk2_0, blk2_1, blk2_2, blk2_3, blk2_4, blk2_5, blk2_6]
  obtain ⟨e0, e1, e2, e3, e4, e5, e6, e7, e8, e9, e10, e11, e12, e13, e14, e15⟩ := idx2 t
  funext j
  show Net.decodeAt (a := 10000) (fun i : S10000x128.Idx => V c main_v40 (ix2 (rowOf2 t (i 0)) (i 1))) (V c main_v64) (fun i : S10000x65.Idx => V c main_v63 (ix2 (rowOf2 t (i 0)) (i 1))) (V c main_arg12) (V c main_v65) (V c main_arg14) (V c main_v66) (j 0)
    = Net.decodeAt (a := 100000) (V c main_v40) (V c main_v64) (V c main_v63) (V c main_arg12) (V c main_v65) (V c main_arg14) (V c main_v66) ((((cfg2.win 7).blk t).view.emb j) 0)
  have hr : rowOf2 t (j 0) = (((cfg2.win 7).blk t).view.emb j) 0 := by
    apply Fin.ext
    show t.val * 10000 + (j 0).val = win2_7.index t (0 : Fin 2) * 10000 + 1 * (j 0).val
    omega
  exact (Net.decodeAt_rows (a := 10000) (a' := 100000) (rowOf2 t) (V c main_v40) (V c main_v64) (V c main_v63) (V c main_arg12) (V c main_v65) (V c main_arg14) (V c main_v66) (j 0)).trans
    (congrArg (Net.decodeAt (a := 100000) (V c main_v40) (V c main_v64) (V c main_v63) (V c main_arg12) (V c main_v65) (V c main_arg14) (V c main_v66)) hr)

/-- An index of the output array lies in grid point t's block when each coordinate lies in the block's range. -/
theorem mem_blk2 (t : Fin cfg2.N) (i : S100000x1.Idx) :
    i ∈ ((cfg2.win 7).blk t).view.set ↔ ∀ a : Fin 2, win2_7.index t a * S10000x1.size a ≤ (i a).val ∧ (i a).val < win2_7.index t a * S10000x1.size a + S10000x1.size a := by
  show i ∈ ((View.whole main_v67).slice (win2_7.rect t)).set ↔ _
  rw [View.set_slice_whole, Rect.mem_set_unit]
  exact Iff.rfl

/-- Every index of the output array lies in the block of the grid point its row falls under. -/
theorem cover2 (i : S100000x1.Idx) : ∃ t : Fin cfg2.N, (cfg2.win 7).flush t = true ∧ i ∈ ((cfg2.win 7).blk t).view.set := by
  have hi0 : (i 0).val < 100000 := (i 0).isLt
  have hi1 : (i 1).val < 1 := (i 1).isLt
  have ht : (i 0).val / 10000 < cfg2.N := by rw [show cfg2.N = 10 from N_2]; omega
  refine ⟨⟨(i 0).val / 10000, ht⟩, flush2_7 _, ?_⟩
  rw [mem_blk2]
  obtain ⟨e0, e1, e2, e3, e4, e5, e6, e7, e8, e9, e10, e11, e12, e13, e14, e15⟩ := idx2 ⟨(i 0).val / 10000, ht⟩
  intro a
  match a with
  | ⟨0, _⟩ =>
    show win2_7.index ⟨(i 0).val / 10000, ht⟩ (0 : Fin 2) * 10000 ≤ (i 0).val ∧ (i 0).val < win2_7.index ⟨(i 0).val / 10000, ht⟩ (0 : Fin 2) * 10000 + 10000
    rw [e14]; show (i 0).val / 10000 * 10000 ≤ (i 0).val ∧ (i 0).val < (i 0).val / 10000 * 10000 + 10000; omega
  | ⟨1, _⟩ =>
    show win2_7.index ⟨(i 0).val / 10000, ht⟩ (1 : Fin 2) * 1 ≤ (i 1).val ∧ (i 1).val < win2_7.index ⟨(i 0).val / 10000, ht⟩ (1 : Fin 2) * 1 + 1
    rw [e15]; omega

/-- After the stage its output array is the one whole-array function of the arrays the stage found. -/
theorem final2 (hpay : ∀ (v0 : Vec Ideal S10000x128 .f32) (v4 : Vec Ideal S10000x65 .f32) (v13 : Vec Ideal S1x32 .f32) (v22 : Vec Ideal S32x32 .f32) (v24 : Vec Ideal S1x32 .f32) (v30 : Vec Ideal S32x1 .f32) (v32 : Vec Ideal S1x1 .f32), k2_pay1 v0 v4 v13 v22 v24 v30 v32 = Net.decode (a := 10000) v0 v13 v4 v22 v24 v30 v32)
    (c : Dev nD) : (dat2 V c).arrAt 7 cfg2.N = Net.decode (a := 100000) (V c main_v40) (V c main_v64) (V c main_v63) (V c main_arg12) (V c main_v65) (V c main_arg14) (V c main_v66) :=
  (dat2 V c).arrAt_eq_of_cover 7 _ (fun t _ => flushed2 V hpay c t) cover2

end Cert.KernelIdeal.Stages

end
-- ==== Proof.IdealHost.lean ====
/-
  The kernel program's host operations between its stages, on the extended reals, as named functions of the arrays they
  read, and what each stretch of host operations leaves in the buffers the next stage reads.

  * an edge list's two rows (sources and targets) as vectors; the sources with negative entries wrapped by the node count;
  * the summed messages: rows of one 32-column window of the packed projections gathered at the (wrapped) sources and
    added up at the targets, once per edge set; the neighbour count: ones added up at the second edge set's targets;
  * the packed messages: the two sums and the count side by side (65 columns);
  * the stacked weights of each layer, and the bias vectors as rows.
-/
import proofs.«152504_j884763263722_2_alg».proof.Proof.Gen.KernelIdeal.Launch
import Idealize.ShloMosaic.Lib.StableHlo.Run
import Idealize.ShloMosaic.PureOps.Ideal
import proofs.«152504_j884763263722_2_alg».proof.Proof.NetLayers

set_option maxRecDepth 16384

noncomputable section

namespace Cert.KernelIdeal.Stages

open Cert.KernelIdeal Cert.KernelIdeal.Gen
open Idealize.ShloMosaic Idealize.ShloMosaic.TcCoe Idealize.ShloMosaic.StableHlo
open Idealize.SL.Sem

/-- Row 0 of an edge list: the edges' sources. -/
def edgeSources (e : IVec S2x1600000 32) : IVec S1600000 32 :=
  shapeCast _ (extractStridedSlice S1x1600000 ![0, 0] e slices_S2x1600000_S1x1600000_0_0) shapeCasts_S1x1600000_S1600000
/-- Row 1 of an edge list: the edges' targets. -/
def edgeTargets (e : IVec S2x1600000 32) : IVec S1600000 32 :=
  shapeCast _ (extractStridedSlice S1x1600000 ![1, 0] e slices_S2x1600000_S1x1600000_1_0) shapeCasts_S1x1600000_S1600000
/-- Start indices as a column. -/
def asColumn (v : IVec S1600000 32) : IVec S1600000x1 32 := broadcastInDim S1600000x1 ![0] bcast_S1600000_S1600000x1_0 v
/-- Sources with the negative entries moved up by the node count, as a column. -/
def wrappedColumn (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The all-zero [100000, 32] table the sums start from. -/
def zeroTable : FVec Ideal S100000x32 .f32 := broadcastInDim S100000x32 ![] bcast_S_S100000x32 (constant (F := Ideal) S_ .f32 0x00000000#32)

/-- Columns 32 … 63 of the packed projections, gathered at the sources and summed at the targets. -/
def summedAt32 (P : FVec Ideal S100000x128 .f32) (src tgt : IVec S1600000 32) : FVec Ideal S100000x32 .f32 :=
  Host.scatterAdd scatter_S100000x32_S1600000x1_S1600000x32_1_0_0_1 zeroTable (asColumn tgt)
    (Host.gather gather_S100000x32_S1600000x1_S1600000x32_1_0_n_n_0_1_132
      (extractStridedSlice S100000x32 ![0, 32] P slices_S100000x128_S100000x32_0_32) (wrappedColumn src))
/-- Columns 64 … 95 of the packed projections, gathered at the sources and summed at the targets. -/
def summedAt64 (P : FVec Ideal S100000x128 .f32) (src tgt : IVec S1600000 32) : FVec Ideal S100000x32 .f32 :=
  Host.scatterAdd scatter_S100000x32_S1600000x1_S1600000x32_1_0_0_1 zeroTable (asColumn tgt)
    (Host.gather gather_S100000x32_S1600000x1_S1600000x32_1_0_n_n_0_1_132
      (extractStridedSlice S100000x32 ![0, 64] P slices_S100000x128_S100000x32_0_64) (wrappedColumn src))
/-- The number of edges landing on each node, as a vector. -/
def neighbourCount (tgt : IVec S1600000 32) : FVec Ideal S100000 .f32 :=
  Host.scatterAdd scatter_S100000_S1600000x1_S1600000_n_0_0_1
    (broadcastInDim S100000 ![] bcast_S_S100000 (constant (F := Ideal) S_ .f32 0x00000000#32)) (asColumn tgt)
    (broadcastInDim S1600000 ![] bcast_S_S1600000 (constant (F := Ideal) S_ .f32 0x3F800000#32))
/-- The same as a one-column array. -/
def countColumn (cnt : FVec Ideal S100000 .f32) : FVec Ideal S100000x1 .f32 := broadcastInDim S100000x1 ![0] bcast_S100000_S100000x1_0 cnt
/-- The packed messages: the two sums and the count column side by side. -/
def packedMessages (tp it : FVec Ideal S100000x32 .f32) (cnt : FVec Ideal S100000x1 .f32) : FVec Ideal S100000x65 .f32 :=
  concatenate S100000x65 1 [⟨S100000x32, tp⟩, ⟨S100000x32, it⟩, ⟨S100000x1, cnt⟩] concatenates_S100000x32_S100000x32_S100000x1_S100000x65_d1
/-- The first layer's four weight matrices side by side. -/
def stackedWeights1 (w0 w1 w2 w3 : FVec Ideal S6x32 .f32) : FVec Ideal S6x128 .f32 :=
  concatenate S6x128 1 [⟨S6x32, w0⟩, ⟨S6x32, w1⟩, ⟨S6x32, w2⟩, ⟨S6x32, w3⟩] concatenates_S6x32_S6x32_S6x32_S6x32_S6x128_d1
/-- The second layer's three weight matrices side by side. -/
def stackedWeights2 (w0 w1 w2 : FVec Ideal S32x32 .f32) : FVec Ideal S32x96 .f32 :=
  concatenate S32x96 1 [⟨S32x32, w0⟩, ⟨S32x32, w1⟩, ⟨S32x32, w2⟩] concatenates_S32x32_S32x32_S32x32_S32x96_d1
/-- A bias vector as a row. -/
def biasRow (b : FVec Ideal S32 .f32) : FVec Ideal S1x32 .f32 := shapeCast _ b shapeCasts_S32_S1x32
/-- The last bias as a [1, 1] array. -/
def biasCell (b : FVec Ideal S1 .f32) : FVec Ideal S1x1 .f32 := shapeCast _ b shapeCasts_S1_S1x1

/-! ## The result as a function of the arguments -/

/-- The packed first projection: the features times the four first-layer weight matrices side by side. -/
def firstProjection (x : FVec Ideal S100000x6 .f32) (w3 w5 w6 w7 : FVec Ideal S6x32 .f32) : FVec Ideal S100000x128 .f32 :=
  Net.product (a := 100000) (k := 6) (n := 128) x (stackedWeights1 w3 w5 w6 w7)
/-- The packed messages built from packed projections P along the two edge sets. -/
def messagesFrom (P : FVec Ideal S100000x128 .f32) (e1 e2 : IVec S2x1600000 32) : FVec Ideal S100000x65 .f32 :=
  packedMessages (summedAt32 P (edgeSources e1) (edgeTargets e1)) (summedAt64 P (edgeSources e2) (edgeTargets e2))
    (countColumn (neighbourCount (edgeTargets e2)))
/-- The second stage's output: the first layer's combine, projected, with the combined features appended. -/
def secondProjection (x : FVec Ideal S100000x6 .f32) (e1 e2 : IVec S2x1600000 32) (w3 : FVec Ideal S6x32 .f32) (b4 : FVec Ideal S32 .f32) (w5 w6 w7 : FVec Ideal S6x32 .f32)
    (w8 w10 w11 : FVec Ideal S32x32 .f32) : FVec Ideal S100000x128 .f32 :=
  Net.secondStage (a := 100000) (firstProjection x w3 w5 w6 w7) (biasRow b4) (messagesFrom (firstProjection x w3 w5 w6 w7) e1 e2)
    (stackedWeights2 w8 w10 w11)
/-- The program's result. -/
def result (x : FVec Ideal S100000x6 .f32) (e1 e2 : IVec S2x1600000 32) (w3 : FVec Ideal S6x32 .f32) (b4 : FVec Ideal S32 .f32) (w5 w6 w7 : FVec Ideal S6x32 .f32)
    (w8 : FVec Ideal S32x32 .f32) (b9 : FVec Ideal S32 .f32) (w10 w11 w12 : FVec Ideal S32x32 .f32) (b13 : FVec Ideal S32 .f32) (w14 : FVec Ideal S32x1 .f32) (b15 : FVec Ideal S1 .f32) :
    FVec Ideal S100000x1 .f32 :=
  Net.decode (a := 100000) (secondProjection x e1 e2 w3 b4 w5 w6 w7 w8 w10 w11) (biasRow b9)
    (messagesFrom (secondProjection x e1 e2 w3 b4 w5 w6 w7 w8 w10 w11) e1 e2) w12 (biasRow b13) w14 (biasCell b15)

variable (W : Valuation τ sig (Elt Ideal))

/-! ## The first stretch -/

theorem first_sourcesA : after hostOps0 W (Proc.devRef .tc main_v1) = edgeSources (W (Proc.devRef .tc main_arg1)) := by
  after_results; rfl
theorem first_targetsA : after hostOps0 W (Proc.devRef .tc main_v3) = edgeTargets (W (Proc.devRef .tc main_arg1)) := by
  after_results; rfl
theorem first_sourcesB : after hostOps0 W (Proc.devRef .tc main_v5) = edgeSources (W (Proc.devRef .tc main_arg2)) := by
  after_results; rfl
theorem first_targetsB : after hostOps0 W (Proc.devRef .tc main_v7) = edgeTargets (W (Proc.devRef .tc main_arg2)) := by
  after_results; rfl
theorem first_count : after hostOps0 W (Proc.devRef .tc main_v12) = countColumn (neighbourCount (edgeTargets (W (Proc.devRef .tc main_arg2)))) := by
  after_results; rfl
theorem first_weights : after hostOps0 W (Proc.devRef .tc main_v13)
    = stackedWeights1 (W (Proc.devRef .tc main_arg3)) (W (Proc.devRef .tc main_arg5)) (W (Proc.devRef .tc main_arg6)) (W (Proc.devRef .tc main_arg7)) := by
  after_results; rfl

/-! ## The second stretch -/

theorem second_messages : after hostOps1 W (Proc.devRef .tc main_v37)
    = packedMessages (summedAt32 (W (Proc.devRef .tc main_v14)) (W (Proc.devRef .tc main_v1)) (W (Proc.devRef .tc main_v3)))
        (summedAt64 (W (Proc.devRef .tc main_v14)) (W (Proc.devRef .tc main_v5)) (W (Proc.devRef .tc main_v7)))
        (W (Proc.devRef .tc main_v12)) := by
  after_results_simp; rfl
theorem second_weights : after hostOps1 W (Proc.devRef .tc main_v38)
    = stackedWeights2 (W (Proc.devRef .tc main_arg8)) (W (Proc.devRef .tc main_arg10)) (W (Proc.devRef .tc main_arg11)) := by
  after_results_simp; rfl
theorem second_bias : after hostOps1 W (Proc.devRef .tc main_v39) = biasRow (W (Proc.devRef .tc main_arg4)) := by
  after_results_simp; rfl

/-! ## The third stretch -/

theorem third_messages : after hostOps2 W (Proc.devRef .tc main_v63)
    = packedMessages (summedAt32 (W (Proc.devRef .tc main_v40)) (W (Proc.devRef .tc main_v1)) (W (Proc.devRef .tc main_v3)))
        (summedAt64 (W (Proc.devRef .tc main_v40)) (W (Proc.devRef .tc main_v5)) (W (Proc.devRef .tc main_v7)))
        (W (Proc.devRef .tc main_v12)) := by
  after_results_simp; rfl
theorem third_bias : after hostOps2 W (Proc.devRef .tc main_v64) = biasRow (W (Proc.devRef .tc main_arg9)) := by
  after_results_simp; rfl
theorem third_bias1 : after hostOps2 W (Proc.devRef .tc main_v65) = biasRow (W (Proc.devRef .tc main_arg13)) := by
  after_results_simp; rfl
theorem third_bias2 : after hostOps2 W (Proc.devRef .tc main_v66) = biasCell (W (Proc.devRef .tc main_arg15)) := by
  after_results_simp; rfl

end Cert.KernelIdeal.Stages

end
-- ==== Proof.IdealValue.lean ====
/-
  The kernel program's result on the extended reals as one function of its sixteen argument arrays: the packed first
  projection of the features; the packed messages gathered and summed from it along the two edge sets, with the neighbour
  count; the second stage (the first layer's combine and the second projection); the messages again, from the second
  projection; and the third stage (the second layer's combine and the decoder). Each stage's output array is the stage's
  whole-array function of the arrays it finds, and each array it finds is what an earlier piece of the run left there.
-/
import proofs.«152504_j884763263722_2_alg».proof.Proof.IdealRun
import proofs.«152504_j884763263722_2_alg».proof.Proof.IdealProjectValue
import proofs.«152504_j884763263722_2_alg».proof.Proof.IdealCombineValue
import proofs.«152504_j884763263722_2_alg».proof.Proof.IdealDecodeValue
import proofs.«152504_j884763263722_2_alg».proof.Proof.IdealHost

set_option maxRecDepth 16384

noncomputable section

namespace Cert.KernelIdeal.Stages

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-! ## What each piece finds is what an earlier piece left -/

theorem kept_main_arg0_1 (c : Dev nD) : B1 m ρ c (Proc.devRef .tc main_arg0) = B0 m ρ c (Proc.devRef .tc main_arg0) :=
  calc B1 m ρ c (Proc.devRef .tc main_arg0)
    _ = B0 m ρ c (Proc.devRef .tc main_arg0) := StableHlo.after_of_writes_sub hostOps0 _ hostOps0_writes (r := main_arg0) (by decide)
theorem kept_main_arg4_2 (c : Dev nD) : B2 m ρ c (Proc.devRef .tc main_arg4) = B0 m ρ c (Proc.devRef .tc main_arg4) :=
  calc B2 m ρ c (Proc.devRef .tc main_arg4)
    _ = B1 m ρ c (Proc.devRef .tc main_arg4) := B2_of_ne m ρ c main_arg4 (by decide)
    _ = B0 m ρ c (Proc.devRef .tc main_arg4) := StableHlo.after_of_writes_sub hostOps0 _ hostOps0_writes (r := main_arg4) (by decide)
theorem kept_main_arg8_2 (c : Dev nD) : B2 m ρ c (Proc.devRef .tc main_arg8) = B0 m ρ c (Proc.devRef .tc main_arg8) :=
  calc B2 m ρ c (Proc.devRef .tc main_arg8)
    _ = B1 m ρ c (Proc.devRef .tc main_arg8) := B2_of_ne m ρ c main_arg8 (by decide)
    _ = B0 m ρ c (Proc.devRef .tc main_arg8) := StableHlo.after_of_writes_sub hostOps0 _ hostOps0_writes (r := main_arg8) (by decide)
theorem kept_main_arg10_2 (c : Dev nD) : B2 m ρ c (Proc.devRef .tc main_arg10) = B0 m ρ c (Proc.devRef .tc main_arg10) :=
  calc B2 m ρ c (Proc.devRef .tc main_arg10)
    _ = B1 m ρ c (Proc.devRef .tc main_arg10) := B2_of_ne m ρ c main_arg10 (by decide)
    _ = B0 m ρ c (Proc.devRef .tc main_arg10) := StableHlo.after_of_writes_sub hostOps0 _ hostOps0_writes (r := main_arg10) (by decide)
theorem kept_main_arg11_2 (c : Dev nD) : B2 m ρ c (Proc.devRef .tc main_arg11) = B0 m ρ c (Proc.devRef .tc main_arg11) :=
  calc B2 m ρ c (Proc.devRef .tc main_arg11)
    _ = B1 m ρ c (Proc.devRef .tc main_arg11) := B2_of_ne m ρ c main_arg11 (by decide)
    _ = B0 m ρ c (Proc.devRef .tc main_arg11) := StableHlo.after_of_writes_sub hostOps0 _ hostOps0_writes (r := main_arg11) (by decide)
theorem kept_main_arg9_4 (c : Dev nD) : B4 m ρ c (Proc.devRef .tc main_arg9) = B0 m ρ c (Proc.devRef .tc main_arg9) :=
  calc B4 m ρ c (Proc.devRef .tc main_arg9)
    _ = B3 m ρ c (Proc.devRef .tc main_arg9) := B4_of_ne m ρ c main_arg9 (by decide)
    _ = B2 m ρ c (Proc.devRef .tc main_arg9) := StableHlo.after_of_writes_sub hostOps1 _ hostOps1_writes (r := main_arg9) (by decide)
    _ = B1 m ρ c (Proc.devRef .tc main_arg9) := B2_of_ne m ρ c main_arg9 (by decide)
    _ = B0 m ρ c (Proc.devRef .tc main_arg9) := StableHlo.after_of_writes_sub hostOps0 _ hostOps0_writes (r := main_arg9) (by decide)
theorem kept_main_arg13_4 (c : Dev nD) : B4 m ρ c (Proc.devRef .tc main_arg13) = B0 m ρ c (Proc.devRef .tc main_arg13) :=
  calc B4 m ρ c (Proc.devRef .tc main_arg13)
    _ = B3 m ρ c (Proc.devRef .tc main_arg13) := B4_of_ne m ρ c main_arg13 (by decide)
    _ = B2 m ρ c (Proc.devRef .tc main_arg13) := StableHlo.after_of_writes_sub hostOps1 _ hostOps1_writes (r := main_arg13) (by decide)
    _ = B1 m ρ c (Proc.devRef .tc main_arg13) := B2_of_ne m ρ c main_arg13 (by decide)
    _ = B0 m ρ c (Proc.devRef .tc main_arg13) := StableHlo.after_of_writes_sub hostOps0 _ hostOps0_writes (r := main_arg13) (by decide)
theorem kept_main_arg15_4 (c : Dev nD) : B4 m ρ c (Proc.devRef .tc main_arg15) = B0 m ρ c (Proc.devRef .tc main_arg15) :=
  calc B4 m ρ c (Proc.devRef .tc main_arg15)
    _ = B3 m ρ c (Proc.devRef .tc main_arg15) := B4_of_ne m ρ c main_arg15 (by decide)
    _ = B2 m ρ c (Proc.devRef .tc main_arg15) := StableHlo.after_of_writes_sub hostOps1 _ hostOps1_writes (r := main_arg15) (by decide)
    _ = B1 m ρ c (Proc.devRef .tc main_arg15) := B2_of_ne m ρ c main_arg15 (by decide)
    _ = B0 m ρ c (Proc.devRef .tc main_arg15) := StableHlo.after_of_writes_sub hostOps0 _ hostOps0_writes (r := main_arg15) (by decide)
theorem kept_main_arg12_5 (c : Dev nD) : B5 m ρ c (Proc.devRef .tc main_arg12) = B0 m ρ c (Proc.devRef .tc main_arg12) :=
  calc B5 m ρ c (Proc.devRef .tc main_arg12)
    _ = B4 m ρ c (Proc.devRef .tc main_arg12) := StableHlo.after_of_writes_sub hostOps2 _ hostOps2_writes (r := main_arg12) (by decide)
    _ = B3 m ρ c (Proc.devRef .tc main_arg12) := B4_of_ne m ρ c main_arg12 (by decide)
    _ = B2 m ρ c (Proc.devRef .tc main_arg12) := StableHlo.after_of_writes_sub hostOps1 _ hostOps1_writes (r := main_arg12) (by decide)
    _ = B1 m ρ c (Proc.devRef .tc main_arg12) := B2_of_ne m ρ c main_arg12 (by decide)
    _ = B0 m ρ c (Proc.devRef .tc main_arg12) := StableHlo.after_of_writes_sub hostOps0 _ hostOps0_writes (r := main_arg12) (by decide)
theorem kept_main_arg14_5 (c : Dev nD) : B5 m ρ c (Proc.devRef .tc main_arg14) = B0 m ρ c (Proc.devRef .tc main_arg14) :=
  calc B5 m ρ c (Proc.devRef .tc main_arg14)
    _ = B4 m ρ c (Proc.devRef .tc main_arg14) := StableHlo.after_of_writes_sub hostOps2 _ hostOps2_writes (r := main_arg14) (by decide)
    _ = B3 m ρ c (Proc.devRef .tc main_arg14) := B4_of_ne m ρ c main_arg14 (by decide)
    _ = B2 m ρ c (Proc.devRef .tc main_arg14) := StableHlo.after_of_writes_sub hostOps1 _ hostOps1_writes (r := main_arg14) (by decide)
    _ = B1 m ρ c (Proc.devRef .tc main_arg14) := B2_of_ne m ρ c main_arg14 (by decide)
    _ = B0 m ρ c (Proc.devRef .tc main_arg14) := StableHlo.after_of_writes_sub hostOps0 _ hostOps0_writes (r := main_arg14) (by decide)
theorem kept_main_v1_2 (c : Dev nD) : B2 m ρ c (Proc.devRef .tc main_v1) = B1 m ρ c (Proc.devRef .tc main_v1) :=
  calc B2 m ρ c (Proc.devRef .tc main_v1)
    _ = B1 m ρ c (Proc.devRef .tc main_v1) := B2_of_ne m ρ c main_v1 (by decide)
theorem kept_main_v1_4 (c : Dev nD) : B4 m ρ c (Proc.devRef .tc main_v1) = B1 m ρ c (Proc.devRef .tc main_v1) :=
  calc B4 m ρ c (Proc.devRef .tc main_v1)
    _ = B3 m ρ c (Proc.devRef .tc main_v1) := B4_of_ne m ρ c main_v1 (by decide)
    _ = B2 m ρ c (Proc.devRef .tc main_v1) := StableHlo.after_of_writes_sub hostOps1 _ hostOps1_writes (r := main_v1) (by decide)
    _ = B1 m ρ c (Proc.devRef .tc main_v1) := B2_of_ne m ρ c main_v1 (by decide)
theorem kept_main_v3_2 (c : Dev nD) : B2 m ρ c (Proc.devRef .tc main_v3) = B1 m ρ c (Proc.devRef .tc main_v3) :=
  calc B2 m ρ c (Proc.devRef .tc main_v3)
    _ = B1 m ρ c (Proc.devRef .tc main_v3) := B2_of_ne m ρ c main_v3 (by decide)
theorem kept_main_v3_4 (c : Dev nD) : B4 m ρ c (Proc.devRef .tc main_v3) = B1 m ρ c (Proc.devRef .tc main_v3) :=
  calc B4 m ρ c (Proc.devRef .tc main_v3)
    _ = B3 m ρ c (Proc.devRef .tc main_v3) := B4_of_ne m ρ c main_v3 (by decide)
    _ = B2 m ρ c (Proc.devRef .tc main_v3) := StableHlo.after_of_writes_sub hostOps1 _ hostOps1_writes (r := main_v3) (by decide)
    _ = B1 m ρ c (Proc.devRef .tc main_v3) := B2_of_ne m ρ c main_v3 (by decide)
theorem kept_main_v5_2 (c : Dev nD) : B2 m ρ c (Proc.devRef .tc main_v5) = B1 m ρ c (Proc.devRef .tc main_v5) :=
  calc B2 m ρ c (Proc.devRef .tc main_v5)
    _ = B1 m ρ c (Proc.devRef .tc main_v5) := B2_of_ne m ρ c main_v5 (by decide)
theorem kept_main_v5_4 (c : Dev nD) : B4 m ρ c (Proc.devRef .tc main_v5) = B1 m ρ c (Proc.devRef .tc main_v5) :=
  calc B4 m ρ c (Proc.devRef .tc main_v5)
    _ = B3 m ρ c (Proc.devRef .tc main_v5) := B4_of_ne m ρ c main_v5 (by decide)
    _ = B2 m ρ c (Proc.devRef .tc main_v5) := StableHlo.after_of_writes_sub hostOps1 _ hostOps1_writes (r := main_v5) (by decide)
    _ = B1 m ρ c (Proc.devRef .tc main_v5) := B2_of_ne m ρ c main_v5 (by decide)
theorem kept_main_v7_2 (c : Dev nD) : B2 m ρ c (Proc.devRef .tc main_v7) = B1 m ρ c (Proc.devRef .tc main_v7) :=
  calc B2 m ρ c (Proc.devRef .tc main_v7)
    _ = B1 m ρ c (Proc.devRef .tc main_v7) := B2_of_ne m ρ c main_v7 (by decide)
theorem kept_main_v7_4 (c : Dev nD) : B4 m ρ c (Proc.devRef .tc main_v7) = B1 m ρ c (Proc.devRef .tc main_v7) :=
  calc B4 m ρ c (Proc.devRef .tc main_v7)
    _ = B3 m ρ c (Proc.devRef .tc main_v7) := B4_of_ne m ρ c main_v7 (by decide)
    _ = B2 m ρ c (Proc.devRef .tc main_v7) := StableHlo.after_of_writes_sub hostOps1 _ hostOps1_writes (r := main_v7) (by decide)
    _ = B1 m ρ c (Proc.devRef .tc main_v7) := B2_of_ne m ρ c main_v7 (by decide)
theorem kept_main_v12_2 (c : Dev nD) : B2 m ρ c (Proc.devRef .tc main_v12) = B1 m ρ c (Proc.devRef .tc main_v12) :=
  calc B2 m ρ c (Proc.devRef .tc main_v12)
    _ = B1 m ρ c (Proc.devRef .tc main_v12) := B2_of_ne m ρ c main_v12 (by decide)
theorem kept_main_v12_4 (c : Dev nD) : B4 m ρ c (Proc.devRef .tc main_v12) = B1 m ρ c (Proc.devRef .tc main_v12) :=
  calc B4 m ρ c (Proc.devRef .tc main_v12)
    _ = B3 m ρ c (Proc.devRef .tc main_v12) := B4_of_ne m ρ c main_v12 (by decide)
    _ = B2 m ρ c (Proc.devRef .tc main_v12) := StableHlo.after_of_writes_sub hostOps1 _ hostOps1_writes (r := main_v12) (by decide)
    _ = B1 m ρ c (Proc.devRef .tc main_v12) := B2_of_ne m ρ c main_v12 (by decide)
theorem kept_main_v14_3 (c : Dev nD) : B3 m ρ c (Proc.devRef .tc main_v14) = B2 m ρ c (Proc.devRef .tc main_v14) :=
  calc B3 m ρ c (Proc.devRef .tc main_v14)
    _ = B2 m ρ c (Proc.devRef .tc main_v14) := StableHlo.after_of_writes_sub hostOps1 _ hostOps1_writes (r := main_v14) (by decide)
theorem kept_main_v40_5 (c : Dev nD) : B5 m ρ c (Proc.devRef .tc main_v40) = B4 m ρ c (Proc.devRef .tc main_v40) :=
  calc B5 m ρ c (Proc.devRef .tc main_v40)
    _ = B4 m ρ c (Proc.devRef .tc main_v40) := StableHlo.after_of_writes_sub hostOps2 _ hostOps2_writes (r := main_v40) (by decide)

/-! ## The arrays between the pieces -/

/-- After the first stage its output array is the packed first projection. -/
theorem first_array (c : Dev nD) : B2 m ρ c (Proc.devRef .tc main_v14)
    = firstProjection (m ((c : Thread nD τ).loc main_arg0)) (m ((c : Thread nD τ).loc main_arg3)) (m ((c : Thread nD τ).loc main_arg5)) (m ((c : Thread nD τ).loc main_arg6)) (m ((c : Thread nD τ).loc main_arg7)) := by
  rw [B2_arr m ρ c 2, final0 (E1 m ρ) c]
  show Net.product (a := 100000) (k := 6) (n := 128) (B1 m ρ c (Proc.devRef .tc main_arg0)) (StableHlo.after hostOps0 (B0 m ρ c) (Proc.devRef .tc main_v13)) = _
  rw [kept_main_arg0_1, first_weights]
  rfl

/-- What the second stage finds in its messages window. -/
theorem second_found (c : Dev nD) : B3 m ρ c (Proc.devRef .tc main_v37)
    = messagesFrom (firstProjection (m ((c : Thread nD τ).loc main_arg0)) (m ((c : Thread nD τ).loc main_arg3)) (m ((c : Thread nD τ).loc main_arg5)) (m ((c : Thread nD τ).loc main_arg6)) (m ((c : Thread nD τ).loc main_arg7))) (m ((c : Thread nD τ).loc main_arg1)) (m ((c : Thread nD τ).loc main_arg2)) := by
  show StableHlo.after hostOps1 (B2 m ρ c) (Proc.devRef .tc main_v37) = _
  rw [second_messages, first_array, kept_main_v1_2, kept_main_v3_2, kept_main_v5_2, kept_main_v7_2, kept_main_v12_2]
  show packedMessages (summedAt32 _ (StableHlo.after hostOps0 (B0 m ρ c) (Proc.devRef .tc main_v1)) (StableHlo.after hostOps0 (B0 m ρ c) (Proc.devRef .tc main_v3)))
      (summedAt64 _ (StableHlo.after hostOps0 (B0 m ρ c) (Proc.devRef .tc main_v5)) (StableHlo.after hostOps0 (B0 m ρ c) (Proc.devRef .tc main_v7)))
      (StableHlo.after hostOps0 (B0 m ρ c) (Proc.devRef .tc main_v12)) = _
  rw [first_sourcesA, first_targetsA, first_sourcesB, first_targetsB, first_count]
  rfl

/-- After the second stage its output array is the second projection. -/
theorem second_array
    (hpay1 : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (c : Dev nD) : B4 m ρ c (Proc.devRef .tc main_v40)
    = secondProjection (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) := by
  rw [B4_arr m ρ c 4, final1 (E3 m ρ) hpay1 c]
  show Net.secondStage (a := 100000) (B3 m ρ c (Proc.devRef .tc main_v14)) (B3 m ρ c (Proc.devRef .tc main_v39)) (B3 m ρ c (Proc.devRef .tc main_v37)) (B3 m ρ c (Proc.devRef .tc main_v38)) = _
  rw [kept_main_v14_3, first_array, second_found]
  show Net.secondStage (a := 100000) _ (StableHlo.after hostOps1 (B2 m ρ c) (Proc.devRef .tc main_v39)) _ (StableHlo.after hostOps1 (B2 m ρ c) (Proc.devRef .tc main_v38)) = _
  rw [second_bias, second_weights, kept_main_arg4_2, kept_main_arg8_2, kept_main_arg10_2, kept_main_arg11_2]
  rfl

/-- What the third stage finds in its messages window. -/
theorem third_found
    (hpay1 : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (c : Dev nD) : B5 m ρ c (Proc.devRef .tc main_v63)
    = messagesFrom (secondProjection (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) (m ((c : Thread nD τ).loc main_arg1)) (m ((c : Thread nD τ).loc main_arg2)) := by
  show StableHlo.after hostOps2 (B4 m ρ c) (Proc.devRef .tc main_v63) = _
  rw [third_messages, second_array m ρ hpay1, kept_main_v1_4, kept_main_v3_4, kept_main_v5_4, kept_main_v7_4, kept_main_v12_4]
  show packedMessages (summedAt32 _ (StableHlo.after hostOps0 (B0 m ρ c) (Proc.devRef .tc main_v1)) (StableHlo.after hostOps0 (B0 m ρ c) (Proc.devRef .tc main_v3)))
      (summedAt64 _ (StableHlo.after hostOps0 (B0 m ρ c) (Proc.devRef .tc main_v5)) (StableHlo.after hostOps0 (B0 m ρ c) (Proc.devRef .tc main_v7)))
      (StableHlo.after hostOps0 (B0 m ρ c) (Proc.devRef .tc main_v12)) = _
  rw [first_sourcesA, first_targetsA, first_sourcesB, first_targetsB, first_count]
  rfl

/-- After the run the result buffer holds the result function of the sixteen argument arrays. -/
theorem result_array
    (hpay1 : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (hpay2 : ∀ (v0 : Vec Ideal S10000x128 .f32) (v4 : Vec Ideal S10000x65 .f32) (v13 : Vec Ideal S1x32 .f32) (v22 : Vec Ideal S32x32 .f32) (v24 : Vec Ideal S1x32 .f32) (v30 : Vec Ideal S32x1 .f32) (v32 : Vec Ideal S1x1 .f32), k2_pay1 v0 v4 v13 v22 v24 v30 v32 = Net.decode (a := 10000) v0 v13 v4 v22 v24 v30 v32)
    (c : Dev nD) : B6 m ρ c (Proc.devRef .tc main_v67)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [B6_arr m ρ c 7, final2 (E5 m ρ) hpay2 c]
  show Net.decode (a := 100000) (B5 m ρ c (Proc.devRef .tc main_v40)) (B5 m ρ c (Proc.devRef .tc main_v64)) (B5 m ρ c (Proc.devRef .tc main_v63))
      (B5 m ρ c (Proc.devRef .tc main_arg12)) (B5 m ρ c (Proc.devRef .tc main_v65)) (B5 m ρ c (Proc.devRef .tc main_arg14)) (B5 m ρ c (Proc.devRef .tc main_v66)) = _
  rw [kept_main_v40_5, second_array m ρ hpay1, third_found m ρ hpay1, kept_main_arg12_5, kept_main_arg14_5]
  show Net.decode (a := 100000) _ (StableHlo.after hostOps2 (B4 m ρ c) (Proc.devRef .tc main_v64)) _ _ (StableHlo.after hostOps2 (B4 m ρ c) (Proc.devRef .tc main_v65)) _
      (StableHlo.after hostOps2 (B4 m ρ c) (Proc.devRef .tc main_v66)) = _
  rw [third_bias, third_bias1, third_bias2, kept_main_arg9_4, kept_main_arg13_4, kept_main_arg15_4]
  rfl

/-- Every weakly fair execution ends, without a fault, with the result buffer at the result function of the sixteen
    argument arrays and every argument array as launched. -/
theorem run_result
    (hpay1 : ∀ (v0 : Vec Ideal S10000x128 .f32) (v4 : Vec Ideal S10000x65 .f32) (v13 : Vec Ideal S1x32 .f32) (v22 : Vec Ideal S32x96 .f32), k1_pay1 v0 v4 v13 v22 = Net.secondStage (a := 10000) v0 v13 v4 v22)
    (hpay2 : ∀ (v0 : Vec Ideal S10000x128 .f32) (v4 : Vec Ideal S10000x65 .f32) (v13 : Vec Ideal S1x32 .f32) (v22 : Vec Ideal S32x32 .f32) (v24 : Vec Ideal S1x32 .f32) (v30 : Vec Ideal S32x1 .f32) (v32 : Vec Ideal S1x1 .f32), k2_pay1 v0 v4 v13 v22 v24 v30 v32 = Net.decode (a := 10000) v0 v13 v4 v22 v24 v30 v32) :
    θ_run defs (onTc (τ := τ) (main (F := Ideal))) ⟨m, fun _ => 0, ρ⟩ (fun r => ∀ c : Dev nD,
      r.2.mem ((c.tc : Thread nD τ).loc main_v67) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v67 (by decide))).trans (result_array m ρ hpay1 hpay2 c),
    (h c _ (mem_uc main_arg0 (by decide))).trans (B6_main_arg0 m ρ c),
    (h c _ (mem_uc main_arg1 (by decide))).trans (B6_main_arg1 m ρ c),
    (h c _ (mem_uc main_arg2 (by decide))).trans (B6_main_arg2 m ρ c),
    (h c _ (mem_uc main_arg3 (by decide))).trans (B6_main_arg3 m ρ c),
    (h c _ (mem_uc main_arg4 (by decide))).trans (B6_main_arg4 m ρ c),
    (h c _ (mem_uc main_arg5 (by decide))).trans (B6_main_arg5 m ρ c),
    (h c _ (mem_uc main_arg6 (by decide))).trans (B6_main_arg6 m ρ c),
    (h c _ (mem_uc main_arg7 (by decide))).trans (B6_main_arg7 m ρ c),
    (h c _ (mem_uc main_arg8 (by decide))).trans (B6_main_arg8 m ρ c),
    (h c _ (mem_uc main_arg9 (by decide))).trans (B6_main_arg9 m ρ c),
    (h c _ (mem_uc main_arg10 (by decide))).trans (B6_main_arg10 m ρ c),
    (h c _ (mem_uc main_arg11 (by decide))).trans (B6_main_arg11 m ρ c),
    (h c _ (mem_uc main_arg12 (by decide))).trans (B6_main_arg12 m ρ c),
    (h c _ (mem_uc main_arg13 (by decide))).trans (B6_main_arg13 m ρ c),
    (h c _ (mem_uc main_arg14 (by decide))).trans (B6_main_arg14 m ρ c),
    (h c _ (mem_uc main_arg15 (by decide))).trans (B6_main_arg15 m ρ c)⟩) (run_all m ρ)

end Cert.KernelIdeal.Stages

end
-- ==== Proof.IdealPayloads.lean ====
/-
  The blocks the second and third stages store, on the extended reals, as functions of the blocks they load.

  Both stages first form the layer's features h, a [10000, 32] array: at row p and column c,
    h (p, c) = max (P (p, c) + b (0, c) + M (p, c) + M (p, 32 + c) / max (M (p, 64)) 1 + P (p, 96 + c)) 0,
  from the packed projections P ([10000, 128]: columns 0 … 31 the self term, 96 … 127 the residual), the bias row b
  ([1, 32]) and the packed messages M ([10000, 65]: columns 0 … 31 the summed messages, 32 … 63 the sums to be averaged,
  column 64 the number of neighbours). The literals 1 and 0 stay their float words.
  * The second stage stores the [10000, 128] array whose columns 0 … 95 are the matrix product h · W and whose columns
    96 … 127 are h itself (`pay1_eq`).
  * The third stage stores the [10000, 1] array logistic (max (h · W₁ + b₁) 0 · W₂ + b₂) (`pay2_eq`).
  A slice, a broadcast and the concatenation are read entry by entry; the matrix unit's product into a zero accumulator
  is the matrix product.
-/
import proofs.«152504_j884763263722_2_alg».proof.Proof.Gen.KernelIdeal.Skeleton
import proofs.«152504_j884763263722_2_alg».proof.Proof.NetLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stages

open Cert.KernelIdeal Cert.KernelIdeal.Gen Idealize.ShloMosaic Idealize.ShloMosaic.ValueIdx

/-- One column broadcast over many. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The layer's features h, as both stages form them from the blocks they load: the slices of the projections and of the
    messages, the mean's quotient, the four sums and the rectifier. -/
def feat (v0 : Vec Ideal S10000x128 .f32) (v4 : Vec Ideal S10000x65 .f32) (v13 : Vec Ideal S1x32 .f32) : FVec Ideal S10000x32 .f32 :=
  have v1 : FVec Ideal S10000x128 .f32 := shapeCast S10000x128 v0 shapeCasts_S10000x128_S10000x128
  have v2 : FVec Ideal S10000x32 .f32 := extractStridedSlice S10000x32 ![0, 0] v1 slices_S10000x128_o0_0_S10000x32
  have v3 : FVec Ideal S10000x32 .f32 := extractStridedSlice S10000x32 ![0, 96] v1 slices_S10000x128_o0_96_S10000x32
  have v5 : FVec Ideal S10000x65 .f32 := shapeCast S10000x65 v4 shapeCasts_S10000x65_S10000x65
  have v6 : FVec Ideal S10000x32 .f32 := extractStridedSlice S10000x32 ![0, 0] v5 slices_S10000x65_o0_0_S10000x32
  have v7 : FVec Ideal S10000x32 .f32 := extractStridedSlice S10000x32 ![0, 32] v5 slices_S10000x65_o0_32_S10000x32
  have v8 : FVec Ideal S10000x1 .f32 := extractStridedSlice S10000x1 ![0, 64] v5 slices_S10000x65_o0_64_S10000x1
  have cst : Ideal .f32 := Scalar.ofBits .f32 0x3F800000#32
  have v9 : FVec Ideal S10000x1 .f32 := broadcast S10000x1 cst
  have v10 : FVec Ideal S10000x1 .f32 := maximumf v8 v9
  have v11 : FVec Ideal S10000x32 .f32 := broadcastTo S10000x32 v10 broadcasts_S10000x1_S10000x32
  have v12 : FVec Ideal S10000x32 .f32 := divf v7 v11
  have v14 : FVec Ideal S1x32 .f32 := shapeCast S1x32 v13 shapeCasts_S1x32_S1x32
  have v15 : FVec Ideal S10000x32 .f32 := broadcastTo S10000x32 v14 broadcasts_S1x32_S10000x32
  have v16 : FVec Ideal S10000x32 .f32 := addf v2 v15
  have v17 : FVec Ideal S10000x32 .f32 := addf v16 v6
  have v18 : FVec Ideal S10000x32 .f32 := addf v17 v12
  have v19 : FVec Ideal S10000x32 .f32 := addf v18 v3
  have cst_5 : Ideal .f32 := Scalar.ofBits .f32 0x00000000#32
  have v20 : FVec Ideal S10000x32 .f32 := broadcast S10000x32 cst_5
  have v21 : FVec Ideal S10000x32 .f32 := maximumf v19 v20
  v21

/-- The second stage's stored block is the features times the weights, the features appended along the columns. -/
theorem k1_pay1_feat (v0 : Vec Ideal S10000x128 .f32) (v4 : Vec Ideal S10000x65 .f32) (v13 : Vec Ideal S1x32 .f32) (v22 : Vec Ideal S32x96 .f32) :
    k1_pay1 v0 v4 v13 v22 = concatenate S10000x128 1 [⟨S10000x96, matmul dot_S10000x32_S32x96_S10000x96_1_0_0_1_n_n none (feat v0 v4 v13) (shapeCast S32x96 v22 shapeCasts_S32x96_S32x96 : FVec Ideal S32x96 .f32) (constant S10000x96 .f32 0x00000000#32)⟩, ⟨S10000x32, feat v0 v4 v13⟩] concatenates_S10000x96_S10000x32_S10000x128_d1 := rfl

/-- The features at row p and column c are the layer function's entry there. -/
theorem feat_ix2 (v0 : Vec Ideal S10000x128 .f32) (v4 : Vec Ideal S10000x65 .f32) (v13 : Vec Ideal S1x32 .f32) (p : Fin 10000) (c : Fin 32) :
    feat v0 v4 v13 (ix2 p c) = Net.combineAt (a := 10000) v0 v13 v4 p c := by
  unfold feat Net.combineAt
  simp only [maximumf_apply, addf_apply, divf_apply, broadcast_apply, shapeCast_self]
  have e2 : extractStridedSlice S10000x32 ![0, 0] v0 slices_S10000x128_o0_0_S10000x32 (ix2 p c) = v0 (ix2 p ⟨c.val, by omega⟩) :=
    slice2_axis1_apply 0 v0 _ p c _ (Nat.zero_add _).symm
  have e3 : extractStridedSlice S10000x32 ![0, 96] v0 slices_S10000x128_o0_96_S10000x32 (ix2 p c) = v0 (ix2 p ⟨96 + c.val, by omega⟩) :=
    slice2_axis1_apply 96 v0 _ p c _ rfl
  have e6 : extractStridedSlice S10000x32 ![0, 0] v4 slices_S10000x65_o0_0_S10000x32 (ix2 p c) = v4 (ix2 p ⟨c.val, by omega⟩) :=
    slice2_axis1_apply 0 v4 _ p c _ (Nat.zero_add _).symm
  have e7 : extractStridedSlice S10000x32 ![0, 32] v4 slices_S10000x65_o0_32_S10000x32 (ix2 p c) = v4 (ix2 p ⟨32 + c.val, by omega⟩) :=
    slice2_axis1_apply 32 v4 _ p c _ rfl
  have e8 : extractStridedSlice S10000x1 ![0, 64] v4 slices_S10000x65_o0_64_S10000x1 (ix2 p (0 : Fin 1)) = v4 (ix2 p ⟨64, by omega⟩) :=
    slice2_axis1_apply 64 v4 _ p (0 : Fin 1) _ rfl
  have e15 : broadcastTo S10000x32 v13 broadcasts_S1x32_S10000x32 (ix2 p c) = v13 (ix2 (0 : Fin 1) c) :=
    broadcastTo_1b_ab_apply v13 _ p c
  rw [e2, e3, e6, e7, e15, broadcastTo_a1_ab_apply, maximumf_apply, broadcast_apply, e8]
  rfl

/-- A [10000, 96] array and a [10000, 32] array laid side by side, read at row p and column j. -/
theorem concat_96_32_ix2 {α : Type} (x : S10000x96.Idx → α) (y : S10000x32.Idx → α)
    (h : Shape.Concatenates [S10000x96, S10000x32] S10000x128 1) (p : Fin 10000) (j : Fin 128) :
    concatenate S10000x128 1 [⟨S10000x96, x⟩, ⟨S10000x32, y⟩] h (ix2 p j)
      = if hj : j.val < 96 then x (ix2 p ⟨j.val, hj⟩) else y (ix2 p ⟨j.val - 96, by omega⟩) := by
  by_cases hj : j.val < 96
  · rw [dif_pos hj]
    refine concatenate_pair_apply_left _ x y h (ix2 p j) rfl (ix2 p ⟨j.val, hj⟩) fun b => ?_
    match b with
    | ⟨0, _⟩ => rfl
    | ⟨1, _⟩ => rfl
  · rw [dif_neg hj]
    refine concatenate_pair_apply_right _ x y h (ix2 p j) rfl rfl (ix2 p ⟨j.val - 96, by omega⟩) (fun b hb => ?_) ?_
    · match b with
      | ⟨0, _⟩ => rfl
      | ⟨1, _⟩ => exact absurd rfl hb
    · show (j.val - 96) + 96 = j.val
      omega

/-- The matrix unit's three products into zero accumulators are matrix products. -/
theorem matmul_32_96 (L : FVec Ideal S10000x32 .f32) (R : FVec Ideal S32x96 .f32) :
    matmul dot_S10000x32_S32x96_S10000x96_1_0_0_1_n_n none L R (constant S10000x96 .f32 0x00000000#32)
      = Net.product (a := 10000) (k := 32) (n := 96) L R :=
  Net.coreProduct (a := 10000) (k := 32) (n := 96) dot_S10000x32_S32x96_S10000x96_1_0_0_1_n_n rfl rfl rfl rfl rfl rfl none L R

theorem matmul_32_32 (L : FVec Ideal S10000x32 .f32) (R : FVec Ideal S32x32 .f32) :
    matmul dot_S10000x32_S32x32_S10000x32_1_0_0_1_n_n none L R (constant S10000x32 .f32 0x00000000#32)
      = Net.product (a := 10000) (k := 32) (n := 32) L R :=
  Net.coreProduct (a := 10000) (k := 32) (n := 32) dot_S10000x32_S32x32_S10000x32_1_0_0_1_n_n rfl rfl rfl rfl rfl rfl none L R

theorem matmul_32_1 (L : FVec Ideal S10000x32 .f32) (R : FVec Ideal S32x1 .f32) :
    matmul dot_S10000x32_S32x1_S10000x1_1_0_0_1_n_n none L R (constant S10000x1 .f32 0x00000000#32)
      = Net.product (a := 10000) (k := 32) (n := 1) L R :=
  Net.coreProduct (a := 10000) (k := 32) (n := 1) dot_S10000x32_S32x1_S10000x1_1_0_0_1_n_n rfl rfl rfl rfl rfl rfl none L R

/-- the second stage's stored block is the layer function of the blocks it loads -/
theorem pay1_eq (v0 : Vec Ideal S10000x128 .f32) (v4 : Vec Ideal S10000x65 .f32) (v13 : Vec Ideal S1x32 .f32) (v22 : Vec Ideal S32x96 .f32) :
    k1_pay1 v0 v4 v13 v22 = Net.secondStage (a := 10000) v0 v13 v4 v22 := by
  funext i
  obtain ⟨p, j, rfl⟩ : ∃ (p : Fin 10000) (j : Fin 128), i = ix2 p j := ⟨i 0, i 1, eq_ix2 i⟩
  rw [k1_pay1_feat, shapeCast_self, matmul_32_96, concat_96_32_ix2]
  show _ = Net.secondStageAt v0 v13 v4 v22 p j
  unfold Net.secondStageAt
  by_cases hj : j.val < 96
  · rw [dif_pos hj, dif_pos hj, Net.product_ix2]
    refine Finset.sum_congr rfl fun q _ => ?_
    rw [feat_ix2]
  · rw [dif_neg hj, dif_neg hj, feat_ix2]

/-- The logistic function of an array, entry by entry. -/
theorem logistic_apply {s : Shape} {φ : FTy} (x : FVec Ideal s φ) (i : s.Idx) : logistic x i = Ideal.logistic (x i) := rfl

/-- The decoder's hidden layer: the features through a dense layer with rectifier. -/
def hidden (v0 : Vec Ideal S10000x128 .f32) (v4 : Vec Ideal S10000x65 .f32) (v13 : Vec Ideal S1x32 .f32)
    (v22 : Vec Ideal S32x32 .f32) (v24 : Vec Ideal S1x32 .f32) : FVec Ideal S10000x32 .f32 :=
  maximumf (addf (Net.product (a := 10000) (k := 32) (n := 32) (feat v0 v4 v13) v22) (broadcastTo S10000x32 v24 broadcasts_S1x32_S10000x32))
    (broadcast S10000x32 (Scalar.ofBits .f32 0x00000000#32))

/-- The hidden layer at row p and unit k is the decoder's hidden unit there. -/
theorem hidden_ix2 (v0 : Vec Ideal S10000x128 .f32) (v4 : Vec Ideal S10000x65 .f32) (v13 : Vec Ideal S1x32 .f32)
    (v22 : Vec Ideal S32x32 .f32) (v24 : Vec Ideal S1x32 .f32) (p : Fin 10000) (k : Fin 32) :
    hidden v0 v4 v13 v22 v24 (ix2 p k) = Net.hiddenAt (a := 10000) v0 v13 v4 v22 v24 p k := by
  unfold hidden Net.hiddenAt
  rw [maximumf_apply, addf_apply, broadcast_apply, Net.product_ix2, broadcastTo_1b_ab_apply]
  simp only [feat_ix2]
  rfl

/-- The third stage's stored block is the logistic function of the hidden layer's product with the last weights plus
    the last bias, the hidden layer the features' product with the first weights plus the first bias, rectified. -/
theorem k2_pay1_feat (v0 : Vec Ideal S10000x128 .f32) (v4 : Vec Ideal S10000x65 .f32) (v13 : Vec Ideal S1x32 .f32)
    (v22 : Vec Ideal S32x32 .f32) (v24 : Vec Ideal S1x32 .f32) (v30 : Vec Ideal S32x1 .f32) (v32 : Vec Ideal S1x1 .f32) :
    k2_pay1 v0 v4 v13 v22 v24 v30 v32
      = logistic (addf
          (matmul (φ₁ := .f32) (φ₂ := .f32) dot_S10000x32_S32x1_S10000x1_1_0_0_1_n_n none
            (maximumf (addf (matmul (φ₁ := .f32) (φ₂ := .f32) dot_S10000x32_S32x32_S10000x32_1_0_0_1_n_n none (feat v0 v4 v13) (v22 : FVec Ideal S32x32 .f32) (constant S10000x32 .f32 0x00000000#32))
                (broadcastTo S10000x32 (shapeCast S1x32 v24 shapeCasts_S1x32_S1x32 : FVec Ideal S1x32 .f32) broadcasts_S1x32_S10000x32))
              (broadcast S10000x32 (Scalar.ofBits .f32 0x00000000#32)))
            (v30 : FVec Ideal S32x1 .f32) (constant S10000x1 .f32 0x00000000#32))
          (broadcastTo S10000x1 (shapeCast S1x1 v32 shapeCasts_S1x1_S1x1 : FVec Ideal S1x1 .f32) broadcasts_S1x1_S10000x1)) := rfl

/-- the third stage's stored block is the decoder function of the blocks it loads -/
theorem pay2_eq (v0 : Vec Ideal S10000x128 .f32) (v4 : Vec Ideal S10000x65 .f32) (v13 : Vec Ideal S1x32 .f32) (v22 : Vec Ideal S32x32 .f32) (v24 : Vec Ideal S1x32 .f32) (v30 : Vec Ideal S32x1 .f32) (v32 : Vec Ideal S1x1 .f32) :
    k2_pay1 v0 v4 v13 v22 v24 v30 v32 = Net.decode (a := 10000) v0 v13 v4 v22 v24 v30 v32 := by
  funext i
  obtain ⟨p, j, rfl⟩ : ∃ (p : Fin 10000) (j : Fin 1), i = ix2 p j := ⟨i 0, i 1, eq_ix2 i⟩
  obtain rfl : j = 0 := Subsingleton.elim _ _
  rw [k2_pay1_feat, shapeCast_self, shapeCast_self, matmul_32_32, matmul_32_1]
  show logistic (addf (Net.product (a := 10000) (k := 32) (n := 1) (hidden v0 v4 v13 v22 v24) v30) (broadcastTo S10000x1 v32 broadcasts_S1x1_S10000x1)) (ix2 p (0 : Fin 1))
    = Net.decodeAt v0 v13 v4 v22 v24 v30 v32 p
  unfold Net.decodeAt
  rw [logistic_apply, addf_apply, Net.product_ix2, broadcastTo_1b_ab_apply]
  simp only [hidden_ix2]

end Cert.KernelIdeal.Stages

end
-- ==== Proof.IdealPacking.lean ====
/-
  Arrays laid side by side along the columns, read at an index: column 32·s + c of the four first-layer weight matrices
  side by side is column c of matrix s; likewise for the three second-layer matrices; and the packed messages' columns
  0 … 31, 32 … 63 and 64 are the first sum, the second sum and the count column.
-/
import proofs.«152504_j884763263722_2_alg».proof.Proof.IdealHost
import Idealize.ShloMosaic.Lib.Pipeline.Value
import Idealize.ShloMosaic.Lib.ValueIdx

set_option maxRecDepth 16384

noncomputable section

namespace Cert.KernelIdeal.Stages

open Cert.KernelIdeal Cert.KernelIdeal.Gen
open Idealize.ShloMosaic Idealize.ShloMosaic.ValueIdx

/-- Columns 0 … 31 of the stacked first-layer weights are matrix 0. -/
theorem stackedWeights1_piece0 (w0 w1 w2 w3 : FVec Ideal S6x32 .f32) (q : Fin 6) (c : Fin 32) :
    stackedWeights1 w0 w1 w2 w3 (ix2 q ⟨c.val, by have := c.isLt; omega⟩) = w0 (ix2 q c) := by
  unfold stackedWeights1
  refine concatenate_apply_piece (1 : Fin S6x128.rank) _ _ (ix2 q ⟨c.val, by have := c.isLt; omega⟩) 0 (by simp) S6x32 w0 rfl rfl 0 (by rfl) (ix2 q c) (fun b hb => ?_) (by show 0 + c.val = c.val; omega)
  match b with
  | ⟨0, _⟩ => rfl
  | ⟨1, _⟩ => exact absurd rfl hb

/-- Columns 32 … 63 of the stacked first-layer weights are matrix 1. -/
theorem stackedWeights1_piece1 (w0 w1 w2 w3 : FVec Ideal S6x32 .f32) (q : Fin 6) (c : Fin 32) :
    stackedWeights1 w0 w1 w2 w3 (ix2 q ⟨32 + c.val, by have := c.isLt; omega⟩) = w1 (ix2 q c) := by
  unfold stackedWeights1
  refine concatenate_apply_piece (1 : Fin S6x128.rank) _ _ (ix2 q ⟨32 + c.val, by have := c.isLt; omega⟩) 1 (by simp) S6x32 w1 rfl rfl 32 (by rfl) (ix2 q c) (fun b hb => ?_) (by rfl)
  match b with
  | ⟨0, _⟩ => rfl
  | ⟨1, _⟩ => exact absurd rfl hb

/-- Columns 64 … 95 of the stacked first-layer weights are matrix 2. -/
theorem stackedWeights1_piece2 (w0 w1 w2 w3 : FVec Ideal S6x32 .f32) (q : Fin 6) (c : Fin 32) :
    stackedWeights1 w0 w1 w2 w3 (ix2 q ⟨64 + c.val, by have := c.isLt; omega⟩) = w2 (ix2 q c) := by
  unfold stackedWeights1
  refine concatenate_apply_piece (1 : Fin S6x128.rank) _ _ (ix2 q ⟨64 + c.val, by have := c.isLt; omega⟩) 2 (by simp) S6x32 w2 rfl rfl 64 (by rfl) (ix2 q c) (fun b hb => ?_) (by rfl)
  match b with
  | ⟨0, _⟩ => rfl
  | ⟨1, _⟩ => exact absurd rfl hb

/-- Columns 96 … 127 of the stacked first-layer weights are matrix 3. -/
theorem stackedWeights1_piece3 (w0 w1 w2 w3 : FVec Ideal S6x32 .f32) (q : Fin 6) (c : Fin 32) :
    stackedWeights1 w0 w1 w2 w3 (ix2 q ⟨96 + c.val, by have := c.isLt; omega⟩) = w3 (ix2 q c) := by
  unfold stackedWeights1
  refine concatenate_apply_piece (1 : Fin S6x128.rank) _ _ (ix2 q ⟨96 + c.val, by have := c.isLt; omega⟩) 3 (by simp) S6x32 w3 rfl rfl 96 (by rfl) (ix2 q c) (fun b hb => ?_) (by rfl)
  match b with
  | ⟨0, _⟩ => rfl
  | ⟨1, _⟩ => exact absurd rfl hb

/-- Columns 0 … 31 of the stacked second-layer weights are matrix 0. -/
theorem stackedWeights2_piece0 (w0 w1 w2 : FVec Ideal S32x32 .f32) (q : Fin 32) (c : Fin 32) :
    stackedWeights2 w0 w1 w2 (ix2 q ⟨c.val, by have := c.isLt; omega⟩) = w0 (ix2 q c) := by
  unfold stackedWeights2
  refine concatenate_apply_piece (1 : Fin S32x96.rank) _ _ (ix2 q ⟨c.val, by have := c.isLt; omega⟩) 0 (by simp) S32x32 w0 rfl rfl 0 (by rfl) (ix2 q c) (fun b hb => ?_) (by show 0 + c.val = c.val; omega)
  match b with
  | ⟨0, _⟩ => rfl
  | ⟨1, _⟩ => exact absurd rfl hb

/-- Columns 32 … 63 of the stacked second-layer weights are matrix 1. -/
theorem stackedWeights2_piece1 (w0 w1 w2 : FVec Ideal S32x32 .f32) (q : Fin 32) (c : Fin 32) :
    stackedWeights2 w0 w1 w2 (ix2 q ⟨32 + c.val, by have := c.isLt; omega⟩) = w1 (ix2 q c) := by
  unfold stackedWeights2
  refine concatenate_apply_piece (1 : Fin S32x96.rank) _ _ (ix2 q ⟨32 + c.val, by have := c.isLt; omega⟩) 1 (by simp) S32x32 w1 rfl rfl 32 (by rfl) (ix2 q c) (fun b hb => ?_) (by rfl)
  match b with
  | ⟨0, _⟩ => rfl
  | ⟨1, _⟩ => exact absurd rfl hb

/-- Columns 64 … 95 of the stacked second-layer weights are matrix 2. -/
theorem stackedWeights2_piece2 (w0 w1 w2 : FVec Ideal S32x32 .f32) (q : Fin 32) (c : Fin 32) :
    stackedWeights2 w0 w1 w2 (ix2 q ⟨64 + c.val, by have := c.isLt; omega⟩) = w2 (ix2 q c) := by
  unfold stackedWeights2
  refine concatenate_apply_piece (1 : Fin S32x96.rank) _ _ (ix2 q ⟨64 + c.val, by have := c.isLt; omega⟩) 2 (by simp) S32x32 w2 rfl rfl 64 (by rfl) (ix2 q c) (fun b hb => ?_) (by rfl)
  match b with
  | ⟨0, _⟩ => rfl
  | ⟨1, _⟩ => exact absurd rfl hb

/-- Columns 0 … 31 of the packed messages are the first sum. -/
theorem packedMessages_first (tp it : FVec Ideal S100000x32 .f32) (cnt : FVec Ideal S100000x1 .f32) (q : Fin 100000) (c : Fin 32) :
    packedMessages tp it cnt (ix2 q ⟨c.val, by have := c.isLt; omega⟩) = tp (ix2 q c) := by
  unfold packedMessages
  refine concatenate_apply_piece (1 : Fin S100000x65.rank) _ _ (ix2 q ⟨c.val, by have := c.isLt; omega⟩) 0 (by simp) S100000x32 tp rfl rfl 0 (by rfl) (ix2 q c) (fun b hb => ?_) (by show 0 + c.val = c.val; omega)
  match b with
  | ⟨0, _⟩ => rfl
  | ⟨1, _⟩ => exact absurd rfl hb

/-- Columns 32 … 63 of the packed messages are the second sum. -/
theorem packedMessages_second (tp it : FVec Ideal S100000x32 .f32) (cnt : FVec Ideal S100000x1 .f32) (q : Fin 100000) (c : Fin 32) :
    packedMessages tp it cnt (ix2 q ⟨32 + c.val, by have := c.isLt; omega⟩) = it (ix2 q c) := by
  unfold packedMessages
  refine concatenate_apply_piece (1 : Fin S100000x65.rank) _ _ (ix2 q ⟨32 + c.val, by have := c.isLt; omega⟩) 1 (by simp) S100000x32 it rfl rfl 32 (by rfl) (ix2 q c) (fun b hb => ?_) (by rfl)
  match b with
  | ⟨0, _⟩ => rfl
  | ⟨1, _⟩ => exact absurd rfl hb

/-- Column 64 of the packed messages is the count column. -/
theorem packedMessages_count (tp it : FVec Ideal S100000x32 .f32) (cnt : FVec Ideal S100000x1 .f32) (q : Fin 100000) :
    packedMessages tp it cnt (ix2 q ⟨64, by omega⟩) = cnt (ix2 q (0 : Fin 1)) := by
  unfold packedMessages
  refine concatenate_apply_piece (1 : Fin S100000x65.rank) _ _ (ix2 q ⟨64, by omega⟩) 2 (by simp) S100000x1 cnt rfl rfl 64 (by rfl) (ix2 q (0 : Fin 1)) (fun b hb => ?_) (by rfl)
  match b with
  | ⟨0, _⟩ => rfl
  | ⟨1, _⟩ => exact absurd rfl hb

end Cert.KernelIdeal.Stages

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.NetGather.lean ====
/-
  Gathering after projecting is projecting after gathering. Let P be a table with N rows whose columns off … off + C − 1
  hold, row by row, the product of the rows of X (K columns) with a [K, C] matrix W. Taking whole rows of that column
  window of P at E start indices gives, entry (e, c), the sum over q of X (row e, q) · W (q, c), where row e is the e-th
  start index read signed and clamped into the table; taking the rows of X at the same start indices and multiplying by
  W gives the same sum. Nothing but the definition of the two operations is used: no finiteness, no algebra.
-/
import proofs.«152504_j884763263722_2_alg».proof.Proof.LibSegmentSum
import proofs.«152504_j884763263722_2_alg».proof.Proof.NetProduct
import Idealize.ShloMosaic.Lib.Pipeline.Value

noncomputable section

open scoped BigOperators

namespace Cert.Net

open Idealize.ShloMosaic Idealize.ShloMosaic.ValueIdx Idealize.ShloMosaic.SegmentSum

variable {N E K C L : ℕ}

/-- A column window of a table read at (n, c). -/
theorem window_apply (off : ℕ) (P : FVec Ideal ⟨2, ![N, L]⟩ .f32)
    (hs : (⟨2, ![N, L]⟩ : Shape).Slices ![0, off] ⟨2, ![N, C]⟩) (n : Fin N) (c : Fin C) (hc : off + c.val < L) :
    extractStridedSlice ⟨2, ![N, C]⟩ ![0, off] P hs (ix2 n c) = P (ix2 n ⟨off + c.val, hc⟩) := by
  refine extractStridedSlice_apply ![0, off] P hs (ix2 n c) (ix2 n ⟨off + c.val, hc⟩) fun a => ?_
  match a with
  | ⟨0, _⟩ => show n.val = 0 + n.val; omega
  | ⟨1, _⟩ => rfl

/-- Rows gathered from a projected table's column window are the gathered rows, projected. -/
theorem gather_window_product (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (off : ℕ) (hoff : off + C ≤ L) (P : FVec Ideal ⟨2, ![N, L]⟩ .f32)
    (hs : (⟨2, ![N, L]⟩ : Shape).Slices ![0, off] ⟨2, ![N, C]⟩)
    (X : FVec Ideal ⟨2, ![N, K]⟩ .f32) (W : FVec Ideal ⟨2, ![K, C]⟩ .f32)
    (hP : ∀ (n : Fin N) (c : Fin C) (hc : off + c.val < L), P (ix2 n ⟨off + c.val, hc⟩) = ∑ q : Fin K, X (ix2 n q) * W (ix2 q c))
    (idx : IVec ⟨2, ![E, 1]⟩ 32) :
    Host.gather (rowGatherDims N E C wfC) (extractStridedSlice ⟨2, ![N, C]⟩ ![0, off] P hs) idx
      = product (Host.gather (rowGatherDims N E K wfK) X idx) W := by
  funext j
  obtain ⟨e, c, rfl⟩ : ∃ (e : Fin E) (c : Fin C), j = ix2 e c := ⟨j 0, j 1, eq_ix2 j⟩
  have hc : off + c.val < L := by have := c.isLt; omega
  rw [rowGather_apply hN, product_ix2]
  show extractStridedSlice ⟨2, ![N, C]⟩ ![0, off] P hs (ix2 (clampRow N hN (idx (ix2 e 0))) c) = _
  rw [window_apply off P hs _ c hc, hP]
  refine Finset.sum_congr rfl fun q _ => ?_
  rw [rowGather_apply hN]
  rfl

end Cert.Net

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.DecoderAgreement.lean ====
/-
  The decoder of the network and the last stages of the reference program are one function of the second layer's
  features, on the extended reals.

  Write h (n, q) for the second layer's features at row n: by hypothesis the network's array of them is the reference's.
  * The network's decoder at row n is
      logistic ((Σ_k max ((Σ_q h (n, q) · W₁ (q, k)) + b₁ (0, k)) 0 · W₂ (k, 0)) + b₂ (0, 0)).
  * The reference forms the two inner sums as host matrix products, adds the bias vectors broadcast along the rows,
    takes the maximum with a broadcast zero, and spells the logistic function out as 1 / (1 + exp (−z)), both ones the
    float word of 1.
  A host matrix product at an entry is the sum over the contracted axis; a broadcast reads its operand's one entry; the
  float word of 1 is the real 1; and logistic z is by definition 1 / (1 + exp (−z)). The zero stays its float word on
  both sides. The network's bias rows b₁ ([1, 32]) and b₂ ([1, 1]) are the reference's bias vectors ([32] and [1]) by
  hypothesis.
-/
import proofs.«152504_j884763263722_2_alg».proof.Proof.Gen.ReferenceIdeal.Read
import proofs.«152504_j884763263722_2_alg».proof.Proof.NetLayers
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.Proof.DecoderAgreement

open Cert.ReferenceIdeal Cert.ReferenceIdeal.Read Idealize.ShloMosaic Idealize.ShloMosaic.ValueIdx

/-! ## Where the reference's layout operations read their operands -/

theorem lidx95 (n : Fin 100000) (k q : Fin 32) : lidx_main_v95 (ix2 n k) q = ix2 n q :=
  funext fun a => by match a with | ⟨0, _⟩ => rfl | ⟨1, _⟩ => rfl

theorem ridx95 (n : Fin 100000) (k q : Fin 32) : ridx_main_v95 (ix2 n k) q = ix2 q k :=
  funext fun a => by match a with | ⟨0, _⟩ => rfl | ⟨1, _⟩ => rfl

theorem idx97 (n : Fin 100000) (k : Fin 32) : idx_main_v96 (idx_main_v97 (ix2 n k)) = ix1 k :=
  funext fun a => by match a with | ⟨0, _⟩ => rfl

theorem lidx100 (n : Fin 100000) (j : Fin 1) (k : Fin 32) : lidx_main_v100 (ix2 n j) k = ix2 n k :=
  funext fun a => by match a with | ⟨0, _⟩ => rfl | ⟨1, _⟩ => rfl

theorem ridx100 (n : Fin 100000) (j : Fin 1) (k : Fin 32) : ridx_main_v100 (ix2 n j) k = ix2 k j :=
  funext fun a => by match a with | ⟨0, _⟩ => rfl | ⟨1, _⟩ => rfl

theorem idx102 (n : Fin 100000) (j : Fin 1) : idx_main_v101 (idx_main_v102 (ix2 n j)) = ix1 (0 : Fin 1) :=
  funext fun a => by match a with | ⟨0, _⟩ => rfl

/-- The reference's dense layer with rectifier, at row n and unit k. -/
theorem ref_hidden (x0 : FVec Ideal S100000x6 .f32) (x1 x2 : IVec S2x1600000 32) (x3 : FVec Ideal S6x32 .f32) (x4 : FVec Ideal S32 .f32) (x5 x6 x7 : FVec Ideal S6x32 .f32)
    (x8 : FVec Ideal S32x32 .f32) (x9 : FVec Ideal S32 .f32) (x10 x11 x12 : FVec Ideal S32x32 .f32) (x13 : FVec Ideal S32 .f32)
    (n : Fin 100000) (k : Fin 32) :
    val_main_v99 (F := Ideal) x0 x1 x2 x3 x4 x5 x6 x7 x8 x9 x10 x11 x12 x13 (ix2 n k)
      = max ((∑ q : Fin 32, val_main_v94 (F := Ideal) x0 x1 x2 x3 x4 x5 x6 x7 x8 x9 x10 x11 (ix2 n q) * x12 (ix2 q k)) + x13 (ix1 k)) Net.zero32 := by
  rw [val_main_v99_apply, val_main_v98_apply, val_main_v95_apply, val_main_v97_apply, val_main_v96_apply,
    val_main_call2_v0_apply, val_main_call2_cst_apply]
  simp only [lidx95, ridx95, idx97]
  rfl

/-- The decoder of the network is the reference program's last stages, given that the second layer's features agree. -/
theorem decode_agree
    (P : FVec Ideal ⟨2, ![100000, 128]⟩ .f32) (b : FVec Ideal ⟨2, ![1, 32]⟩ .f32) (M : FVec Ideal ⟨2, ![100000, 65]⟩ .f32)
    (x0 : FVec Ideal S100000x6 .f32) (x1 x2 : IVec S2x1600000 32) (x3 : FVec Ideal S6x32 .f32) (x4 : FVec Ideal S32 .f32) (x5 x6 x7 : FVec Ideal S6x32 .f32)
    (x8 : FVec Ideal S32x32 .f32) (x9 : FVec Ideal S32 .f32) (x10 x11 x12 : FVec Ideal S32x32 .f32) (x13 : FVec Ideal S32 .f32) (x14 : FVec Ideal S32x1 .f32) (x15 : FVec Ideal S1 .f32)
    (hcomb : Net.combine (a := 100000) P b M = val_main_v94 (F := Ideal) x0 x1 x2 x3 x4 x5 x6 x7 x8 x9 x10 x11)
    (b1 : FVec Ideal ⟨2, ![1, 32]⟩ .f32) (hb1 : ∀ c : Fin 32, b1 (ix2 (0 : Fin 1) c) = x13 (ix1 c))
    (b2 : FVec Ideal ⟨2, ![1, 1]⟩ .f32) (hb2 : b2 (ix2 (0 : Fin 1) (0 : Fin 1)) = x15 (ix1 (0 : Fin 1))) :
    Net.decode (a := 100000) P b M x12 b1 x14 b2 = val_main_v109 (F := Ideal) x0 x1 x2 x3 x4 x5 x6 x7 x8 x9 x10 x11 x12 x13 x14 x15 := by
  funext i
  obtain ⟨n, j, rfl⟩ : ∃ (n : Fin 100000) (j : Fin 1), i = ix2 n j := ⟨i 0, i 1, eq_ix2 i⟩
  obtain rfl : j = 0 := Subsingleton.elim _ _
  have hc : ∀ q : Fin 32, Net.combineAt P b M n q = val_main_v94 (F := Ideal) x0 x1 x2 x3 x4 x5 x6 x7 x8 x9 x10 x11 (ix2 n q) := fun q => by
    rw [← hcomb]; rfl
  rw [val_main_v109_apply, val_main_v108_apply, val_main_cst_17_apply, val_main_v107_apply, val_main_v106_apply,
    val_main_cst_16_apply, val_main_v105_apply, val_main_v104_apply, val_main_v103_apply, val_main_v100_apply,
    val_main_v102_apply, val_main_v101_apply]
  simp only [lidx100, ridx100, idx102, ref_hidden, Ideal.hostDivf_def, Ideal.addf_def, Ideal.hostUnary_exp_def,
    Ideal.hostNegf_def, Ideal.negf_def, Ideal.ofBits_def, Ideal.ofBits_one_f32]
  show Net.decodeAt P b M x12 b1 x14 b2 n = _
  unfold Net.decodeAt Net.hiddenAt Ideal.logistic
  simp only [hc, hb1, hb2]

end Cert.Proof.DecoderAgreement

end
-- ==== Proof.Agreement.lean ====
/-
  The two programs compute the same array. The kernel program projects every node's features with all of a layer's weight
  matrices at once and gathers rows of the projected table along the edges; the reference gathers the feature rows along
  the edges and projects them. Entry by entry these are one sum: the row of the projected table at an edge's source is the
  source's feature row times the matrix. The aggregations over the edges' targets are then the same operation applied to
  equal arrays, the neighbour counts are the same term, and the combine (self + bias + sum + mean + residual, rectified)
  is spelt with the same operations in the same order. No step uses finiteness.
-/
import proofs.«152504_j884763263722_2_alg».proof.Proof.IdealPacking
import proofs.«152504_j884763263722_2_alg».proof.Proof.NetGather
import proofs.«152504_j884763263722_2_alg».proof.Proof.LibColumnRow
import proofs.«152504_j884763263722_2_alg».proof.Proof.Gen.ReferenceIdeal.Read
import proofs.«152504_j884763263722_2_alg».proof.Proof.DecoderAgreement

set_option maxRecDepth 16384

noncomputable section

open scoped BigOperators

namespace Cert.Proof.Agreement

open Idealize.ShloMosaic Idealize.ShloMosaic.ValueIdx Idealize.ShloMosaic.SegmentSum
open Cert.KernelIdeal Cert.KernelIdeal.Gen Cert.KernelIdeal.Stages

/-! ## The printed dimension records are the plain row gather -/

theorem kernelGather_eq : gather_S100000x32_S1600000x1_S1600000x32_1_0_n_n_0_1_132
    = rowGatherDims 100000 1600000 32 gather_S100000x32_S1600000x1_S1600000x32_1_0_n_n_0_1_132.wf := rfl
theorem refGather6_eq : Cert.ReferenceIdeal.gather_S100000x6_S1600000x1_S1600000x6_1_0_n_n_0_1_16
    = rowGatherDims 100000 1600000 6 Cert.ReferenceIdeal.gather_S100000x6_S1600000x1_S1600000x6_1_0_n_n_0_1_16.wf := rfl
theorem refGather32_eq : Cert.ReferenceIdeal.gather_S100000x32_S1600000x1_S1600000x32_1_0_n_n_0_1_132
    = rowGatherDims 100000 1600000 32 Cert.ReferenceIdeal.gather_S100000x32_S1600000x1_S1600000x32_1_0_n_n_0_1_132.wf := rfl

/-! ## Summed messages: gather the projected rows, or project the gathered rows -/

/-- The first aggregation, for any features X and matrix W whose product sits in columns 32 … 63 of P. -/
theorem summedAt32_eq {Kk : ℕ} (P : FVec Ideal S100000x128 .f32) (X : FVec Ideal ⟨2, ![100000, Kk]⟩ .f32) (W : FVec Ideal ⟨2, ![Kk, 32]⟩ .f32)
    (hP : ∀ (n : Fin 100000) (c : Fin 32) (hc : 32 + c.val < 128), P (ix2 n ⟨32 + c.val, hc⟩) = ∑ q : Fin Kk, X (ix2 n q) * W (ix2 q c))
    (wfK : GatherDims.WF ⟨2, ![100000, Kk]⟩ ⟨2, ![1600000, 1]⟩ ⟨2, ![1600000, Kk]⟩ [1] [0] [] [0] [] 1 ![1, Kk])
    (D : DotDims ⟨2, ![1600000, Kk]⟩ ⟨2, ![Kk, 32]⟩ ⟨2, ![1600000, 32]⟩)
    (hlb : D.lhsBatch = []) (hln : D.lhsNonContracting = [0]) (hlc : D.lhsContracting = [1])
    (hrb : D.rhsBatch = []) (hrn : D.rhsNonContracting = [1]) (hrc : D.rhsContracting = [0])
    (src tgt : IVec S1600000 32) :
    summedAt32 P src tgt = Host.scatterAdd scatter_S100000x32_S1600000x1_S1600000x32_1_0_0_1 zeroTable (asColumn tgt)
        (Host.dotGeneral D none (Host.gather (rowGatherDims 100000 1600000 Kk wfK) X (wrappedColumn src)) W) := by
  unfold summedAt32
  rw [Net.hostProduct D hlb hln hlc hrb hrn hrc, kernelGather_eq]
  exact congrArg (Host.scatterAdd scatter_S100000x32_S1600000x1_S1600000x32_1_0_0_1 zeroTable (asColumn tgt))
    (Net.gather_window_product (N := 100000) (E := 1600000) (K := Kk) (C := 32) (L := 128) (by omega) _ wfK 32 (by omega) P _ X W hP (wrappedColumn src))

/-- The second aggregation, for any features X and matrix W whose product sits in columns 64 … 95 of P. -/
theorem summedAt64_eq {Kk : ℕ} (P : FVec Ideal S100000x128 .f32) (X : FVec Ideal ⟨2, ![100000, Kk]⟩ .f32) (W : FVec Ideal ⟨2, ![Kk, 32]⟩ .f32)
    (hP : ∀ (n : Fin 100000) (c : Fin 32) (hc : 64 + c.val < 128), P (ix2 n ⟨64 + c.val, hc⟩) = ∑ q : Fin Kk, X (ix2 n q) * W (ix2 q c))
    (wfK : GatherDims.WF ⟨2, ![100000, Kk]⟩ ⟨2, ![1600000, 1]⟩ ⟨2, ![1600000, Kk]⟩ [1] [0] [] [0] [] 1 ![1, Kk])
    (D : DotDims ⟨2, ![1600000, Kk]⟩ ⟨2, ![Kk, 32]⟩ ⟨2, ![1600000, 32]⟩)
    (hlb : D.lhsBatch = []) (hln : D.lhsNonContracting = [0]) (hlc : D.lhsContracting = [1])
    (hrb : D.rhsBatch = []) (hrn : D.rhsNonContracting = [1]) (hrc : D.rhsContracting = [0])
    (src tgt : IVec S1600000 32) :
    summedAt64 P src tgt = Host.scatterAdd scatter_S100000x32_S1600000x1_S1600000x32_1_0_0_1 zeroTable (asColumn tgt)
        (Host.dotGeneral D none (Host.gather (rowGatherDims 100000 1600000 Kk wfK) X (wrappedColumn src)) W) := by
  unfold summedAt64
  rw [Net.hostProduct D hlb hln hlc hrb hrn hrc, kernelGather_eq]
  exact congrArg (Host.scatterAdd scatter_S100000x32_S1600000x1_S1600000x32_1_0_0_1 zeroTable (asColumn tgt))
    (Net.gather_window_product (N := 100000) (E := 1600000) (K := Kk) (C := 32) (L := 128) (by omega) _ wfK 64 (by omega) P _ X W hP (wrappedColumn src))

variable (x : FVec Ideal S100000x6 .f32) (e1 e2 : IVec S2x1600000 32) (w3 : FVec Ideal S6x32 .f32) (b4 : FVec Ideal S32 .f32)
  (w5 w6 w7 : FVec Ideal S6x32 .f32) (w8 : FVec Ideal S32x32 .f32) (b9 : FVec Ideal S32 .f32) (w10 w11 w12 : FVec Ideal S32x32 .f32)
  (b13 : FVec Ideal S32 .f32) (w14 : FVec Ideal S32x1 .f32) (b15 : FVec Ideal S1 .f32)

/-! ## The first layer -/

/-- Columns of the packed first projection: the features times each weight matrix in turn. -/
theorem proj1_col0 (n : Fin 100000) (c : Fin 32) (hc : c.val < 128) :
    firstProjection x w3 w5 w6 w7 (ix2 n ⟨c.val, hc⟩) = ∑ q : Fin 6, x (ix2 n q) * w3 (ix2 q c) := by
  unfold firstProjection
  rw [Net.product_ix2]
  exact Finset.sum_congr rfl fun q _ => by rw [stackedWeights1_piece0]
theorem proj1_col1 (n : Fin 100000) (c : Fin 32) (hc : 32 + c.val < 128) :
    firstProjection x w3 w5 w6 w7 (ix2 n ⟨32 + c.val, hc⟩) = ∑ q : Fin 6, x (ix2 n q) * w5 (ix2 q c) := by
  unfold firstProjection
  rw [Net.product_ix2]
  exact Finset.sum_congr rfl fun q _ => by rw [stackedWeights1_piece1]
theorem proj1_col2 (n : Fin 100000) (c : Fin 32) (hc : 64 + c.val < 128) :
    firstProjection x w3 w5 w6 w7 (ix2 n ⟨64 + c.val, hc⟩) = ∑ q : Fin 6, x (ix2 n q) * w6 (ix2 q c) := by
  unfold firstProjection
  rw [Net.product_ix2]
  exact Finset.sum_congr rfl fun q _ => by rw [stackedWeights1_piece2]
theorem proj1_col3 (n : Fin 100000) (c : Fin 32) (hc : 96 + c.val < 128) :
    firstProjection x w3 w5 w6 w7 (ix2 n ⟨96 + c.val, hc⟩) = ∑ q : Fin 6, x (ix2 n q) * w7 (ix2 q c) := by
  unfold firstProjection
  rw [Net.product_ix2]
  exact Finset.sum_congr rfl fun q _ => by rw [stackedWeights1_piece3]

/-- The reference's plain products of the features. -/
theorem ref_self1 : Cert.ReferenceIdeal.Read.val_main_v40 (F := Ideal) x w3 = Net.product (a := 100000) (k := 6) (n := 32) x w3 := by
  unfold Cert.ReferenceIdeal.Read.val_main_v40
  exact Net.hostProduct Cert.ReferenceIdeal.dot_S100000x6_S6x32_S100000x32_1_0_0_1_n_n rfl rfl rfl rfl rfl rfl none x w3
theorem ref_res1 : Cert.ReferenceIdeal.Read.val_main_v39 (F := Ideal) x w7 = Net.product (a := 100000) (k := 6) (n := 32) x w7 := by
  unfold Cert.ReferenceIdeal.Read.val_main_v39
  exact Net.hostProduct Cert.ReferenceIdeal.dot_S100000x6_S6x32_S100000x32_1_0_0_1_n_n rfl rfl rfl rfl rfl rfl none x w7

/-- The two aggregations of the first layer are the reference's. -/
theorem tp1_agree : summedAt32 (firstProjection x w3 w5 w6 w7) (edgeSources e1) (edgeTargets e1) = Cert.ReferenceIdeal.Read.val_main_v14 (F := Ideal) x e1 w5 := by
  rw [summedAt32_eq _ x w5 (fun n c hc => proj1_col1 x w3 w5 w6 w7 n c hc) Cert.ReferenceIdeal.gather_S100000x6_S1600000x1_S1600000x6_1_0_n_n_0_1_16.wf
    Cert.ReferenceIdeal.dot_S1600000x6_S6x32_S1600000x32_1_0_0_1_n_n rfl rfl rfl rfl rfl rfl]
  rfl
theorem it1_agree : summedAt64 (firstProjection x w3 w5 w6 w7) (edgeSources e2) (edgeTargets e2) = Cert.ReferenceIdeal.Read.val_main_v29 (F := Ideal) x e2 w6 := by
  rw [summedAt64_eq _ x w6 (fun n c hc => proj1_col2 x w3 w5 w6 w7 n c hc) Cert.ReferenceIdeal.gather_S100000x6_S1600000x1_S1600000x6_1_0_n_n_0_1_16.wf
    Cert.ReferenceIdeal.dot_S1600000x6_S6x32_S1600000x32_1_0_0_1_n_n rfl rfl rfl rfl rfl rfl]
  rfl

/-- The neighbour count is the reference's, the same term. -/
theorem count_agree : neighbourCount (edgeTargets e2) = Cert.ReferenceIdeal.Read.val_main_v33 (F := Ideal) e2 := rfl

/-- The count column at row n is the count of node n. -/
theorem countColumn_apply (cnt : FVec Ideal S100000 .f32) (n : Fin 100000) : countColumn cnt (ix2 n (0 : Fin 1)) = cnt (ix1 n) := by
  unfold countColumn
  exact Cert.LibColumnRow.broadcastInDim_a_a1_apply bcast_S100000_S100000x1_0 cnt n 0

/-- The reference's divisor at (n, c): max (count n) 1. -/
theorem ref_divisor1 (n : Fin 100000) (c : Fin 32) :
    Cert.ReferenceIdeal.Read.val_main_v37 (F := Ideal) e2 (ix2 n c) = max (Cert.ReferenceIdeal.Read.val_main_v33 (F := Ideal) e2 (ix1 n)) Net.one32 := by
  rw [Cert.ReferenceIdeal.Read.val_main_v37_apply, Cert.ReferenceIdeal.Read.val_main_v36_apply, Cert.ReferenceIdeal.Read.val_main_v35_apply, Cert.ReferenceIdeal.Read.val_main_v34_apply, Cert.ReferenceIdeal.Read.val_main_cst_6_apply]
  have hidx : Cert.ReferenceIdeal.Read.idx_main_v36 (Cert.ReferenceIdeal.Read.idx_main_v37 (ix2 n c)) = ix1 n :=
    funext fun a => Fin.ext (by match a with | ⟨0, _⟩ => rfl)
  rw [hidx]
  rfl

/-- The bias row at column c is the bias vector's entry c, as is the reference's broadcast bias at (n, c). -/
theorem biasRow_apply (b : FVec Ideal S32 .f32) (c : Fin 32) : biasRow b (ix2 (0 : Fin 1) c) = b (ix1 c) := by
  unfold biasRow
  rw [Cert.LibColumnRow.shapeCast_row_eq_broadcastInDim b shapeCasts_S32_S1x32 Cert.ReferenceIdeal.Gen.bcast_S32_S1x32_1]
  exact Cert.LibColumnRow.broadcastInDim_n_1n_apply Cert.ReferenceIdeal.Gen.bcast_S32_S1x32_1 b 0 c
theorem ref_bias1 (n : Fin 100000) (c : Fin 32) : Cert.ReferenceIdeal.Read.val_main_v42 (F := Ideal) b4 (ix2 n c) = b4 (ix1 c) := by
  rw [Cert.ReferenceIdeal.Read.val_main_v42_apply, Cert.ReferenceIdeal.Read.val_main_v41_apply]
  exact congrArg b4 (funext fun a => Fin.ext (by match a with | ⟨0, _⟩ => rfl))

/-- THE FIRST LAYER: the kernel's combine of its packed projection and packed messages is the reference's first-layer output. -/
theorem layer1 : Net.combine (a := 100000) (firstProjection x w3 w5 w6 w7) (biasRow b4) (messagesFrom (firstProjection x w3 w5 w6 w7) e1 e2)
    = Cert.ReferenceIdeal.Read.val_main_v47 (F := Ideal) x e1 e2 w3 b4 w5 w6 w7 := by
  funext i
  obtain ⟨n, c, rfl⟩ : ∃ (n : Fin 100000) (c : Fin 32), i = ix2 n c := ⟨i 0, i 1, eq_ix2 i⟩
  rw [Net.combine_ix2, Cert.ReferenceIdeal.Read.val_main_v47_apply, Cert.ReferenceIdeal.Read.val_main_v46_apply, Cert.ReferenceIdeal.Read.val_main_v45_apply, Cert.ReferenceIdeal.Read.val_main_v44_apply, Cert.ReferenceIdeal.Read.val_main_v43_apply, Cert.ReferenceIdeal.Read.val_main_v38_apply]
  unfold Net.combineAt messagesFrom
  rw [packedMessages_first, packedMessages_second, packedMessages_count, countColumn_apply, tp1_agree, it1_agree, count_agree,
    proj1_col0, proj1_col3, biasRow_apply, ref_self1, ref_res1, Net.product_ix2, Net.product_ix2, ref_bias1, ref_divisor1, Cert.ReferenceIdeal.Read.val_main_call0_v0_apply, Cert.ReferenceIdeal.Read.val_main_call0_cst_apply]
  simp only [Ideal.maximumf_def, Ideal.addf_def, Ideal.hostDivf_def, Ideal.ofBits_def]

/-! ## The second layer -/

/-- Columns 0 … 95 of the second projection: the first layer's features times each second-layer matrix in turn. -/
theorem proj2_col0 (n : Fin 100000) (c : Fin 32) (hc : c.val < 128) :
    secondProjection x e1 e2 w3 b4 w5 w6 w7 w8 w10 w11 (ix2 n ⟨c.val, hc⟩)
      = ∑ q : Fin 32, Cert.ReferenceIdeal.Read.val_main_v47 (F := Ideal) x e1 e2 w3 b4 w5 w6 w7 (ix2 n q) * w8 (ix2 q c) := by
  have hlt : c.val < 96 := by have := c.isLt; omega
  show Net.secondStageAt (a := 100000) _ _ _ _ n ⟨c.val, hc⟩ = _
  unfold Net.secondStageAt
  rw [dif_pos hlt]
  refine Finset.sum_congr rfl fun q _ => ?_
  rw [stackedWeights2_piece0]
  exact congrArg (· * w8 (ix2 q c)) (congrFun (layer1 x e1 e2 w3 b4 w5 w6 w7) (ix2 n q))
theorem proj2_col1 (n : Fin 100000) (c : Fin 32) (hc : 32 + c.val < 128) :
    secondProjection x e1 e2 w3 b4 w5 w6 w7 w8 w10 w11 (ix2 n ⟨32 + c.val, hc⟩)
      = ∑ q : Fin 32, Cert.ReferenceIdeal.Read.val_main_v47 (F := Ideal) x e1 e2 w3 b4 w5 w6 w7 (ix2 n q) * w10 (ix2 q c) := by
  have hlt : 32 + c.val < 96 := by have := c.isLt; omega
  show Net.secondStageAt (a := 100000) _ _ _ _ n ⟨32 + c.val, hc⟩ = _
  unfold Net.secondStageAt
  rw [dif_pos hlt]
  refine Finset.sum_congr rfl fun q _ => ?_
  rw [stackedWeights2_piece1]
  exact congrArg (· * w10 (ix2 q c)) (congrFun (layer1 x e1 e2 w3 b4 w5 w6 w7) (ix2 n q))
theorem proj2_col2 (n : Fin 100000) (c : Fin 32) (hc : 64 + c.val < 128) :
    secondProjection x e1 e2 w3 b4 w5 w6 w7 w8 w10 w11 (ix2 n ⟨64 + c.val, hc⟩)
      = ∑ q : Fin 32, Cert.ReferenceIdeal.Read.val_main_v47 (F := Ideal) x e1 e2 w3 b4 w5 w6 w7 (ix2 n q) * w11 (ix2 q c) := by
  have hlt : 64 + c.val < 96 := by have := c.isLt; omega
  show Net.secondStageAt (a := 100000) _ _ _ _ n ⟨64 + c.val, hc⟩ = _
  unfold Net.secondStageAt
  rw [dif_pos hlt]
  refine Finset.sum_congr rfl fun q _ => ?_
  rw [stackedWeights2_piece2]
  exact congrArg (· * w11 (ix2 q c)) (congrFun (layer1 x e1 e2 w3 b4 w5 w6 w7) (ix2 n q))

/-- Columns 96 … 127 of the second projection: the first layer's features themselves. -/
theorem proj2_col3 (n : Fin 100000) (c : Fin 32) (hc : 96 + c.val < 128) :
    secondProjection x e1 e2 w3 b4 w5 w6 w7 w8 w10 w11 (ix2 n ⟨96 + c.val, hc⟩) = Cert.ReferenceIdeal.Read.val_main_v47 (F := Ideal) x e1 e2 w3 b4 w5 w6 w7 (ix2 n c) := by
  show Net.secondStageAt (a := 100000) _ _ _ _ n ⟨96 + c.val, hc⟩ = _
  unfold Net.secondStageAt
  rw [dif_neg (by show ¬ (96 + c.val < 96); omega)]
  have hcc : (⟨96 + c.val - 96, by have := c.isLt; omega⟩ : Fin 32) = c := Fin.ext (by show 96 + c.val - 96 = c.val; omega)
  rw [hcc]
  exact congrFun (layer1 x e1 e2 w3 b4 w5 w6 w7) (ix2 n c)

/-- The reference's product of the first layer's features with the self matrix. -/
theorem ref_self2 : Cert.ReferenceIdeal.Read.val_main_v87 (F := Ideal) x e1 e2 w3 b4 w5 w6 w7 w8 = Net.product (a := 100000) (k := 32) (n := 32) (Cert.ReferenceIdeal.Read.val_main_v47 (F := Ideal) x e1 e2 w3 b4 w5 w6 w7) w8 := by
  unfold Cert.ReferenceIdeal.Read.val_main_v87
  exact Net.hostProduct Cert.ReferenceIdeal.dot_S100000x32_S32x32_S100000x32_1_0_0_1_n_n rfl rfl rfl rfl rfl rfl none _ w8

/-- The two aggregations of the second layer are the reference's. -/
theorem tp2_agree : summedAt32 (secondProjection x e1 e2 w3 b4 w5 w6 w7 w8 w10 w11) (edgeSources e1) (edgeTargets e1)
    = Cert.ReferenceIdeal.Read.val_main_v62 (F := Ideal) x e1 e2 w3 b4 w5 w6 w7 w10 := by
  rw [summedAt32_eq _ (Cert.ReferenceIdeal.Read.val_main_v47 (F := Ideal) x e1 e2 w3 b4 w5 w6 w7) w10 (fun n c hc => proj2_col1 x e1 e2 w3 b4 w5 w6 w7 w8 w10 w11 n c hc)
    Cert.ReferenceIdeal.gather_S100000x32_S1600000x1_S1600000x32_1_0_n_n_0_1_132.wf Cert.ReferenceIdeal.dot_S1600000x32_S32x32_S1600000x32_1_0_0_1_n_n rfl rfl rfl rfl rfl rfl]
  rfl
theorem it2_agree : summedAt64 (secondProjection x e1 e2 w3 b4 w5 w6 w7 w8 w10 w11) (edgeSources e2) (edgeTargets e2)
    = Cert.ReferenceIdeal.Read.val_main_v77 (F := Ideal) x e1 e2 w3 b4 w5 w6 w7 w11 := by
  rw [summedAt64_eq _ (Cert.ReferenceIdeal.Read.val_main_v47 (F := Ideal) x e1 e2 w3 b4 w5 w6 w7) w11 (fun n c hc => proj2_col2 x e1 e2 w3 b4 w5 w6 w7 w8 w10 w11 n c hc)
    Cert.ReferenceIdeal.gather_S100000x32_S1600000x1_S1600000x32_1_0_n_n_0_1_132.wf Cert.ReferenceIdeal.dot_S1600000x32_S32x32_S1600000x32_1_0_0_1_n_n rfl rfl rfl rfl rfl rfl]
  rfl
theorem count_agree2 : neighbourCount (edgeTargets e2) = Cert.ReferenceIdeal.Read.val_main_v81 (F := Ideal) e2 := rfl
theorem ref_divisor2 (n : Fin 100000) (c : Fin 32) :
    Cert.ReferenceIdeal.Read.val_main_v85 (F := Ideal) e2 (ix2 n c) = max (Cert.ReferenceIdeal.Read.val_main_v81 (F := Ideal) e2 (ix1 n)) Net.one32 := by
  rw [Cert.ReferenceIdeal.Read.val_main_v85_apply, Cert.ReferenceIdeal.Read.val_main_v84_apply, Cert.ReferenceIdeal.Read.val_main_v83_apply, Cert.ReferenceIdeal.Read.val_main_v82_apply, Cert.ReferenceIdeal.Read.val_main_cst_15_apply]
  have hidx : Cert.ReferenceIdeal.Read.idx_main_v84 (Cert.ReferenceIdeal.Read.idx_main_v85 (ix2 n c)) = ix1 n :=
    funext fun a => Fin.ext (by match a with | ⟨0, _⟩ => rfl)
  rw [hidx]
  rfl
theorem ref_bias2 (n : Fin 100000) (c : Fin 32) : Cert.ReferenceIdeal.Read.val_main_v89 (F := Ideal) b9 (ix2 n c) = b9 (ix1 c) := by
  rw [Cert.ReferenceIdeal.Read.val_main_v89_apply, Cert.ReferenceIdeal.Read.val_main_v88_apply]
  exact congrArg b9 (funext fun a => Fin.ext (by match a with | ⟨0, _⟩ => rfl))

/-- THE SECOND LAYER: the kernel's combine of the second projection and its packed messages is the reference's second-layer output. -/
theorem layer2 : Net.combine (a := 100000) (secondProjection x e1 e2 w3 b4 w5 w6 w7 w8 w10 w11) (biasRow b9)
      (messagesFrom (secondProjection x e1 e2 w3 b4 w5 w6 w7 w8 w10 w11) e1 e2)
    = Cert.ReferenceIdeal.Read.val_main_v94 (F := Ideal) x e1 e2 w3 b4 w5 w6 w7 w8 b9 w10 w11 := by
  funext i
  obtain ⟨n, c, rfl⟩ : ∃ (n : Fin 100000) (c : Fin 32), i = ix2 n c := ⟨i 0, i 1, eq_ix2 i⟩
  rw [Net.combine_ix2, Cert.ReferenceIdeal.Read.val_main_v94_apply, Cert.ReferenceIdeal.Read.val_main_v93_apply, Cert.ReferenceIdeal.Read.val_main_v92_apply, Cert.ReferenceIdeal.Read.val_main_v91_apply, Cert.ReferenceIdeal.Read.val_main_v90_apply, Cert.ReferenceIdeal.Read.val_main_v86_apply]
  unfold Net.combineAt messagesFrom
  rw [packedMessages_first, packedMessages_second, packedMessages_count, countColumn_apply, tp2_agree, it2_agree, count_agree2,
    proj2_col0, proj2_col3, biasRow_apply, ref_self2, Net.product_ix2, ref_bias2, ref_divisor2, Cert.ReferenceIdeal.Read.val_main_call1_v0_apply, Cert.ReferenceIdeal.Read.val_main_call1_cst_apply]
  simp only [Ideal.maximumf_def, Ideal.addf_def, Ideal.hostDivf_def, Ideal.ofBits_def]

/-! ## The result -/

/-- The last bias as a cell is the bias vector's one entry. -/
theorem biasCell_apply (b : FVec Ideal S1 .f32) : biasCell b (ix2 (0 : Fin 1) (0 : Fin 1)) = b (ix1 (0 : Fin 1)) := by
  unfold biasCell
  exact Cert.LibColumnRow.shapeCast_a_a1_apply b shapeCasts_S1_S1x1 0 0

/-- THE AGREEMENT: on the extended reals the kernel program's result function of the sixteen arguments is the reference's. -/
theorem agree : result x e1 e2 w3 b4 w5 w6 w7 w8 b9 w10 w11 w12 b13 w14 b15
    = Cert.ReferenceIdeal.Read.val_main_v109 (F := Ideal) x e1 e2 w3 b4 w5 w6 w7 w8 b9 w10 w11 w12 b13 w14 b15 := by
  unfold result
  exact Cert.Proof.DecoderAgreement.decode_agree _ _ _ x e1 e2 w3 b4 w5 w6 w7 w8 b9 w10 w11 w12 b13 w14 b15
    (layer2 x e1 e2 w3 b4 w5 w6 w7 w8 b9 w10 w11) (biasRow b13) (biasRow_apply b13) (biasCell b15) (biasCell_apply b15)

end Cert.Proof.Agreement

end
-- ==== Proof.lean ====
/-
  A two-layer message-passing network with a decoder: the kernel program computes it in three tiled stages with host
  gathers and segment sums between them, the reference in plain array operations.

  The three programs run to the end, fault nowhere and leave their sixteen argument arrays unchanged: for the two
  kernel programs by running the six pieces of the main function in a row (host operations, first stage, host
  operations, second stage, host operations, third stage), each stage's body at every grid point; for the reference by
  the run of its list of host operations. The idealized kernel is the kernel's own text read on the extended reals:
  nothing was rewritten, so that conjunct is trivial. On the extended reals the two idealized programs compute the same
  array: projecting every node's features first and gathering the projected rows along the edges is the same sum, entry
  by entry, as gathering the rows first and projecting them; everything else is the same operations in the same order.
-/
import proofs.«152504_j884763263722_2_alg».proof.Defs
import proofs.«152504_j884763263722_2_alg».proof.Proof.Gen.Kernel
import proofs.«152504_j884763263722_2_alg».proof.Proof.Gen.KernelIdeal
import proofs.«152504_j884763263722_2_alg».proof.Proof.Gen.ReferenceIdeal
import proofs.«152504_j884763263722_2_alg».proof.Proof.Gen.Pre_finite_inputs
import proofs.«152504_j884763263722_2_alg».proof.Proof.BitsRun
import proofs.«152504_j884763263722_2_alg».proof.Proof.IdealRun
import proofs.«152504_j884763263722_2_alg».proof.Proof.ReferenceFrame
import proofs.«152504_j884763263722_2_alg».proof.Proof.IdealValue
import proofs.«152504_j884763263722_2_alg».proof.Proof.IdealPayloads
import proofs.«152504_j884763263722_2_alg».proof.Proof.Agreement
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Stages.frame (F := Bits) m ρ,
  fun m ρ _ => Cert.KernelIdeal.Stages.frame (F := Ideal) m ρ,
  Cert.Proof.ReferenceFrame.frame_ri,
  trivial,
  by
    intro m ρ m' ρ' _ hagree
    refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
    · exact Cert.KernelIdeal.Stages.run_result m ρ Cert.KernelIdeal.Stages.pay1_eq Cert.KernelIdeal.Stages.pay2_eq
    · refine (θ_run Cert.ReferenceIdeal.defs _ _).mono (fun r h c => ⟨(h c).1.trans ?_, (h c).2⟩) (Cert.ReferenceIdeal.Value.run (F := Ideal) m' ρ')
      rw [Cert.ReferenceIdeal.Read.val_main_v109_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
      exact (Cert.Proof.Agreement.agree (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).symm⟩

end Cert.Proof

end
